-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v266) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x7x7x30 : Shape := ⟨4, ![16384, 7, 7, 30]⟩
abbrev S_ : Shape := ⟨0, ![]⟩

class Facts : Prop where
  bcast_S_S16384x7x7x30 : S_.BroadcastsInDim S16384x7x7x30 (![] : Fin 0 → Fin S16384x7x7x30.rank)
  reducesTo_S16384x7x7x30_S_d0_1_2_3 : S16384x7x7x30.ReducesTo [0, 1, 2, 3] S_
  h_S_ : 0 < S_.numel

variable [Facts]

def fn {F : FTy → Type} [FloatOps F] (main_arg0 : FVec F S16384x7x7x30 .f32) (main_arg1 : FVec F S16384x7x7x30 .f32) : IVec S_ 1 :=
  let main_v0 : FVec F S16384x7x7x30 .f32 := Host.absf main_arg0
  let main_cst : FVec F S_ .f32 := constant S_ .f32 0x7F800000#32
  let main_v1 : FVec F S16384x7x7x30 .f32 := broadcastInDim S16384x7x7x30 ![] bcast_S_S16384x7x7x30 main_cst
  let main_v2 : IVec S16384x7x7x30 1 := cmpf .olt main_v0 main_v1
  let main_c : IVec S_ 1 := constantI S_ 1 1#1
  let main_v3 : IVec S_ 1 := (fun x v => Host.reduce IntOp.andi x v reducesTo_S16384x7x7x30_S_d0_1_2_3 h_S_) main_v2 main_c
  let main_v4 : FVec F S16384x7x7x30 .f32 := Host.absf main_arg1
  let main_cst_0 : FVec F S_ .f32 := constant S_ .f32 0x7F800000#32
  let main_v5 : FVec F S16384x7x7x30 .f32 := broadcastInDim S16384x7x7x30 ![] bcast_S_S16384x7x7x30 main_cst_0
  let main_v6 : IVec S16384x7x7x30 1 := cmpf .olt main_v4 main_v5
  let main_c_1 : IVec S_ 1 := constantI S_ 1 1#1
  let main_v7 : IVec S_ 1 := (fun x v => Host.reduce IntOp.andi x v reducesTo_S16384x7x7x30_S_d0_1_2_3 h_S_) main_v6 main_c_1
  let main_v8 : IVec S_ 1 := andi main_v3 main_v7
  main_v8
-- ==== Kernel.lean ====
abbrev S16384x7x7x30 : Shape := ⟨4, ![16384, 7, 7, 30]⟩
abbrev S802816x30 : Shape := ⟨2, ![802816, 30]⟩
abbrev S1x1 : Shape := ⟨2, ![1, 1]⟩
abbrev S2048x30 : Shape := ⟨2, ![2048, 30]⟩
abbrev S2048x1 : Shape := ⟨2, ![2048, 1]⟩
abbrev S2048x4 : Shape := ⟨2, ![2048, 4]⟩
abbrev S2048x2 : Shape := ⟨2, ![2048, 2]⟩
abbrev S2048 : Shape := ⟨1, ![2048]⟩
abbrev S2048x20 : Shape := ⟨2, ![2048, 20]⟩
abbrev S1 : Shape := ⟨1, ![1]⟩
abbrev S_ : Shape := ⟨0, ![]⟩

abbrev nBuf : Space → Nat
  | .hbm => 8
  | .vmem => 6
  | .smem => 0
  | _ => 0

abbrev bufTy : (tb : Table) → Fin (tcTables nBuf tb) → BufTy
  | .hbm, ⟨0, _⟩ => ⟨S16384x7x7x30, .f32⟩
  | .hbm, ⟨1, _⟩ => ⟨S16384x7x7x30, .f32⟩
  | .hbm, ⟨2, _⟩ => ⟨S802816x30, .f32⟩
  | .hbm, ⟨3, _⟩ => ⟨S802816x30, .f32⟩
  | .hbm, ⟨4, _⟩ => ⟨S1x1, .f32⟩
  | .hbm, ⟨5, _⟩ => ⟨S_, .f32⟩
  | .hbm, ⟨6, _⟩ => ⟨S_, .f32⟩
  | .hbm, ⟨7, _⟩ => ⟨S_, .f32⟩
  | .local _ .vmem, ⟨0, _⟩ => ⟨S2048x30, .f32⟩
  | .local _ .vmem, ⟨1, _⟩ => ⟨S2048x30, .f32⟩
  | .local _ .vmem, ⟨2, _⟩ => ⟨S2048x30, .f32⟩
  | .local _ .vmem, ⟨3, _⟩ => ⟨S2048x30, .f32⟩
  | .local _ .vmem, ⟨4, _⟩ => ⟨S1x1, .f32⟩
  | .local _ .vmem, ⟨5, _⟩ => ⟨S1x1, .f32⟩
  | _, _ => ⟨S16384x7x7x30, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![392], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x30 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x30 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  shapeCasts_S16384x7x7x30_S802816x30 : S16384x7x7x30.ShapeCasts S802816x30
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S2048x30_S2048x30_0_0 : ∀ a, (![0, 0] : Fin 2 → Nat) a + S2048x30.size a ≤ S2048x30.size a
  h_S2048x30 : 0 < S2048x30.numel
  shapeCasts_S2048x30_S2048x30 : S2048x30.ShapeCasts S2048x30
  slices_S2048x30_o0_4_S2048x1 : S2048x30.Slices ![0, 4] S2048x1
  natLt_1_32 : 1 < 32
  slices_S2048x30_o0_0_S2048x4 : S2048x30.Slices ![0, 0] S2048x4
  slices_S2048x4_o0_0_S2048x1 : S2048x4.Slices ![0, 0] S2048x1
  slices_S2048x4_o0_2_S2048x1 : S2048x4.Slices ![0, 2] S2048x1
  slices_S2048x4_o0_1_S2048x1 : S2048x4.Slices ![0, 1] S2048x1
  slices_S2048x4_o0_3_S2048x1 : S2048x4.Slices ![0, 3] S2048x1
  slices_S2048x30_o0_5_S2048x4 : S2048x30.Slices ![0, 5] S2048x4
  slices_S2048x30_o0_0_S2048x2 : S2048x30.Slices ![0, 0] S2048x2
  broadcasts_S2048x1_S2048x2 : S2048x1.Broadcasts S2048x2
  slices_S2048x30_o0_5_S2048x2 : S2048x30.Slices ![0, 5] S2048x2
  slices_S2048x30_o0_2_S2048x2 : S2048x30.Slices ![0, 2] S2048x2
  slices_S2048x30_o0_7_S2048x2 : S2048x30.Slices ![0, 7] S2048x2
  slices_S2048x30_o0_9_S2048x1 : S2048x30.Slices ![0, 9] S2048x1
  reduces_S2048x2_S2048 : S2048x2.Reduces [1] S2048
  shapeCasts_S2048_S2048x1 : S2048.ShapeCasts S2048x1
  slices_S2048x30_o0_10_S2048x20 : S2048x30.Slices ![0, 10] S2048x20
  reduces_S2048x20_S2048 : S2048x20.Reduces [1] S2048
  reduces_S2048x1_S1 : S2048x1.Reduces [0] S1
  shapeCasts_S1_S1x1 : S1.ShapeCasts S1x1
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x30.size a ≤ S802816x30.size a
  hwx0_0 : ∀ i : grid0.Coords, EltTy.bits .f32 = 32 ∨ (Rect.block (s := S802816x30) S2048x30.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x30.size a ≤ S802816x30.size a
  hwx0_1 : ∀ i : grid0.Coords, EltTy.bits .f32 = 32 ∨ (Rect.block (s := S802816x30) S2048x30.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)

variable [Facts₀]

abbrev win0_0 : Pipeline.Window sig grid0 :=
  Pipeline.Window.ofSpec (Memref.whole main_v0) S2048x30.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S2048x30.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16384x7x7x30 : Shape := ⟨4, ![16384, 7, 7, 30]⟩
abbrev S16384x7x7x1 : Shape := ⟨4, ![16384, 7, 7, 1]⟩
abbrev S16384x7x7 : Shape := ⟨3, ![16384, 7, 7]⟩
abbrev S_ : Shape := ⟨0, ![]⟩
abbrev S16384x7x7x4 : Shape := ⟨4, ![16384, 7, 7, 4]⟩
abbrev S16384x7x7x2 : Shape := ⟨4, ![16384, 7, 7, 2]⟩
abbrev S16384x7x7x20 : Shape := ⟨4, ![16384, 7, 7, 20]⟩

abbrev nBuf : Space → Nat
  | .hbm => 318
  | .vmem => 0
  | .smem => 0
  | _ => 0

abbrev hbmTy0_0 (i : Nat) : BufTy := match i % 128 with
  | 0 => ⟨S16384x7x7x30, .f32⟩
  | 1 => ⟨S16384x7x7x30, .f32⟩
  | 2 => ⟨S16384x7x7x1, .f32⟩
  | 3 => ⟨S16384x7x7, .f32⟩
  | 4 => ⟨S_, .f32⟩
  | 5 => ⟨S16384x7x7, .f32⟩
  | 6 => ⟨S16384x7x7, .i1⟩
  | 7 => ⟨S16384x7x7, .f32⟩
  | 8 => ⟨S_, .f32⟩
  | 9 => ⟨S16384x7x7, .f32⟩
  | 10 => ⟨S16384x7x7, .f32⟩
  | 11 => ⟨S16384x7x7x4, .f32⟩
  | 12 => ⟨S16384x7x7x4, .f32⟩
  | 13 => ⟨S16384x7x7x1, .f32⟩
  | 14 => ⟨S16384x7x7, .f32⟩
  | 15 => ⟨S16384x7x7x1, .f32⟩
  | 16 => ⟨S16384x7x7, .f32⟩
  | 17 => ⟨S_, .f32⟩
  | 18 => ⟨S16384x7x7, .f32⟩
  | 19 => ⟨S16384x7x7, .f32⟩
  | 20 => ⟨S16384x7x7, .f32⟩
  | 21 => ⟨S16384x7x7x1, .f32⟩
  | 22 => ⟨S16384x7x7, .f32⟩
  | 23 => ⟨S16384x7x7x1, .f32⟩
  | 24 => ⟨S16384x7x7, .f32⟩
  | 25 => ⟨S_, .f32⟩
  | 26 => ⟨S16384x7x7, .f32⟩
  | 27 => ⟨S16384x7x7, .f32⟩
  | 28 => ⟨S16384x7x7, .f32⟩
  | 29 => ⟨S16384x7x7x1, .f32⟩
  | 30 => ⟨S16384x7x7, .f32⟩
  | 31 => ⟨S16384x7x7x1, .f32⟩
  | 32 => ⟨S16384x7x7, .f32⟩
  | 33 => ⟨S_, .f32⟩
  | 34 => ⟨S16384x7x7, .f32⟩
  | 35 => ⟨S16384x7x7, .f32⟩
  | 36 => ⟨S16384x7x7, .f32⟩
  | 37 => ⟨S16384x7x7x1, .f32⟩
  | 38 => ⟨S16384x7x7, .f32⟩
  | 39 => ⟨S16384x7x7x1, .f32⟩
  | 40 => ⟨S16384x7x7, .f32⟩
  | 41 => ⟨S_, .f32⟩
  | 42 => ⟨S16384x7x7, .f32⟩
  | 43 => ⟨S16384x7x7, .f32⟩
  | 44 => ⟨S16384x7x7, .f32⟩
  | 45 => ⟨S16384x7x7x1, .f32⟩
  | 46 => ⟨S16384x7x7, .f32⟩
  | 47 => ⟨S16384x7x7x1, .f32⟩
  | 48 => ⟨S16384x7x7, .f32⟩
  | 49 => ⟨S_, .f32⟩
  | 50 => ⟨S16384x7x7, .f32⟩
  | 51 => ⟨S16384x7x7, .f32⟩
  | 52 => ⟨S16384x7x7, .f32⟩
  | 53 => ⟨S16384x7x7x1, .f32⟩
  | 54 => ⟨S16384x7x7, .f32⟩
  | 55 => ⟨S16384x7x7x1, .f32⟩
  | 56 => ⟨S16384x7x7, .f32⟩
  | 57 => ⟨S_, .f32⟩
  | 58 => ⟨S16384x7x7, .f32⟩
  | 59 => ⟨S16384x7x7, .f32⟩
  | 60 => ⟨S16384x7x7, .f32⟩
  | 61 => ⟨S16384x7x7x1, .f32⟩
  | 62 => ⟨S16384x7x7, .f32⟩
  | 63 => ⟨S16384x7x7x1, .f32⟩
  | 64 => ⟨S16384x7x7, .f32⟩
  | 65 => ⟨S_, .f32⟩
  | 66 => ⟨S16384x7x7, .f32⟩
  | 67 => ⟨S16384x7x7, .f32⟩
  | 68 => ⟨S16384x7x7, .f32⟩
  | 69 => ⟨S16384x7x7x1, .f32⟩
  | 70 => ⟨S16384x7x7, .f32⟩
  | 71 => ⟨S16384x7x7x1, .f32⟩
  | 72 => ⟨S16384x7x7, .f32⟩
  | 73 => ⟨S_, .f32⟩
  | 74 => ⟨S16384x7x7, .f32⟩
  | 75 => ⟨S16384x7x7, .f32⟩
  | 76 => ⟨S16384x7x7, .f32⟩
  | 77 => ⟨S16384x7x7, .f32⟩
  | 78 => ⟨S16384x7x7, .f32⟩
  | 79 => ⟨S16384x7x7, .f32⟩
  | 80 => ⟨S_, .f32⟩
  | 81 => ⟨S_, .f32⟩
  | 82 => ⟨S16384x7x7, .f32⟩
  | 83 => ⟨S16384x7x7, .f32⟩
  | 84 => ⟨S16384x7x7, .f32⟩
  | 85 => ⟨S16384x7x7, .f32⟩
  | 86 => ⟨S16384x7x7, .f32⟩
  | 87 => ⟨S_, .f32⟩
  | 88 => ⟨S_, .f32⟩
  | 89 => ⟨S16384x7x7, .f32⟩
  | 90 => ⟨S16384x7x7, .f32⟩
  | 91 => ⟨S16384x7x7, .f32⟩
  | 92 => ⟨S16384x7x7x1, .f32⟩
  | 93 => ⟨S16384x7x7, .f32⟩
  | 94 => ⟨S16384x7x7x1, .f32⟩
  | 95 => ⟨S16384x7x7, .f32⟩
  | 96 => ⟨S16384x7x7, .f32⟩
  | 97 => ⟨S16384x7x7x1, .f32⟩
  | 98 => ⟨S16384x7x7, .f32⟩
  | 99 => ⟨S16384x7x7x1, .f32⟩
  | 100 => ⟨S16384x7x7, .f32⟩
  | 101 => ⟨S16384x7x7, .f32⟩
  | 102 => ⟨S16384x7x7, .f32⟩
  | 103 => ⟨S16384x7x7, .f32⟩
  | 104 => ⟨S_, .f32⟩
  | 105 => ⟨S16384x7x7, .f32⟩
  | 106 => ⟨S16384x7x7, .f32⟩
  | 107 => ⟨S16384x7x7, .f32⟩
  | 108 => ⟨S16384x7x7x4, .f32⟩
  | 109 => ⟨S16384x7x7x4, .f32⟩
  | 110 => ⟨S16384x7x7x1, .f32⟩
  | 111 => ⟨S16384x7x7, .f32⟩
  | 112 => ⟨S16384x7x7x1, .f32⟩
  | 113 => ⟨S16384x7x7, .f32⟩
  | 114 => ⟨S_, .f32⟩
  | 115 => ⟨S16384x7x7, .f32⟩
  | 116 => ⟨S16384x7x7, .f32⟩
  | 117 => ⟨S16384x7x7, .f32⟩
  | 118 => ⟨S16384x7x7x1, .f32⟩
  | 119 => ⟨S16384x7x7, .f32⟩
  | 120 => ⟨S16384x7x7x1, .f32⟩
  | 121 => ⟨S16384x7x7, .f32⟩
  | 122 => ⟨S_, .f32⟩
  | 123 => ⟨S16384x7x7, .f32⟩
  | 124 => ⟨S16384x7x7, .f32⟩
  | 125 => ⟨S16384x7x7, .f32⟩
  | 126 => ⟨S16384x7x7x1, .f32⟩
  | 127 => ⟨S16384x7x7, .f32⟩
  | _ => ⟨S16384x7x7x30, .f32⟩

abbrev hbmTy0_1 (i : Nat) : BufTy := match i % 128 with
  | 0 => ⟨S16384x7x7x1, .f32⟩
  | 1 => ⟨S16384x7x7, .f32⟩
  | 2 => ⟨S_, .f32⟩
  | 3 => ⟨S16384x7x7, .f32⟩
  | 4 => ⟨S16384x7x7, .f32⟩
  | 5 => ⟨S16384x7x7, .f32⟩
  | 6 => ⟨S16384x7x7x1, .f32⟩
  | 7 => ⟨S16384x7x7, .f32⟩
  | 8 => ⟨S16384x7x7x1, .f32⟩
  | 9 => ⟨S16384x7x7, .f32⟩
  | 10 => ⟨S_, .f32⟩
  | 11 => ⟨S16384x7x7, .f32⟩
  | 12 => ⟨S16384x7x7, .f32⟩
  | 13 => ⟨S16384x7x7, .f32⟩
  | 14 => ⟨S16384x7x7x1, .f32⟩
  | 15 => ⟨S16384x7x7, .f32⟩
  | 16 => ⟨S16384x7x7x1, .f32⟩
  | 17 => ⟨S16384x7x7, .f32⟩
  | 18 => ⟨S_, .f32⟩
  | 19 => ⟨S16384x7x7, .f32⟩
  | 20 => ⟨S16384x7x7, .f32⟩
  | 21 => ⟨S16384x7x7, .f32⟩
  | 22 => ⟨S16384x7x7x1, .f32⟩
  | 23 => ⟨S16384x7x7, .f32⟩
  | 24 => ⟨S16384x7x7x1, .f32⟩
  | 25 => ⟨S16384x7x7, .f32⟩
  | 26 => ⟨S_, .f32⟩
  | 27 => ⟨S16384x7x7, .f32⟩
  | 28 => ⟨S16384x7x7, .f32⟩
  | 29 => ⟨S16384x7x7, .f32⟩
  | 30 => ⟨S16384x7x7x1, .f32⟩
  | 31 => ⟨S16384x7x7, .f32⟩
  | 32 => ⟨S16384x7x7x1, .f32⟩
  | 33 => ⟨S16384x7x7, .f32⟩
  | 34 => ⟨S_, .f32⟩
  | 35 => ⟨S16384x7x7, .f32⟩
  | 36 => ⟨S16384x7x7, .f32⟩
  | 37 => ⟨S16384x7x7, .f32⟩
  | 38 => ⟨S16384x7x7x1, .f32⟩
  | 39 => ⟨S16384x7x7, .f32⟩
  | 40 => ⟨S16384x7x7x1, .f32⟩
  | 41 => ⟨S16384x7x7, .f32⟩
  | 42 => ⟨S_, .f32⟩
  | 43 => ⟨S16384x7x7, .f32⟩
  | 44 => ⟨S16384x7x7, .f32⟩
  | 45 => ⟨S16384x7x7, .f32⟩
  | 46 => ⟨S16384x7x7, .f32⟩
  | 47 => ⟨S16384x7x7, .f32⟩
  | 48 => ⟨S16384x7x7, .f32⟩
  | 49 => ⟨S_, .f32⟩
  | 50 => ⟨S_, .f32⟩
  | 51 => ⟨S16384x7x7, .f32⟩
  | 52 => ⟨S16384x7x7, .f32⟩
  | 53 => ⟨S16384x7x7, .f32⟩
  | 54 => ⟨S16384x7x7, .f32⟩
  | 55 => ⟨S16384x7x7, .f32⟩
  | 56 => ⟨S_, .f32⟩
  | 57 => ⟨S_, .f32⟩
  | 58 => ⟨S16384x7x7, .f32⟩
  | 59 => ⟨S16384x7x7, .f32⟩
  | 60 => ⟨S16384x7x7, .f32⟩
  | 61 => ⟨S16384x7x7x1, .f32⟩
  | 62 => ⟨S16384x7x7, .f32⟩
  | 63 => ⟨S16384x7x7x1, .f32⟩
  | 64 => ⟨S16384x7x7, .f32⟩
  | 65 => ⟨S16384x7x7, .f32⟩
  | 66 => ⟨S16384x7x7x1, .f32⟩
  | 67 => ⟨S16384x7x7, .f32⟩
  | 68 => ⟨S16384x7x7x1, .f32⟩
  | 69 => ⟨S16384x7x7, .f32⟩
  | 70 => ⟨S16384x7x7, .f32⟩
  | 71 => ⟨S16384x7x7, .f32⟩
  | 72 => ⟨S16384x7x7, .f32⟩
  | 73 => ⟨S_, .f32⟩
  | 74 => ⟨S16384x7x7, .f32⟩
  | 75 => ⟨S16384x7x7, .f32⟩
  | 76 => ⟨S16384x7x7, .f32⟩
  | 77 => ⟨S16384x7x7, .i1⟩
  | 78 => ⟨S16384x7x7, .f32⟩
  | 79 => ⟨S16384x7x7x1, .f32⟩
  | 80 => ⟨S16384x7x7x2, .f32⟩
  | 81 => ⟨S16384x7x7x2, .f32⟩
  | 82 => ⟨S16384x7x7x2, .f32⟩
  | 83 => ⟨S_, .f32⟩
  | 84 => ⟨S16384x7x7x1, .f32⟩
  | 85 => ⟨S16384x7x7x1, .f32⟩
  | 86 => ⟨S16384x7x7x2, .f32⟩
  | 87 => ⟨S16384x7x7x2, .f32⟩
  | 88 => ⟨S16384x7x7x2, .f32⟩
  | 89 => ⟨S16384x7x7x2, .f32⟩
  | 90 => ⟨S16384x7x7x2, .f32⟩
  | 91 => ⟨S16384x7x7x2, .f32⟩
  | 92 => ⟨S16384x7x7x2, .f32⟩
  | 93 => ⟨S_, .f32⟩
  | 94 => ⟨S16384x7x7x1, .f32⟩
  | 95 => ⟨S16384x7x7x1, .f32⟩
  | 96 => ⟨S16384x7x7x2, .f32⟩
  | 97 => ⟨S16384x7x7x2, .f32⟩
  | 98 => ⟨S16384x7x7x2, .f32⟩
  | 99 => ⟨S16384x7x7x2, .f32⟩
  | 100 => ⟨S16384x7x7x2, .f32⟩
  | 101 => ⟨S16384x7x7x2, .f32⟩
  | 102 => ⟨S16384x7x7x2, .f32⟩
  | 103 => ⟨S_, .f32⟩
  | 104 => ⟨S16384x7x7x1, .f32⟩
  | 105 => ⟨S16384x7x7x1, .f32⟩
  | 106 => ⟨S16384x7x7x2, .f32⟩
  | 107 => ⟨S16384x7x7x2, .f32⟩
  | 108 => ⟨S16384x7x7x2, .f32⟩
  | 109 => ⟨S16384x7x7x2, .f32⟩
  | 110 => ⟨S16384x7x7x2, .f32⟩
  | 111 => ⟨S16384x7x7x2, .f32⟩
  | 112 => ⟨S16384x7x7x2, .f32⟩
  | 113 => ⟨S_, .f32⟩
  | 114 => ⟨S16384x7x7x1, .f32⟩
  | 115 => ⟨S16384x7x7x1, .f32⟩
  | 116 => ⟨S16384x7x7x2, .f32⟩
  | 117 => ⟨S16384x7x7x2, .f32⟩
  | 118 => ⟨S16384x7x7x2, .f32⟩
  | 119 => ⟨S16384x7x7x2, .f32⟩
  | 120 => ⟨S16384x7x7x1, .f32⟩
  | 121 => ⟨S16384x7x7, .f32⟩
  | 122 => ⟨S16384x7x7x1, .f32⟩
  | 123 => ⟨S16384x7x7, .f32⟩
  | 124 => ⟨S16384x7x7, .f32⟩
  | 125 => ⟨S16384x7x7x1, .f32⟩
  | 126 => ⟨S16384x7x7, .f32⟩
  | 127 => ⟨S16384x7x7x1, .f32⟩
  | _ => ⟨S16384x7x7x30, .f32⟩

abbrev hbmTy0_2 (i : Nat) : BufTy := match i % 128 with
  | 0 => ⟨S16384x7x7, .f32⟩
  | 1 => ⟨S16384x7x7, .f32⟩
  | 2 => ⟨S16384x7x7, .f32⟩
  | 3 => ⟨S16384x7x7, .f32⟩
  | 4 => ⟨S16384x7x7x2, .f32⟩
  | 5 => ⟨S16384x7x7x2, .f32⟩
  | 6 => ⟨S_, .f32⟩
  | 7 => ⟨S16384x7x7, .f32⟩
  | 8 => ⟨S16384x7x7, .f32⟩
  | 9 => ⟨S_, .f32⟩
  | 10 => ⟨S_, .f32⟩
  | 11 => ⟨S_, .f32⟩
  | 12 => ⟨S_, .f32⟩
  | 13 => ⟨S16384x7x7x2, .f32⟩
  | 14 => ⟨S16384x7x7x2, .f32⟩
  | 15 => ⟨S16384x7x7x2, .f32⟩
  | 16 => ⟨S16384x7x7x2, .f32⟩
  | 17 => ⟨S_, .f32⟩
  | 18 => ⟨S16384x7x7, .f32⟩
  | 19 => ⟨S16384x7x7, .f32⟩
  | 20 => ⟨S_, .f32⟩
  | 21 => ⟨S_, .f32⟩
  | 22 => ⟨S16384x7x7, .f32⟩
  | 23 => ⟨S16384x7x7, .f32⟩
  | 24 => ⟨S16384x7x7, .f32⟩
  | 25 => ⟨S_, .f32⟩
  | 26 => ⟨S_, .f32⟩
  | 27 => ⟨S16384x7x7, .f32⟩
  | 28 => ⟨S16384x7x7, .f32⟩
  | 29 => ⟨S16384x7x7, .f32⟩
  | 30 => ⟨S_, .f32⟩
  | 31 => ⟨S_, .f32⟩
  | 32 => ⟨S_, .f32⟩
  | 33 => ⟨S_, .f32⟩
  | 34 => ⟨S16384x7x7x1, .f32⟩
  | 35 => ⟨S16384x7x7, .f32⟩
  | 36 => ⟨S16384x7x7, .f32⟩
  | 37 => ⟨S16384x7x7x1, .f32⟩
  | 38 => ⟨S16384x7x7, .f32⟩
  | 39 => ⟨S16384x7x7, .f32⟩
  | 40 => ⟨S16384x7x7, .f32⟩
  | 41 => ⟨S16384x7x7, .f32⟩
  | 42 => ⟨S_, .f32⟩
  | 43 => ⟨S_, .f32⟩
  | 44 => ⟨S_, .f32⟩
  | 45 => ⟨S_, .f32⟩
  | 46 => ⟨S16384x7x7x20, .f32⟩
  | 47 => ⟨S16384x7x7x20, .f32⟩
  | 48 => ⟨S16384x7x7x20, .f32⟩
  | 49 => ⟨S16384x7x7x20, .f32⟩
  | 50 => ⟨S_, .f32⟩
  | 51 => ⟨S16384x7x7, .f32⟩
  | 52 => ⟨S16384x7x7, .f32⟩
  | 53 => ⟨S_, .f32⟩
  | 54 => ⟨S_, .f32⟩
  | 55 => ⟨S_, .f32⟩
  | 56 => ⟨S_, .f32⟩
  | 57 => ⟨S_, .f32⟩
  | 58 => ⟨S_, .f32⟩
  | 59 => ⟨S_, .f32⟩
  | 60 => ⟨S_, .f32⟩
  | 61 => ⟨S_, .f32⟩
  | _ => ⟨S16384x7x7x30, .f32⟩

abbrev hbmTy (i : Nat) : BufTy := match i / 128 with
  | 0 => hbmTy0_0 i
  | 1 => hbmTy0_1 i
  | 2 => hbmTy0_2 i
  | _ => ⟨S16384x7x7x30, .f32⟩

abbrev bufTy : (tb : Table) → Fin (tcTables nBuf tb) → BufTy
  | .hbm, ⟨i, _⟩ => hbmTy i
  | _, _ => ⟨S16384x7x7x30, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst_1 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_cst_2 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_cst_3 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_cst_4 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_cst_5 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_cst_6 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_cst_7 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_cst_8 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_cst_9 : Ref sig .tc := ⟨.hbm, 80, rfl⟩
abbrev main_call0_v0 : Ref sig .tc := ⟨.hbm, 81, rfl⟩
abbrev main_call0_v1 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_cst_10 : Ref sig .tc := ⟨.hbm, 87, rfl⟩
abbrev main_call1_v0 : Ref sig .tc := ⟨.hbm, 88, rfl⟩
abbrev main_call1_v1 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_cst_11 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩
abbrev main_v93 : Ref sig .tc := ⟨.hbm, 112, rfl⟩
abbrev main_v94 : Ref sig .tc := ⟨.hbm, 113, rfl⟩
abbrev main_cst_12 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩
abbrev main_v101 : Ref sig .tc := ⟨.hbm, 121, rfl⟩
abbrev main_cst_13 : Ref sig .tc := ⟨.hbm, 122, rfl⟩
abbrev main_v102 : Ref sig .tc := ⟨.hbm, 123, rfl⟩
abbrev main_v103 : Ref sig .tc := ⟨.hbm, 124, rfl⟩
abbrev main_v104 : Ref sig .tc := ⟨.hbm, 125, rfl⟩
abbrev main_v105 : Ref sig .tc := ⟨.hbm, 126, rfl⟩
abbrev main_v106 : Ref sig .tc := ⟨.hbm, 127, rfl⟩
abbrev main_v107 : Ref sig .tc := ⟨.hbm, 128, rfl⟩
abbrev main_v108 : Ref sig .tc := ⟨.hbm, 129, rfl⟩
abbrev main_cst_14 : Ref sig .tc := ⟨.hbm, 130, rfl⟩
abbrev main_v109 : Ref sig .tc := ⟨.hbm, 131, rfl⟩
abbrev main_v110 : Ref sig .tc := ⟨.hbm, 132, rfl⟩
abbrev main_v111 : Ref sig .tc := ⟨.hbm, 133, rfl⟩
abbrev main_v112 : Ref sig .tc := ⟨.hbm, 134, rfl⟩
abbrev main_v113 : Ref sig .tc := ⟨.hbm, 135, rfl⟩
abbrev main_v114 : Ref sig .tc := ⟨.hbm, 136, rfl⟩
abbrev main_v115 : Ref sig .tc := ⟨.hbm, 137, rfl⟩
abbrev main_cst_15 : Ref sig .tc := ⟨.hbm, 138, rfl⟩
abbrev main_v116 : Ref sig .tc := ⟨.hbm, 139, rfl⟩
abbrev main_v117 : Ref sig .tc := ⟨.hbm, 140, rfl⟩
abbrev main_v118 : Ref sig .tc := ⟨.hbm, 141, rfl⟩
abbrev main_v119 : Ref sig .tc := ⟨.hbm, 142, rfl⟩
abbrev main_v120 : Ref sig .tc := ⟨.hbm, 143, rfl⟩
abbrev main_v121 : Ref sig .tc := ⟨.hbm, 144, rfl⟩
abbrev main_v122 : Ref sig .tc := ⟨.hbm, 145, rfl⟩
abbrev main_cst_16 : Ref sig .tc := ⟨.hbm, 146, rfl⟩
abbrev main_v123 : Ref sig .tc := ⟨.hbm, 147, rfl⟩
abbrev main_v124 : Ref sig .tc := ⟨.hbm, 148, rfl⟩
abbrev main_v125 : Ref sig .tc := ⟨.hbm, 149, rfl⟩
abbrev main_v126 : Ref sig .tc := ⟨.hbm, 150, rfl⟩
abbrev main_v127 : Ref sig .tc := ⟨.hbm, 151, rfl⟩
abbrev main_v128 : Ref sig .tc := ⟨.hbm, 152, rfl⟩
abbrev main_v129 : Ref sig .tc := ⟨.hbm, 153, rfl⟩
abbrev main_cst_17 : Ref sig .tc := ⟨.hbm, 154, rfl⟩
abbrev main_v130 : Ref sig .tc := ⟨.hbm, 155, rfl⟩
abbrev main_v131 : Ref sig .tc := ⟨.hbm, 156, rfl⟩
abbrev main_v132 : Ref sig .tc := ⟨.hbm, 157, rfl⟩
abbrev main_v133 : Ref sig .tc := ⟨.hbm, 158, rfl⟩
abbrev main_v134 : Ref sig .tc := ⟨.hbm, 159, rfl⟩
abbrev main_v135 : Ref sig .tc := ⟨.hbm, 160, rfl⟩
abbrev main_v136 : Ref sig .tc := ⟨.hbm, 161, rfl⟩
abbrev main_cst_18 : Ref sig .tc := ⟨.hbm, 162, rfl⟩
abbrev main_v137 : Ref sig .tc := ⟨.hbm, 163, rfl⟩
abbrev main_v138 : Ref sig .tc := ⟨.hbm, 164, rfl⟩
abbrev main_v139 : Ref sig .tc := ⟨.hbm, 165, rfl⟩
abbrev main_v140 : Ref sig .tc := ⟨.hbm, 166, rfl⟩
abbrev main_v141 : Ref sig .tc := ⟨.hbm, 167, rfl⟩
abbrev main_v142 : Ref sig .tc := ⟨.hbm, 168, rfl⟩
abbrev main_v143 : Ref sig .tc := ⟨.hbm, 169, rfl⟩
abbrev main_cst_19 : Ref sig .tc := ⟨.hbm, 170, rfl⟩
abbrev main_v144 : Ref sig .tc := ⟨.hbm, 171, rfl⟩
abbrev main_v145 : Ref sig .tc := ⟨.hbm, 172, rfl⟩
abbrev main_v146 : Ref sig .tc := ⟨.hbm, 173, rfl⟩
abbrev main_v147 : Ref sig .tc := ⟨.hbm, 174, rfl⟩
abbrev main_v148 : Ref sig .tc := ⟨.hbm, 175, rfl⟩
abbrev main_v149 : Ref sig .tc := ⟨.hbm, 176, rfl⟩
abbrev main_cst_20 : Ref sig .tc := ⟨.hbm, 177, rfl⟩
abbrev main_call2_v0 : Ref sig .tc := ⟨.hbm, 178, rfl⟩
abbrev main_call2_v1 : Ref sig .tc := ⟨.hbm, 179, rfl⟩
abbrev main_v150 : Ref sig .tc := ⟨.hbm, 180, rfl⟩
abbrev main_v151 : Ref sig .tc := ⟨.hbm, 181, rfl⟩
abbrev main_v152 : Ref sig .tc := ⟨.hbm, 182, rfl⟩
abbrev main_v153 : Ref sig .tc := ⟨.hbm, 183, rfl⟩
abbrev main_cst_21 : Ref sig .tc := ⟨.hbm, 184, rfl⟩
abbrev main_call3_v0 : Ref sig .tc := ⟨.hbm, 185, rfl⟩
abbrev main_call3_v1 : Ref sig .tc := ⟨.hbm, 186, rfl⟩
abbrev main_v154 : Ref sig .tc := ⟨.hbm, 187, rfl⟩
abbrev main_v155 : Ref sig .tc := ⟨.hbm, 188, rfl⟩
abbrev main_v156 : Ref sig .tc := ⟨.hbm, 189, rfl⟩
abbrev main_v157 : Ref sig .tc := ⟨.hbm, 190, rfl⟩
abbrev main_v158 : Ref sig .tc := ⟨.hbm, 191, rfl⟩
abbrev main_v159 : Ref sig .tc := ⟨.hbm, 192, rfl⟩
abbrev main_v160 : Ref sig .tc := ⟨.hbm, 193, rfl⟩
abbrev main_v161 : Ref sig .tc := ⟨.hbm, 194, rfl⟩
abbrev main_v162 : Ref sig .tc := ⟨.hbm, 195, rfl⟩
abbrev main_v163 : Ref sig .tc := ⟨.hbm, 196, rfl⟩
abbrev main_v164 : Ref sig .tc := ⟨.hbm, 197, rfl⟩
abbrev main_v165 : Ref sig .tc := ⟨.hbm, 198, rfl⟩
abbrev main_v166 : Ref sig .tc := ⟨.hbm, 199, rfl⟩
abbrev main_v167 : Ref sig .tc := ⟨.hbm, 200, rfl⟩
abbrev main_cst_22 : Ref sig .tc := ⟨.hbm, 201, rfl⟩
abbrev main_v168 : Ref sig .tc := ⟨.hbm, 202, rfl⟩
abbrev main_v169 : Ref sig .tc := ⟨.hbm, 203, rfl⟩
abbrev main_v170 : Ref sig .tc := ⟨.hbm, 204, rfl⟩
abbrev main_v171 : Ref sig .tc := ⟨.hbm, 205, rfl⟩
abbrev main_v172 : Ref sig .tc := ⟨.hbm, 206, rfl⟩
abbrev main_v173 : Ref sig .tc := ⟨.hbm, 207, rfl⟩
abbrev main_v174 : Ref sig .tc := ⟨.hbm, 208, rfl⟩
abbrev main_v175 : Ref sig .tc := ⟨.hbm, 209, rfl⟩
abbrev main_v176 : Ref sig .tc := ⟨.hbm, 210, rfl⟩
abbrev main_cst_23 : Ref sig .tc := ⟨.hbm, 211, rfl⟩
abbrev main_v177 : Ref sig .tc := ⟨.hbm, 212, rfl⟩
abbrev main_v178 : Ref sig .tc := ⟨.hbm, 213, rfl⟩
abbrev main_v179 : Ref sig .tc := ⟨.hbm, 214, rfl⟩
abbrev main_v180 : Ref sig .tc := ⟨.hbm, 215, rfl⟩
abbrev main_v181 : Ref sig .tc := ⟨.hbm, 216, rfl⟩
abbrev main_v182 : Ref sig .tc := ⟨.hbm, 217, rfl⟩
abbrev main_v183 : Ref sig .tc := ⟨.hbm, 218, rfl⟩
abbrev main_v184 : Ref sig .tc := ⟨.hbm, 219, rfl⟩
abbrev main_v185 : Ref sig .tc := ⟨.hbm, 220, rfl⟩
abbrev main_cst_24 : Ref sig .tc := ⟨.hbm, 221, rfl⟩
abbrev main_v186 : Ref sig .tc := ⟨.hbm, 222, rfl⟩
abbrev main_v187 : Ref sig .tc := ⟨.hbm, 223, rfl⟩
abbrev main_v188 : Ref sig .tc := ⟨.hbm, 224, rfl⟩
abbrev main_v189 : Ref sig .tc := ⟨.hbm, 225, rfl⟩
abbrev main_v190 : Ref sig .tc := ⟨.hbm, 226, rfl⟩
abbrev main_v191 : Ref sig .tc := ⟨.hbm, 227, rfl⟩
abbrev main_v192 : Ref sig .tc := ⟨.hbm, 228, rfl⟩
abbrev main_v193 : Ref sig .tc := ⟨.hbm, 229, rfl⟩
abbrev main_v194 : Ref sig .tc := ⟨.hbm, 230, rfl⟩
abbrev main_cst_25 : Ref sig .tc := ⟨.hbm, 231, rfl⟩
abbrev main_v195 : Ref sig .tc := ⟨.hbm, 232, rfl⟩
abbrev main_v196 : Ref sig .tc := ⟨.hbm, 233, rfl⟩
abbrev main_v197 : Ref sig .tc := ⟨.hbm, 234, rfl⟩
abbrev main_v198 : Ref sig .tc := ⟨.hbm, 235, rfl⟩
abbrev main_v199 : Ref sig .tc := ⟨.hbm, 236, rfl⟩
abbrev main_v200 : Ref sig .tc := ⟨.hbm, 237, rfl⟩
abbrev main_v201 : Ref sig .tc := ⟨.hbm, 238, rfl⟩
abbrev main_v202 : Ref sig .tc := ⟨.hbm, 239, rfl⟩
abbrev main_v203 : Ref sig .tc := ⟨.hbm, 240, rfl⟩
abbrev main_cst_26 : Ref sig .tc := ⟨.hbm, 241, rfl⟩
abbrev main_v204 : Ref sig .tc := ⟨.hbm, 242, rfl⟩
abbrev main_v205 : Ref sig .tc := ⟨.hbm, 243, rfl⟩
abbrev main_v206 : Ref sig .tc := ⟨.hbm, 244, rfl⟩
abbrev main_v207 : Ref sig .tc := ⟨.hbm, 245, rfl⟩
abbrev main_v208 : Ref sig .tc := ⟨.hbm, 246, rfl⟩
abbrev main_v209 : Ref sig .tc := ⟨.hbm, 247, rfl⟩
abbrev main_v210 : Ref sig .tc := ⟨.hbm, 248, rfl⟩
abbrev main_v211 : Ref sig .tc := ⟨.hbm, 249, rfl⟩
abbrev main_v212 : Ref sig .tc := ⟨.hbm, 250, rfl⟩
abbrev main_v213 : Ref sig .tc := ⟨.hbm, 251, rfl⟩
abbrev main_v214 : Ref sig .tc := ⟨.hbm, 252, rfl⟩
abbrev main_v215 : Ref sig .tc := ⟨.hbm, 253, rfl⟩
abbrev main_v216 : Ref sig .tc := ⟨.hbm, 254, rfl⟩
abbrev main_v217 : Ref sig .tc := ⟨.hbm, 255, rfl⟩
abbrev main_v218 : Ref sig .tc := ⟨.hbm, 256, rfl⟩
abbrev main_v219 : Ref sig .tc := ⟨.hbm, 257, rfl⟩
abbrev main_v220 : Ref sig .tc := ⟨.hbm, 258, rfl⟩
abbrev main_v221 : Ref sig .tc := ⟨.hbm, 259, rfl⟩
abbrev main_v222 : Ref sig .tc := ⟨.hbm, 260, rfl⟩
abbrev main_v223 : Ref sig .tc := ⟨.hbm, 261, rfl⟩
abbrev main_cst_27 : Ref sig .tc := ⟨.hbm, 262, rfl⟩
abbrev main_v224 : Ref sig .tc := ⟨.hbm, 263, rfl⟩
abbrev main_v225 : Ref sig .tc := ⟨.hbm, 264, rfl⟩
abbrev main_cst_28 : Ref sig .tc := ⟨.hbm, 265, rfl⟩
abbrev main_v226 : Ref sig .tc := ⟨.hbm, 266, rfl⟩
abbrev main_cst_29 : Ref sig .tc := ⟨.hbm, 267, rfl⟩
abbrev main_v227 : Ref sig .tc := ⟨.hbm, 268, rfl⟩
abbrev main_v228 : Ref sig .tc := ⟨.hbm, 269, rfl⟩
abbrev main_v229 : Ref sig .tc := ⟨.hbm, 270, rfl⟩
abbrev main_v230 : Ref sig .tc := ⟨.hbm, 271, rfl⟩
abbrev main_v231 : Ref sig .tc := ⟨.hbm, 272, rfl⟩
abbrev main_cst_30 : Ref sig .tc := ⟨.hbm, 273, rfl⟩
abbrev main_v232 : Ref sig .tc := ⟨.hbm, 274, rfl⟩
abbrev main_v233 : Ref sig .tc := ⟨.hbm, 275, rfl⟩
abbrev main_cst_31 : Ref sig .tc := ⟨.hbm, 276, rfl⟩
abbrev main_v234 : Ref sig .tc := ⟨.hbm, 277, rfl⟩
abbrev main_v235 : Ref sig .tc := ⟨.hbm, 278, rfl⟩
abbrev main_v236 : Ref sig .tc := ⟨.hbm, 279, rfl⟩
abbrev main_v237 : Ref sig .tc := ⟨.hbm, 280, rfl⟩
abbrev main_cst_32 : Ref sig .tc := ⟨.hbm, 281, rfl⟩
abbrev main_v238 : Ref sig .tc := ⟨.hbm, 282, rfl⟩
abbrev main_v239 : Ref sig .tc := ⟨.hbm, 283, rfl⟩
abbrev main_v240 : Ref sig .tc := ⟨.hbm, 284, rfl⟩
abbrev main_v241 : Ref sig .tc := ⟨.hbm, 285, rfl⟩
abbrev main_cst_33 : Ref sig .tc := ⟨.hbm, 286, rfl⟩
abbrev main_v242 : Ref sig .tc := ⟨.hbm, 287, rfl⟩
abbrev main_cst_34 : Ref sig .tc := ⟨.hbm, 288, rfl⟩
abbrev main_v243 : Ref sig .tc := ⟨.hbm, 289, rfl⟩
abbrev main_v244 : Ref sig .tc := ⟨.hbm, 290, rfl⟩
abbrev main_v245 : Ref sig .tc := ⟨.hbm, 291, rfl⟩
abbrev main_v246 : Ref sig .tc := ⟨.hbm, 292, rfl⟩
abbrev main_v247 : Ref sig .tc := ⟨.hbm, 293, rfl⟩
abbrev main_v248 : Ref sig .tc := ⟨.hbm, 294, rfl⟩
abbrev main_v249 : Ref sig .tc := ⟨.hbm, 295, rfl⟩
abbrev main_v250 : Ref sig .tc := ⟨.hbm, 296, rfl⟩
abbrev main_v251 : Ref sig .tc := ⟨.hbm, 297, rfl⟩
abbrev main_cst_35 : Ref sig .tc := ⟨.hbm, 298, rfl⟩
abbrev main_v252 : Ref sig .tc := ⟨.hbm, 299, rfl⟩
abbrev main_cst_36 : Ref sig .tc := ⟨.hbm, 300, rfl⟩
abbrev main_v253 : Ref sig .tc := ⟨.hbm, 301, rfl⟩
abbrev main_v254 : Ref sig .tc := ⟨.hbm, 302, rfl⟩
abbrev main_v255 : Ref sig .tc := ⟨.hbm, 303, rfl⟩
abbrev main_v256 : Ref sig .tc := ⟨.hbm, 304, rfl⟩
abbrev main_v257 : Ref sig .tc := ⟨.hbm, 305, rfl⟩
abbrev main_cst_37 : Ref sig .tc := ⟨.hbm, 306, rfl⟩
abbrev main_v258 : Ref sig .tc := ⟨.hbm, 307, rfl⟩
abbrev main_v259 : Ref sig .tc := ⟨.hbm, 308, rfl⟩
abbrev main_cst_38 : Ref sig .tc := ⟨.hbm, 309, rfl⟩
abbrev main_v260 : Ref sig .tc := ⟨.hbm, 310, rfl⟩
abbrev main_v261 : Ref sig .tc := ⟨.hbm, 311, rfl⟩
abbrev main_v262 : Ref sig .tc := ⟨.hbm, 312, rfl⟩
abbrev main_v263 : Ref sig .tc := ⟨.hbm, 313, rfl⟩
abbrev main_v264 : Ref sig .tc := ⟨.hbm, 314, rfl⟩
abbrev main_v265 : Ref sig .tc := ⟨.hbm, 315, rfl⟩
abbrev main_cst_39 : Ref sig .tc := ⟨.hbm, 316, rfl⟩
abbrev main_v266 : Ref sig .tc := ⟨.hbm, 317, rfl⟩

abbrev nD : Nat := 1
abbrev τ : Topo := Topo.v7x

variable {F : FTy → Type} [FloatOps F]

class Facts₀ : Prop where
  slices_S16384x7x7x30_S16384x7x7x1_0_0_0_4 : S16384x7x7x30.Slices ![0, 0, 0, 4] S16384x7x7x1
  shapeCasts_S16384x7x7x1_S16384x7x7 : S16384x7x7x1.ShapeCasts S16384x7x7
  bcast_S_S16384x7x7 : S_.BroadcastsInDim S16384x7x7 (![] : Fin 0 → Fin S16384x7x7.rank)
  slices_S16384x7x7x30_S16384x7x7x4_0_0_0_0 : S16384x7x7x30.Slices ![0, 0, 0, 0] S16384x7x7x4
  slices_S16384x7x7x4_S16384x7x7x1_0_0_0_0 : S16384x7x7x4.Slices ![0, 0, 0, 0] S16384x7x7x1
  slices_S16384x7x7x4_S16384x7x7x1_0_0_0_2 : S16384x7x7x4.Slices ![0, 0, 0, 2] S16384x7x7x1
  slices_S16384x7x7x4_S16384x7x7x1_0_0_0_1 : S16384x7x7x4.Slices ![0, 0, 0, 1] S16384x7x7x1
  slices_S16384x7x7x4_S16384x7x7x1_0_0_0_3 : S16384x7x7x4.Slices ![0, 0, 0, 3] S16384x7x7x1
  slices_S16384x7x7x30_S16384x7x7x4_0_0_0_5 : S16384x7x7x30.Slices ![0, 0, 0, 5] S16384x7x7x4
  bcast_S16384x7x7_S16384x7x7x1_0_1_2 : S16384x7x7.BroadcastsInDim S16384x7x7x1 (![0, 1, 2] : Fin 3 → Fin S16384x7x7x1.rank)
  slices_S16384x7x7x30_S16384x7x7x2_0_0_0_0 : S16384x7x7x30.Slices ![0, 0, 0, 0] S16384x7x7x2
  bcast_S16384x7x7x1_S16384x7x7x2_0_1_2_3 : S16384x7x7x1.BroadcastsInDim S16384x7x7x2 (![0, 1, 2, 3] : Fin 4 → Fin S16384x7x7x2.rank)
  bcast_S_S16384x7x7x1 : S_.BroadcastsInDim S16384x7x7x1 (![] : Fin 0 → Fin S16384x7x7x1.rank)
  slices_S16384x7x7x30_S16384x7x7x2_0_0_0_5 : S16384x7x7x30.Slices ![0, 0, 0, 5] S16384x7x7x2
  slices_S16384x7x7x30_S16384x7x7x2_0_0_0_2 : S16384x7x7x30.Slices ![0, 0, 0, 2] S16384x7x7x2
  slices_S16384x7x7x30_S16384x7x7x2_0_0_0_7 : S16384x7x7x30.Slices ![0, 0, 0, 7] S16384x7x7x2
  slices_S16384x7x7x30_S16384x7x7x1_0_0_0_9 : S16384x7x7x30.Slices ![0, 0, 0, 9] S16384x7x7x1
  reducesTo_S16384x7x7x2_S16384x7x7_d3 : S16384x7x7x2.ReducesTo [3] S16384x7x7
  h_S_ : 0 < S_.numel
  reducesTo_S16384x7x7_S_d0_1_2 : S16384x7x7.ReducesTo [0, 1, 2] S_
  slices_S16384x7x7x30_S16384x7x7x20_0_0_0_10 : S16384x7x7x30.Slices ![0, 0, 0, 10] S16384x7x7x20
  reducesTo_S16384x7x7x20_S16384x7x7_d3 : S16384x7x7x20.ReducesTo [3] S16384x7x7

variable [Facts₀]

class Facts : Prop extends Facts₀ where

variable [Facts]
-- ==== Proof.KernelBlock.lean ====
/-
  What one grid point leaves in the carried accumulator, as a pure function of the point's two input
  blocks (2048 rows of 30 entries each) and of the accumulator's contents before the point.

  The body computes, for every row of the block, the row's loss from the row's 30 predicted and 30
  target entries, sums the 2048 row losses, and adds the sum to the accumulator. At the grid's first
  point the accumulator is first set to zero; at every other point it holds what the point before
  left. The output block is a copy of the accumulator. The intermediate values that several later
  values share are named here once: the two overlap ratios, the responsible-box bit and its 0/1
  number.
-/
import proofs.«118524_j27917287424001_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Block

open Cert.KernelIdeal Cert.KernelIdeal.Gen

variable {F : FTy → Type} [FloatOps F]

theorem hz : (![0, 0] : Fin 2 → Nat) = fun _ => 0 := funext fun a => by fin_cases a <;> rfl

section values

variable (x0 x1 : Vec F S2048x30 .f32)

/-- The overlap ratio of the first predicted box with the target box, row by row. -/
def ratio1 : FVec F S2048x1 .f32 :=
  k0_pay17 (k0_pay7 x0) (k0_pay8 x1) (k0_pay9 x0) (k0_pay10 x0) (k0_pay11 x0) (k0_pay12 x0) (k0_pay13 x1) (k0_pay14 x1)
    (k0_pay15 x1) k0_pay16

/-- The overlap ratio of the second predicted box with the target box. -/
def ratio2 : FVec F S2048x1 .f32 :=
  k0_pay24 (k0_pay18 (k0_pay3 x0)) (k0_pay19 (k0_pay4 x1)) (k0_pay20 (k0_pay3 x0)) (k0_pay21 (k0_pay3 x0))
    (k0_pay22 (k0_pay3 x0)) (k0_pay23 (k0_pay3 x0))

/-- Whether the first box's ratio is the larger, as a bit and as a number, and that number times the
    first box's centre entries. -/
def first : IVec S2048x1 1 :=
  k0_pay25 (ratio1 x0 x1) (k0_pay18 (k0_pay3 x0)) (k0_pay19 (k0_pay4 x1)) (k0_pay20 (k0_pay3 x0)) (k0_pay21 (k0_pay3 x0))
    (k0_pay22 (k0_pay3 x0)) (k0_pay23 (k0_pay3 x0))
def firstF : FVec F S2048x1 .f32 :=
  k0_pay26 (ratio1 x0 x1) (k0_pay18 (k0_pay3 x0)) (k0_pay19 (k0_pay4 x1)) (k0_pay20 (k0_pay3 x0)) (k0_pay21 (k0_pay3 x0))
    (k0_pay22 (k0_pay3 x0)) (k0_pay23 (k0_pay3 x0))
def firstXY : FVec F S2048x2 .f32 :=
  k0_pay27 (k0_pay3 x0) (ratio1 x0 x1) (k0_pay18 (k0_pay3 x0)) (k0_pay19 (k0_pay4 x1)) (k0_pay20 (k0_pay3 x0))
    (k0_pay21 (k0_pay3 x0)) (k0_pay22 (k0_pay3 x0)) (k0_pay23 (k0_pay3 x0))

/-- The accumulator after the body, from the two blocks and the accumulator before it. -/
def total (acc : Vec F S1x1 .f32) : FVec F S1x1 .f32 :=
  k0_pay1 (k0_pay3 x0) (k0_pay4 x1) (k0_pay5 x1) (k0_pay6 x1)
    (k0_pay28 (k0_pay3 x0) (first x0 x1)) (k0_pay29 (k0_pay3 x0) (first x0 x1))
    (k0_pay30 (ratio1 x0 x1) (ratio2 x0 x1) (first x0 x1)) (k0_pay31 (ratio1 x0 x1) (ratio2 x0 x1) (first x0 x1))
    (k0_pay32 (k0_pay3 x0) (k0_pay4 x1) (k0_pay5 x1) (firstF x0 x1) (firstXY x0 x1))
    (k0_pay33 (k0_pay3 x0) (k0_pay4 x1) (firstF x0 x1)) acc

end values

variable (c : Dev nD) (i : grid0.Coords) (a1 : Memref sig .tc .vmem S2048x30 .f32) (h1 : a1.IsWhole)
  (a2 : Memref sig .tc .vmem S2048x30 .f32) (h2 : a2.IsWhole) (a3 : Memref sig .tc .vmem S1x1 .f32) (h3 : a3.IsWhole)
  (a4 : Memref sig .tc .vmem S1x1 .f32) (h4 : a4.IsWhole)

/-- At a point that is not the first, the accumulator ends at the body's total over what it held. -/
theorem acc_B (hc : ¬cond0_0 i) (x0 x1 : Vec F S2048x30 .f32) (xs0 : Vec F S1x1 .f32) :
    sout0_B_0 c i a1 h1 a2 h2 a3 h3 a4 h4 hc x0 x1 xs0 = total x0 x1 xs0 := by
  unfold sout0_B_0
  rw [View.read_writes_eq_canon _ _ _ (scover0_B_0 c i a1 h1 a2 h2 a3 h3 a4 h4 hc x0 x1 xs0)]
  unfold kernelRun0_B
  dsimp only
  sl_unfold_words
  rw [View.canon_unit_zero hz]
  simp only [View.readAt_eq_ld, h1.read_unread, h2.read_unread, h4.read_unread, View.ld_unit_zero (S := S2048x30) hz,
    View.ld_unit_zero (S := S1x1) hz]
  rfl

end Cert.KernelIdeal.Block

end
-- ==== Proof.KernelCases.lean ====
/-
  The remaining case values of one grid point: at the grid's first point the accumulator is set to
  zero before the body's total is added, and at every point the output block ends as a copy of the
  accumulator.
-/
import proofs.«118524_j27917287424001_2_alg».proof.Proof.KernelBlock

noncomputable section

open Idealize.ShloMosaic Idealize.ShloMosaic.TcCoe Idealize.SL.Sem

namespace Cert.KernelIdeal.Block

open Cert.KernelIdeal Cert.KernelIdeal.Gen

variable {F : FTy → Type} [FloatOps F]

variable (c : Dev nD) (i : grid0.Coords) (a1 : Memref sig .tc .vmem S2048x30 .f32) (h1 : a1.IsWhole)
  (a2 : Memref sig .tc .vmem S2048x30 .f32) (h2 : a2.IsWhole) (a3 : Memref sig .tc .vmem S1x1 .f32) (h3 : a3.IsWhole)
  (a4 : Memref sig .tc .vmem S1x1 .f32) (h4 : a4.IsWhole)

/-- At the first point the accumulator ends at the body's total over the zero block. -/
theorem acc_A (hc : cond0_0 i) (x0 x1 : Vec F S2048x30 .f32) :
    sout0_A_0 c i a1 h1 a2 h2 a3 h3 a4 h4 hc x0 x1 = total x0 x1 k0_pay2 := by
  unfold sout0_A_0
  rw [View.read_writes_eq_canon _ _ _ (scover0_A_0 c i a1 h1 a2 h2 a3 h3 a4 h4 hc x0 x1)]
  unfold kernelRun0_A
  dsimp only
  sl_unfold_words
  rw [View.canon_cons_unit_zero (S := S1x1) hz, View.readCov_unit_zero (S := S1x1) _ hz]
  simp only [View.readAt_eq_ld, h1.read_unread, h2.read_unread, View.ld_unit_zero (S := S2048x30) hz]
  rfl

/-- The output block is the accumulator, at a point that is not the first -/
theorem out_B (hc : ¬cond0_0 i) (x0 x1 : Vec F S2048x30 .f32) (xs0 : Vec F S1x1 .f32) :
    out0_B_2 c i a1 h1 a2 h2 a3 h3 a4 h4 hc x0 x1 xs0 = total x0 x1 xs0 := by
  unfold out0_B_2
  rw [View.read_writes_eq_canon _ _ _ (cover0_B_2 c i a1 h1 a2 h2 a3 h3 a4 h4 hc x0 x1 xs0)]
  unfold kernelRun0_B
  dsimp only
  sl_unfold_words
  rw [View.canon_unit_zero hz, View.readCov_unit_zero (S := S1x1) _ hz]
  simp only [View.readAt_eq_ld, h1.read_unread, h2.read_unread, h4.read_unread, View.ld_unit_zero (S := S2048x30) hz,
    View.ld_unit_zero (S := S1x1) hz]
  rfl

/-- and at the first point. -/
theorem out_A (hc : cond0_0 i) (x0 x1 : Vec F S2048x30 .f32) :
    out0_A_2 c i a1 h1 a2 h2 a3 h3 a4 h4 hc x0 x1 = total x0 x1 k0_pay2 := by
  unfold out0_A_2
  rw [View.read_writes_eq_canon _ _ _ (cover0_A_2 c i a1 h1 a2 h2 a3 h3 a4 h4 hc x0 x1)]
  unfold kernelRun0_A
  dsimp only
  sl_unfold_words
  rw [View.canon_unit_zero hz,
    View.readCov_eq_canon_ld _ _ _ (fun y => ⟨_, List.mem_cons_self, View.mem_set_unit_zero hz inb_S1x1_S1x1_0_0 y⟩),
    View.canon_cons_unit_zero (S := S1x1) hz, View.ld_unit_zero (S := S1x1) hz,
    View.readCov_unit_zero (S := S1x1) _ hz]
  simp only [View.readAt_eq_ld, h1.read_unread, h2.read_unread, View.ld_unit_zero (S := S2048x30) hz]
  rfl

end Cert.KernelIdeal.Block

end
-- ==== Proof.LibScaleSum.lean ====
/-
  Sums over the extended reals under a nonnegative real factor.

  On the extended reals multiplication does not distribute over addition in general (at opposite
  infinities), but it does when the factor is a nonnegative finite number: then
  `c * (y + z) = c * y + c * z` for all `y z`. By induction a nonnegative finite factor moves
  across any finite sum, and a leading zero term (a sum's initial value) is absorbed.
-/
import Mathlib.Data.EReal.Operations
import Mathlib.Algebra.BigOperators.Group.Finset.Basic

namespace EReal

open Finset

/-- A nonnegative finite factor moves across a finite sum of extended reals. -/
theorem mul_sum_of_nonneg_of_ne_top {ι : Type*} (s : Finset ι) (f : ι → EReal) {c : EReal}
    (h0 : 0 ≤ c) (ht : c ≠ ⊤) : c * ∑ i ∈ s, f i = ∑ i ∈ s, c * f i := by
  classical
  induction s using Finset.induction_on with
  | empty => simp
  | insert a s ha ih =>
    rw [Finset.sum_insert ha, Finset.sum_insert ha, EReal.left_distrib_of_nonneg_of_ne_top h0 ht, ih]

/-- The same with the sum's zero initial value in front, as a reduction states it. -/
theorem mul_zero_add_sum_of_nonneg_of_ne_top {ι : Type*} (s : Finset ι) (f : ι → EReal) {c : EReal}
    (h0 : 0 ≤ c) (ht : c ≠ ⊤) : c * (0 + ∑ i ∈ s, f i) = 0 + ∑ i ∈ s, c * f i := by
  rw [zero_add, zero_add, mul_sum_of_nonneg_of_ne_top s f h0 ht]

end EReal
-- ==== Proof.CellLoss.lean ====
/-
  The detection loss of one grid cell over the extended reals, and the law that joins the two ways
  of totalling it over a batch of cells.

  A cell carries 30 predicted numbers `p` and 30 target numbers `l`: two predicted boxes
  (centre, width, height at entries 0-3 and 5-8, confidences at 4 and 9), one target box (entries
  0-3, repeated at 5-8), the target's objectness at entry 4, and 20 class scores from entry 10 on.
  The overlap ratio of a predicted box with the target box decides which predicted box is the
  responsible one; six terms follow: centre error, size error (on square roots), the responsible
  box's confidence against its overlap ratio, the other box's, the confidences of a cell with no
  object, and the class error.

  One program adds the six terms of a cell first (the factors 5 and 1/2 applied inside the cell)
  and then totals over the cells; the other totals each term over the cells and applies 5 and 1/2 to
  the totals. Over the extended reals addition is commutative and associative, multiplication is
  associative, and a NONNEGATIVE FINITE factor distributes over any sum (infinite summands included),
  so the two totals agree for all inputs: no finiteness of the entries is used.
-/
import Idealize.ShloMosaic.PureOps.Ideal
import Idealize.ShloMosaic.PureOps.Ideal.Laws
import proofs.«118524_j27917287424001_2_alg».proof.Proof.LibScaleSum

noncomputable section

namespace Cert.CellLoss

open Idealize.ShloMosaic

/-- The float words the programs use: 0, 1, 2, the small constant added to a denominator, 5, 1/2. -/
abbrev c0 : EReal := Ideal.ofBits .f32 0x00000000#32
abbrev c1 : EReal := Ideal.ofBits .f32 0x3F800000#32
abbrev c2 : EReal := Ideal.ofBits .f32 0x40000000#32
abbrev cEps : EReal := Ideal.ofBits .f32 0x2EDBE6FF#32
abbrev c5 : EReal := Ideal.ofBits .f32 0x40A00000#32
abbrev cHalf : EReal := Ideal.ofBits .f32 0x3F000000#32

/-- The word of 5 is the real 5, the word of 1/2 the real 1/2. -/
theorem c5_eq : c5 = ((5 : ℝ) : EReal) := by
  simp [c5, Ideal.ofBits, Ideal.ieee, -EReal.coe_mul]; norm_num
theorem cHalf_eq : cHalf = ((1 / 2 : ℝ) : EReal) := by
  simp [cHalf, Ideal.ofBits, Ideal.ieee, -EReal.coe_mul]; norm_num

theorem c5_nonneg : 0 ≤ c5 := by rw [c5_eq]; exact EReal.coe_nonneg.mpr (by norm_num)
theorem c5_ne_top : c5 ≠ ⊤ := by rw [c5_eq]; exact EReal.coe_ne_top _
theorem cHalf_nonneg : 0 ≤ cHalf := by rw [cHalf_eq]; exact EReal.coe_nonneg.mpr (by norm_num)
theorem cHalf_ne_top : cHalf ≠ ⊤ := by rw [cHalf_eq]; exact EReal.coe_ne_top _

/-- A square. -/
def sq (x : EReal) : EReal := x * x

/-- A bit as a number: 0 or 1. -/
def bit (b : BitVec 1) : EReal := ((b.toNat : ℝ) : EReal)

/-- The low and the high edge of an interval given by centre and width. -/
def lo (c w : EReal) : EReal := c - Ideal.div w c2
def hi (c w : EReal) : EReal := c + Ideal.div w c2

/-- The length of the overlap of two intervals, zero when they are apart. -/
def overlap (alo ahi blo bhi : EReal) : EReal := max c0 (min ahi bhi - max alo blo)

/-- The area of the intersection of two boxes given as centre x, centre y, width, height. -/
def inter (a0 a1 a2 a3 b0 b1 b2 b3 : EReal) : EReal :=
  overlap (lo a0 a2) (hi a0 a2) (lo b0 b2) (hi b0 b2) * overlap (lo a1 a3) (hi a1 a3) (lo b1 b3) (hi b1 b3)

/-- The overlap ratio: intersection over union, the union's area plus a small constant. -/
def iou (a0 a1 a2 a3 b0 b1 b2 b3 : EReal) : EReal :=
  Ideal.div (inter a0 a1 a2 a3 b0 b1 b2 b3) (a2 * a3 + b2 * b3 - inter a0 a1 a2 a3 b0 b1 b2 b3 + cEps)

section cell

variable (p l : Fin 30 → EReal)

/-- The overlap ratios of the first and of the second predicted box with the target box. -/
def iou1 : EReal := iou (p 0) (p 1) (p 2) (p 3) (l 0) (l 1) (l 2) (l 3)
def iou2 : EReal := iou (p 5) (p 6) (p 7) (p 8) (l 0) (l 1) (l 2) (l 3)

/-- Whether the first predicted box is the responsible one: its overlap ratio is the larger. -/
def best : BitVec 1 := Ideal.cmp .ogt (iou1 p l) (iou2 p l)

/-- Whether the cell holds an object: the target's objectness entry is exactly 1. -/
def obj : EReal := bit (Ideal.cmp .oeq (l 4) c1)
def noobj : EReal := c1 - obj l

/-- Entry `k` of a two-entry field starting at `a` of the responsible box: a blend by the 0/1 weight. -/
def pick (x : Fin 30 → EReal) (a b : ℕ) (ha : a + 2 ≤ 30) (hb : b + 2 ≤ 30) (k : Fin 2) : EReal :=
  bit (best p l) * x ⟨a + k.val, by omega⟩ + (c1 - bit (best p l)) * x ⟨b + k.val, by omega⟩

/-- The centre error, the size error on square roots, the class error of the cell. -/
def sxy : EReal := ∑ k : Fin 2, sq (pick p l p 0 5 (by omega) (by omega) k - pick p l l 0 5 (by omega) (by omega) k)
def swh : EReal := ∑ k : Fin 2,
  sq (Ideal.sqrt (pick p l p 2 7 (by omega) (by omega) k) - Ideal.sqrt (pick p l l 2 7 (by omega) (by omega) k))
def scls : EReal := ∑ k : Fin 20, sq (p ⟨10 + k.val, by omega⟩ - l ⟨10 + k.val, by omega⟩)

/-- The confidence and the overlap ratio of the responsible box, and of the other box. -/
def confResp : EReal := Scalar.select (best p l) (p 4) (p 9)
def confOther : EReal := Scalar.select (best p l) (p 9) (p 4)
def iouResp : EReal := Scalar.select (best p l) (iou1 p l) (iou2 p l)
def iouOther : EReal := Scalar.select (best p l) (iou2 p l) (iou1 p l)

/-- The six terms of the cell, without the factors 5 and 1/2. -/
def tXY : EReal := obj l * sxy p l
def tWH : EReal := obj l * swh p l
def tObj : EReal := obj l * sq (confResp p l - iouResp p l)
def tIn : EReal := obj l * sq (confOther p l - iouOther p l)
def tOut : EReal := noobj l * (p 4 * p 4 + p 9 * p 9)
def tCls : EReal := obj l * scls p l

/-- The cell's total as one program forms it: the factors 5 and 1/2 applied to the objectness
    weights inside the cell, the six terms added left to right. -/
def rowTotal : EReal :=
  c5 * obj l * sxy p l + obj l * swh p l + obj l * sq (confResp p l - iouResp p l)
    + cHalf * obj l * sq (confOther p l - iouOther p l) + cHalf * noobj l * (p 4 * p 4 + p 9 * p 9)
    + obj l * scls p l

theorem rowTotal_eq : rowTotal p l
    = c5 * tXY p l + tWH p l + tObj p l + cHalf * tIn p l + cHalf * tOut p l + tCls p l := by
  unfold rowTotal tXY tWH tObj tIn tOut tCls
  rw [mul_assoc c5, mul_assoc cHalf, mul_assoc cHalf]

end cell

/-- THE LAW. Totalling the cells' totals is totalling each term over the cells and applying the
    factors 5 and 1/2 to the totals, for any extended reals in the cells. -/
theorem sum_rowTotal {ι : Type*} [Fintype ι] (P L : ι → Fin 30 → EReal) :
    ∑ i, rowTotal (P i) (L i)
      = c5 * (∑ i, tXY (P i) (L i)) + (∑ i, tWH (P i) (L i)) + (∑ i, tObj (P i) (L i))
        + cHalf * (∑ i, tIn (P i) (L i)) + cHalf * (∑ i, tOut (P i) (L i)) + (∑ i, tCls (P i) (L i)) := by
  simp only [rowTotal_eq, Finset.sum_add_distrib]
  rw [EReal.mul_sum_of_nonneg_of_ne_top _ _ c5_nonneg c5_ne_top,
    EReal.mul_sum_of_nonneg_of_ne_top _ _ cHalf_nonneg cHalf_ne_top,
    EReal.mul_sum_of_nonneg_of_ne_top _ _ cHalf_nonneg cHalf_ne_top]

end Cert.CellLoss

end
-- ==== Proof.LibRows.lean ====
/-
  Column windows and sums of a two-axis array, read at an index.

  A window of w columns starting at column b of an n-by-W array reads, at (y, k), the array's
  entry (y, b + k). Over the extended reals the sum of an n-by-w array along its second axis reads,
  at row y, the sum over k of the entries (y, k); the sum of an n-by-1 column along its first axis
  is the sum over all rows y of the entries (y, 0).
-/
import Idealize.ShloMosaic.Lib.ValueIdx
import Idealize.ShloMosaic.Lib.Pipeline.Value
import Idealize.ShloMosaic.PureOps.Ideal.Laws

noncomputable section

namespace LibRows

open Idealize.ShloMosaic Idealize.ShloMosaic.ValueIdx

variable {α : Type}

/-- A window of `w` columns from column `b` fits: its last column is inside the array. -/
theorem cols_lt {n W w b : ℕ} (h : (⟨2, ![n, W]⟩ : Shape).Slices ![0, b] ⟨2, ![n, w]⟩) (k : Fin w) :
    b + k.val < W := by
  obtain ⟨_, hs⟩ := h
  have h1 := hs (⟨1, Nat.lt_succ_self 1⟩ : Fin 2)
  change b + w ≤ W at h1
  have := k.isLt
  omega

/-- The window read at (y, k) is the array at (y, b + k). -/
theorem slice_cols_apply {n W w b : ℕ} (x : (⟨2, ![n, W]⟩ : Shape).Idx → α)
    (h : (⟨2, ![n, W]⟩ : Shape).Slices ![0, b] ⟨2, ![n, w]⟩) (y : Fin n) (k : Fin w) :
    extractStridedSlice ⟨2, ![n, w]⟩ ![0, b] x h (ix2 y k) = x (ix2 y ⟨b + k.val, cols_lt h k⟩) :=
  extractStridedSlice_apply ![0, b] x h (ix2 y k) (ix2 y ⟨b + k.val, cols_lt h k⟩) (fun a => match a with
    | ⟨0, _⟩ => by show y.val = 0 + y.val; omega
    | ⟨1, _⟩ => rfl)

/-- Row y of the reduced vector with column k put back is the entry (y, k). -/
theorem lift_row {n w : ℕ} (h : (⟨2, ![n, w]⟩ : Shape).Reduces [1] (⟨1, ![n]⟩ : Shape)) (y : Fin n)
    (k : Fin ((⟨2, ![n, w]⟩ : Shape).size 1)) : h.lift (ix1 y) k = ix2 y (⟨k.val, k.isLt⟩ : Fin w) := by
  funext c; apply Fin.ext
  fin_cases c <;> rfl

/-- The one entry of the reduced vector with row y put back is the entry (y, 0). -/
theorem lift_col {n : ℕ} (h : (⟨2, ![n, 1]⟩ : Shape).Reduces [0] (⟨1, ![1]⟩ : Shape)) (u : Fin 1)
    (y : Fin ((⟨2, ![n, 1]⟩ : Shape).size 0)) : h.lift (ix1 u) y = ix2 (⟨y.val, y.isLt⟩ : Fin n) u := by
  funext c; apply Fin.ext
  fin_cases c <;> rfl

/-- A sum along the second axis, at row y: the sum over the columns of the entries of that row. -/
theorem sum_cols_apply {n w : ℕ} (src : FVec Ideal ⟨2, ![n, w]⟩ .f32)
    (h : (⟨2, ![n, w]⟩ : Shape).Reduces [1] (⟨1, ![n]⟩ : Shape)) (hφ : FKind.Formats FTy.f32)
    (hacc : (0x00000000#32 : BitVec 32) = FKind.add.neutral .f32 hφ) (y : Fin n) :
    multiReduction .add [1] ⟨1, ![n]⟩ src 0x00000000#32 h hφ hacc (ix1 y) = ∑ k : Fin w, src (ix2 y k) := by
  refine (Ideal.multiReduction_add_single src 0x00000000#32 h hφ hacc (ix1 y)).trans ?_
  show ∑ k : Fin w, src (h.lift (ix1 y) k) = _
  exact Finset.sum_congr rfl fun k _ => congrArg src (lift_row h y k)

/-- A sum of a column along the first axis: the sum over all rows of the column's entries. -/
theorem sum_rows_apply {n : ℕ} (src : FVec Ideal ⟨2, ![n, 1]⟩ .f32)
    (h : (⟨2, ![n, 1]⟩ : Shape).Reduces [0] (⟨1, ![1]⟩ : Shape)) (hφ : FKind.Formats FTy.f32)
    (hacc : (0x00000000#32 : BitVec 32) = FKind.add.neutral .f32 hφ) (u : Fin 1) :
    multiReduction .add [0] ⟨1, ![1]⟩ src 0x00000000#32 h hφ hacc (ix1 u) = ∑ y : Fin n, src (ix2 y u) := by
  refine (Ideal.multiReduction_add_single src 0x00000000#32 h hφ hacc (ix1 u)).trans ?_
  show ∑ y : Fin n, src (h.lift (ix1 u) y) = _
  exact Finset.sum_congr rfl fun y _ => congrArg src (lift_col h u y)

end LibRows

end
-- ==== Proof.LibColumn.lean ====
/-
  Two layout operations of a keepdims row reduction, read at an index: a vector of length a viewed as
  an a-by-1 column reads its own entry, and an a-by-1 column broadcast along the second axis to
  a-by-b reads the column's entry of the same row.
-/
import Idealize.ShloMosaic.Lib.ValueIdx
import Idealize.ShloMosaic.Lib.Pipeline.Value

namespace Cert.Splat.Column

open Idealize.ShloMosaic Idealize.ShloMosaic.ValueIdx

variable {α : Type}

/-- A length-a vector cast to an a-by-1 column reads, at (i, u), the vector at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An a-by-1 column broadcast to a-by-b reads, at (p, c), the column at row p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Splat.Column
-- ==== Proof.KernelRow.lean ====
/-
  The body's total of one block, read over the extended reals: the accumulator's entry before the
  point plus the sum over the block's 2048 rows of the row's loss, the row's loss being the cell loss
  of the row's 30 predicted and 30 target entries.

  Row y of a block is read entry by entry: a column window of the block at (y, k) is the block at
  (y, b + k); a sum over a window's columns is the sum of its entries in that row; the 0/1 number of
  a bit, formed by widening the bit to 32 bits and reading it as a signed integer, is 0 or 1.
-/
import proofs.«118524_j27917287424001_2_alg».proof.Proof.KernelBlock
import proofs.«118524_j27917287424001_2_alg».proof.Proof.CellLoss
import proofs.«118524_j27917287424001_2_alg».proof.Proof.LibRows
import proofs.«118524_j27917287424001_2_alg».proof.Proof.LibColumn

noncomputable section

open Idealize.ShloMosaic Idealize.ShloMosaic.ValueIdx

namespace Cert.KernelIdeal.Row

open Cert.KernelIdeal Cert.KernelIdeal.Gen Cert.KernelIdeal.Block Cert.CellLoss

/-- Row y of a block: the 30 entries of one cell. -/
def row (x : Vec Ideal S2048x30 .f32) (y : Fin 2048) : Fin 30 → EReal := fun k => x (ix2 y k)

/-- A bit widened to 32 bits and read as a signed integer is the bit's 0/1 number. -/
theorem sitofp_extui_bit (b : BitVec 1) : FloatOps.sitofp (F := Ideal) .f32 (b.setWidth 32) = bit b := by
  show (((b.setWidth 32).toInt : ℝ) : EReal) = ((b.toNat : ℝ) : EReal)
  by_cases h : b = 1#1
  · subst h
    have e1 : ((1#1 : BitVec 1).setWidth 32).toInt = 1 := by decide
    have e2 : (1#1 : BitVec 1).toNat = 1 := by decide
    rw [e1, e2]; norm_num
  · obtain rfl := eq_zero_of_ne_one h
    have e1 : ((0#1 : BitVec 1).setWidth 32).toInt = 0 := by decide
    have e2 : (0#1 : BitVec 1).toNat = 0 := by decide
    rw [e1, e2]; norm_num

/-- The two sums, stated with the accumulator's neutrality witnessed as the printed programs carry it
    (an equation between the zero word and itself), so that they apply to the programs' own terms. -/
theorem sum_cols_at {n w : ℕ} (src : FVec Ideal ⟨2, ![n, w]⟩ .f32)
    (h : (⟨2, ![n, w]⟩ : Shape).Reduces [1] (⟨1, ![n]⟩ : Shape)) (hφ : FTy.f32 = FTy.f32 ∨ FTy.f32 = FTy.bf16)
    (hacc : (0x00000000#32 : BitVec 32) = 0x00000000#32) (y : Fin n) :
    multiReduction .add [1] ⟨1, ![n]⟩ src 0x00000000#32 h hφ hacc (ix1 y) = ∑ k : Fin w, src (ix2 y k) :=
  LibRows.sum_cols_apply src h hφ hacc y

theorem sum_rows_at {n : ℕ} (src : FVec Ideal ⟨2, ![n, 1]⟩ .f32)
    (h : (⟨2, ![n, 1]⟩ : Shape).Reduces [0] (⟨1, ![1]⟩ : Shape)) (hφ : FTy.f32 = FTy.f32 ∨ FTy.f32 = FTy.bf16)
    (hacc : (0x00000000#32 : BitVec 32) = 0x00000000#32) (u : Fin 1) :
    multiReduction .add [0] ⟨1, ![1]⟩ src 0x00000000#32 h hφ hacc (ix1 u) = ∑ y : Fin n, src (ix2 y u) :=
  LibRows.sum_rows_apply src h hφ hacc u

variable (x0 x1 : Vec Ideal S2048x30 .f32) (y : Fin 2048)

/-- The objectness weight of row y, and its complement. -/
theorem obj_apply : k0_pay5 x1 (ix2 y (0 : Fin 1)) = obj (row x1 y) := by
  simp only [k0_pay5, k0_pay4, shapeCast_self, sitofp_apply, extui_apply, cmpf_apply, broadcast_apply,
    LibRows.slice_cols_apply]
  exact sitofp_extui_bit _

theorem noobj_apply : k0_pay6 x1 (ix2 y (0 : Fin 1)) = noobj (row x1 y) := by
  simp only [k0_pay6, subf_apply, broadcast_apply, obj_apply]
  rfl

/-- The two overlap ratios of row y. -/
theorem ratio1_apply : ratio1 x0 x1 (ix2 y (0 : Fin 1)) = iou1 (row x0 y) (row x1 y) := by
  unfold ratio1
  simp only [k0_pay17, k0_pay7, k0_pay8, k0_pay9, k0_pay10, k0_pay11, k0_pay12, k0_pay13, k0_pay14, k0_pay15, k0_pay16,
    k0_pay3, k0_pay4, shapeCast_self, subf_apply, addf_apply, mulf_apply, divf_apply, minimumf_apply, maximumf_apply,
    broadcast_apply, LibRows.slice_cols_apply]
  rfl

theorem ratio2_apply : ratio2 x0 x1 (ix2 y (0 : Fin 1)) = iou2 (row x0 y) (row x1 y) := by
  unfold ratio2
  simp only [k0_pay24, k0_pay18, k0_pay19, k0_pay20, k0_pay21, k0_pay22, k0_pay23,
    k0_pay3, k0_pay4, shapeCast_self, subf_apply, addf_apply, mulf_apply, divf_apply, minimumf_apply, maximumf_apply,
    broadcast_apply, LibRows.slice_cols_apply]
  rfl

/-- Whether the first box is the responsible one in row y, as a bit and as a number. -/
theorem first_apply : first x0 x1 (ix2 y (0 : Fin 1)) = best (row x0 y) (row x1 y) := by
  change FloatOps.cmpf .ogt (ratio1 x0 x1 (ix2 y (0 : Fin 1))) (ratio2 x0 x1 (ix2 y (0 : Fin 1))) = _
  rw [ratio1_apply, ratio2_apply]
  rfl

theorem firstF_apply : firstF x0 x1 (ix2 y (0 : Fin 1)) = bit (best (row x0 y) (row x1 y)) := by
  change FloatOps.sitofp (F := Ideal) .f32 ((first x0 x1 (ix2 y (0 : Fin 1))).setWidth 32) = _
  rw [first_apply]
  exact sitofp_extui_bit _

/-- The whole-block identity casts change nothing. -/
theorem pay3_eq (x : Vec Ideal S2048x30 .f32) : k0_pay3 x = x := by unfold k0_pay3; exact shapeCast_self _ _
theorem pay4_eq (x : Vec Ideal S2048x30 .f32) : k0_pay4 x = x := by unfold k0_pay4; exact shapeCast_self _ _

/-- A square root of an array, at an index. -/
theorem sqrt_at {s : Shape} (v : FVec Ideal s .f32) (i : s.Idx) : sqrt v i = Ideal.sqrt (v i) := rfl

/-- The responsible-box number times the first box's centre entries, at (y, k). -/
theorem firstXY_apply (k : Fin 2) :
    firstXY x0 x1 (ix2 y k) = bit (best (row x0 y) (row x1 y)) * x0 (ix2 y ⟨0 + k.val, by omega⟩) := by
  change mulf (broadcastTo S2048x2 (firstF x0 x1) broadcasts_S2048x1_S2048x2)
    (extractStridedSlice S2048x2 ![0, 0] (k0_pay3 x0) slices_S2048x30_o0_0_S2048x2) (ix2 y k) = _
  simp only [pay3_eq, mulf_apply, Cert.Splat.Column.broadcastTo_a1_ab_apply, firstF_apply, LibRows.slice_cols_apply]

/-- The confidences and overlap ratios of the responsible and of the other box, in row y. -/
theorem confResp_apply : k0_pay28 (F := Ideal) x0 (first x0 x1) (ix2 y (0 : Fin 1)) = confResp (row x0 y) (row x1 y) := by
  simp only [k0_pay28, select_apply, LibRows.slice_cols_apply, first_apply]
  rfl
theorem confOther_apply : k0_pay29 (F := Ideal) x0 (first x0 x1) (ix2 y (0 : Fin 1)) = confOther (row x0 y) (row x1 y) := by
  simp only [k0_pay29, select_apply, LibRows.slice_cols_apply, first_apply]
  rfl
theorem iouResp_apply :
    k0_pay30 (F := Ideal) (ratio1 x0 x1) (ratio2 x0 x1) (first x0 x1) (ix2 y (0 : Fin 1)) = iouResp (row x0 y) (row x1 y) := by
  simp only [k0_pay30, select_apply, first_apply, ratio1_apply, ratio2_apply]
  rfl
theorem iouOther_apply :
    k0_pay31 (F := Ideal) (ratio1 x0 x1) (ratio2 x0 x1) (first x0 x1) (ix2 y (0 : Fin 1)) = iouOther (row x0 y) (row x1 y) := by
  simp only [k0_pay31, select_apply, first_apply, ratio1_apply, ratio2_apply]
  rfl

/-- Five times the objectness weight times the centre error of row y. -/
theorem xy_apply : k0_pay32 (F := Ideal) x0 x1 (k0_pay5 x1) (firstF x0 x1) (firstXY x0 x1) (ix2 y (0 : Fin 1))
    = c5 * obj (row x1 y) * sxy (row x0 y) (row x1 y) := by
  simp only [k0_pay32, mulf_apply, broadcast_apply, Cert.Splat.Column.shapeCast_a_a1_apply, obj_apply]
  rw [sum_cols_at]
  simp only [mulf_apply, subf_apply, addf_apply, broadcast_apply, Cert.Splat.Column.broadcastTo_a1_ab_apply,
    LibRows.slice_cols_apply, firstF_apply, firstXY_apply]
  rfl

/-- The size error of row y (on square roots), before its weight. -/
theorem wh_apply : k0_pay33 (F := Ideal) x0 x1 (firstF x0 x1) (ix1 y) = swh (row x0 y) (row x1 y) := by
  unfold k0_pay33
  rw [sum_cols_at]
  simp only [mulf_apply, subf_apply, addf_apply, sqrt_at, broadcast_apply,
    Cert.Splat.Column.broadcastTo_a1_ab_apply, LibRows.slice_cols_apply, firstF_apply]
  rfl

/-- THE BLOCK TOTAL: the accumulator's entry plus the sum over the rows of the row's loss. -/
theorem total_apply (acc : Vec Ideal S1x1 .f32) :
    total x0 x1 acc (ix2 (0 : Fin 1) (0 : Fin 1))
      = acc (ix2 (0 : Fin 1) (0 : Fin 1)) + ∑ y : Fin 2048, rowTotal (row x0 y) (row x1 y) := by
  unfold total
  simp only [pay3_eq, pay4_eq]
  simp only [k0_pay1, shapeCast_self, addf_apply, Cert.Splat.Column.shapeCast_a_a1_apply]
  rw [sum_rows_at]
  refine congrArg (acc (ix2 (0 : Fin 1) (0 : Fin 1)) + ·) (Finset.sum_congr rfl fun y _ => ?_)
  simp only [addf_apply, mulf_apply, subf_apply, broadcast_apply, Cert.Splat.Column.shapeCast_a_a1_apply,
    LibRows.slice_cols_apply, obj_apply, noobj_apply, confResp_apply, confOther_apply,
    iouResp_apply, iouOther_apply, xy_apply, wh_apply]
  rw [sum_cols_at]
  simp only [mulf_apply, subf_apply, LibRows.slice_cols_apply]
  rfl

end Cert.KernelIdeal.Row

end
-- ==== Proof.LibFlatten.lean ====
/-
  Summing a function of the rows of a flattened array block by block is summing it over the grid cells.

  An array of shape [16384, 7, 7, 30] viewed as [802816, 30] keeps its rows: row r = (n * 7 + a) * 7 + c
  of the flat view is the row of cell (n, a, c), because both positions are the same row-major
  position. The rows 0 … 802815 are visited in 392 consecutive blocks of 2048 rows, row y of block t
  being row 2048 * t + y; (t, y) ↦ 2048 * t + y is a bijection onto the rows, and
  (n, a, c) ↦ (n * 7 + a) * 7 + c is a bijection from the cells onto the rows. So for any function of
  a pair of rows, the sum over the blocks of the sums over a block's rows is the sum over all cells.
-/
import Idealize.ShloMosaic.Lib.ValueIdx
import Idealize.ShloMosaic.Lib.Pipeline.Value

noncomputable section

open scoped BigOperators

namespace LibFlatten

open Idealize.ShloMosaic Idealize.ShloMosaic.ValueIdx

/-- The number of cells, 16384 · 7 · 7, is the number of flat rows. -/
theorem numel_cells : (⟨3, ![16384, 7, 7]⟩ : Shape).numel = 802816 := by decide

/-- The cells in row-major order are the flat rows 0 … 802815. -/
def cellRow : (⟨3, ![16384, 7, 7]⟩ : Shape).Idx ≃ Fin 802816 :=
  (Shape.rowMajor _).trans (finCongr numel_cells)

/-- Cell (n, a, c) is flat row (n * 7 + a) * 7 + c. -/
theorem cellRow_val (j : (⟨3, ![16384, 7, 7]⟩ : Shape).Idx) :
    (cellRow j).val = ((j 0).val * 7 + (j 1).val) * 7 + (j 2).val := by
  show ((⟨3, ![16384, 7, 7]⟩ : Shape).rowMajor j).val = _
  rw [Shape.rowMajor_val_three]
  rfl

/-- Row y of block t is flat row 2048 * t + y: the pairs (block, row in the block) are the flat rows. -/
def blockRow : Fin 392 × Fin 2048 ≃ Fin 802816 :=
  finProdFinEquiv.trans (finCongr (by norm_num))

theorem blockRow_val (t : Fin 392) (y : Fin 2048) : (blockRow (t, y)).val = 2048 * t.val + y.val := by
  show y.val + 2048 * t.val = _
  omega

/-- A row of the flat view at the row of cell j is the row of cell j. -/
theorem flat_row {α : Type} (x : (⟨4, ![16384, 7, 7, 30]⟩ : Shape).Idx → α)
    (h : (⟨4, ![16384, 7, 7, 30]⟩ : Shape).ShapeCasts ⟨2, ![802816, 30]⟩)
    (j : (⟨3, ![16384, 7, 7]⟩ : Shape).Idx) (k : Fin 30) :
    shapeCast ⟨2, ![802816, 30]⟩ x h (ix2 (cellRow j) k) = x (ix4 (j 0) (j 1) (j 2) k) := by
  refine shapeCast_apply x h _ _ ?_
  rw [Shape.rowMajor_val_four, Shape.rowMajor_val_two]
  show ((((j 0).val * 7 + (j 1).val) * 7 + (j 2).val) * 30 + k.val) = (cellRow j).val * 30 + k.val
  rw [cellRow_val]

/-- The sum over the 392 blocks of the sums over the 2048 rows of a block, of any function of the two arrays' rows,
    is the sum of that function over the grid cells. -/
theorem sum_blocks_eq_sum_cells (x0 x1 : (⟨4, ![16384, 7, 7, 30]⟩ : Shape).Idx → EReal)
    (h : (⟨4, ![16384, 7, 7, 30]⟩ : Shape).ShapeCasts ⟨2, ![802816, 30]⟩)
    (f : (Fin 30 → EReal) → (Fin 30 → EReal) → EReal) :
    (∑ t : Fin 392, ∑ y : Fin 2048,
        f (fun k => shapeCast ⟨2, ![802816, 30]⟩ x0 h
              (ix2 (⟨2048 * t.val + y.val, by have := t.isLt; have := y.isLt; omega⟩ : Fin 802816) k))
          (fun k => shapeCast ⟨2, ![802816, 30]⟩ x1 h
              (ix2 (⟨2048 * t.val + y.val, by have := t.isLt; have := y.isLt; omega⟩ : Fin 802816) k)))
      = ∑ j : (⟨3, ![16384, 7, 7]⟩ : Shape).Idx,
          f (fun k => x0 (ix4 (j 0) (j 1) (j 2) k)) (fun k => x1 (ix4 (j 0) (j 1) (j 2) k)) := by
  -- the function of a flat row being summed
  let g : Fin 802816 → EReal := fun r =>
    f (fun k => shapeCast ⟨2, ![802816, 30]⟩ x0 h (ix2 r k)) (fun k => shapeCast ⟨2, ![802816, 30]⟩ x1 h (ix2 r k))
  -- the blocks' rows are all the rows
  have hA : (∑ t : Fin 392, ∑ y : Fin 2048, g (blockRow (t, y))) = ∑ r : Fin 802816, g r := by
    rw [← Fintype.sum_prod_type (f := fun p : Fin 392 × Fin 2048 => g (blockRow p))]
    exact Equiv.sum_comp blockRow g
  -- the cells' rows are all the rows
  have hB : (∑ j : (⟨3, ![16384, 7, 7]⟩ : Shape).Idx, g (cellRow j)) = ∑ r : Fin 802816, g r :=
    Equiv.sum_comp cellRow g
  have hL : ∀ (t : Fin 392) (y : Fin 2048),
      (⟨2048 * t.val + y.val, by have := t.isLt; have := y.isLt; omega⟩ : Fin 802816) = blockRow (t, y) :=
    fun t y => Fin.ext (blockRow_val t y).symm
  calc _ = ∑ t : Fin 392, ∑ y : Fin 2048, g (blockRow (t, y)) :=
        Finset.sum_congr rfl fun t _ => Finset.sum_congr rfl fun y _ => by rw [hL t y]
    _ = ∑ r : Fin 802816, g r := hA
    _ = ∑ j : (⟨3, ![16384, 7, 7]⟩ : Shape).Idx, g (cellRow j) := hB.symm
    _ = _ := Finset.sum_congr rfl fun j _ => by
        show f (fun k => shapeCast ⟨2, ![802816, 30]⟩ x0 h (ix2 (cellRow j) k))
            (fun k => shapeCast ⟨2, ![802816, 30]⟩ x1 h (ix2 (cellRow j) k)) = _
        simp only [flat_row]

end LibFlatten

end
-- ==== Proof.KernelTotal.lean ====
/-
  The kernel's result: the running total over the grid, divided by the batch size.

  Point t of the grid adds to the carried accumulator the sum of the row losses of block t of the two
  flattened argument arrays; the first point starts from zero. So after point n the accumulator, and
  the output block that copies it, hold zero plus the block sums of points 0 … n (by induction on the
  point). The output's block index never moves and it is written back once, after the last point, so
  the result array of the region ends holding the total over all 392 points; the host then drops the
  two unit axes and divides by 16384.
-/
import proofs.«118524_j27917287424001_2_alg».proof.Proof.KernelCases
import proofs.«118524_j27917287424001_2_alg».proof.Proof.KernelRow
import proofs.«118524_j27917287424001_2_alg».proof.Proof.LibFlatten
import Idealize.ShloMosaic.Lib.StableHlo.Run

noncomputable section

open Idealize.ShloMosaic Idealize.ShloMosaic.TcCoe Idealize.SL.Sem Idealize.ShloMosaic.ValueIdx
open Idealize.ShloMosaic.Pipeline (Dat)

namespace Cert.KernelIdeal.Total

open Cert.KernelIdeal Cert.KernelIdeal.Gen Cert.KernelIdeal.Block Cert.KernelIdeal.Row Cert.CellLoss

variable (m : (ℓ : Loc nD τ sig) → Buf (Elt Ideal) ℓ) (ρ : Dev nD → PrngReg)

/-- The sum of the row losses of the blocks at point t. -/
def blockSum (c : Dev nD) (t : Fin cfg0.N) : EReal :=
  ∑ y : Fin 2048, rowTotal (row (iblk m c 0 t : Vec Ideal S2048x30 .f32) y) (row (iblk m c 1 t : Vec Ideal S2048x30 .f32) y)

/-- The block sum of point t, zero past the grid. -/
def blockSumN (c : Dev nD) (t : ℕ) : EReal := if h : t < cfg0.N then blockSum m c ⟨t, h⟩ else 0

/-- The running total after point n. -/
def running (c : Dev nD) (n : ℕ) : EReal := c0 + ∑ t ∈ Finset.range (n + 1), blockSumN m c t

/-- The zero block the first point stores reads zero. -/
theorem pay2_apply (j : S1x1.Idx) : (k0_pay2 (F := Ideal)) j = c0 := by
  simp only [k0_pay2, shapeCast_self, broadcast_apply]
  rfl

/-- Both components of a point's outcome in terms of the body's total. -/
theorem pair_A (c : Dev nD) (i : grid0.Coords) (a1 : Memref sig .tc .vmem S2048x30 .f32) (h1 : a1.IsWhole)
    (a2 : Memref sig .tc .vmem S2048x30 .f32) (h2 : a2.IsWhole) (a3 : Memref sig .tc .vmem S1x1 .f32) (h3 : a3.IsWhole)
    (a4 : Memref sig .tc .vmem S1x1 .f32) (h4 : a4.IsWhole) (hc : cond0_0 i) (x0 x1 : Vec Ideal S2048x30 .f32) :
    (out0_A_2 c i a1 h1 a2 h2 a3 h3 a4 h4 hc x0 x1, sout0_A_0 c i a1 h1 a2 h2 a3 h3 a4 h4 hc x0 x1)
      = (total x0 x1 (k0_pay2 (F := Ideal)), total x0 x1 (k0_pay2 (F := Ideal))) := by
  rw [out_A, acc_A]

theorem pair_B (c : Dev nD) (i : grid0.Coords) (a1 : Memref sig .tc .vmem S2048x30 .f32) (h1 : a1.IsWhole)
    (a2 : Memref sig .tc .vmem S2048x30 .f32) (h2 : a2.IsWhole) (a3 : Memref sig .tc .vmem S1x1 .f32) (h3 : a3.IsWhole)
    (a4 : Memref sig .tc .vmem S1x1 .f32) (h4 : a4.IsWhole) (hc : ¬cond0_0 i) (x0 x1 : Vec Ideal S2048x30 .f32)
    (xs0 : Vec Ideal S1x1 .f32) :
    (out0_B_2 c i a1 h1 a2 h2 a3 h3 a4 h4 hc x0 x1 xs0, sout0_B_0 c i a1 h1 a2 h2 a3 h3 a4 h4 hc x0 x1 xs0)
      = (total x0 x1 xs0, total x0 x1 xs0) := by
  rw [out_B, acc_B]

/-- A first point's outcome: the body's total over the zero block, in both components. -/
theorem at_A (c : Dev nD) (t : Fin cfg0.N) (h0 : t.val % 392 = 0) :
    outsAt0 m c t.val t.isLt
      = (total (iblk m c 0 t) (iblk m c 1 t) (k0_pay2 (F := Ideal)), total (iblk m c 0 t) (iblk m c 1 t) (k0_pay2 (F := Ideal))) :=
  (outsAt0_A m c t h0).trans
    (pair_A c (grid0.coords t) (ms0_0 t) (hs0_0 t) (ms0_1 t) (hs0_1 t) (ms0_2 t) (hs0_2 t) scM0_0 (Memref.isWhole_whole _)
      ((hcond0_0 t).mpr h0) (iblk m c 0 t) (iblk m c 1 t))

/-- Any other point's outcome: the body's total over what the point before left in the accumulator. -/
theorem at_B (c : Dev nD) (t : Fin cfg0.N) (h0 : ¬t.val % 392 = 0) :
    outsAt0 m c t.val t.isLt
      = (total (iblk m c 0 t) (iblk m c 1 t) (outsAt0 m c (t.val - 1) (Nat.lt_of_le_of_lt (Nat.sub_le _ _) t.isLt)).2,
         total (iblk m c 0 t) (iblk m c 1 t) (outsAt0 m c (t.val - 1) (Nat.lt_of_le_of_lt (Nat.sub_le _ _) t.isLt)).2) :=
  (outsAt0_B m c t h0).trans
    (pair_B c (grid0.coords t) (ms0_0 t) (hs0_0 t) (ms0_1 t) (hs0_1 t) (ms0_2 t) (hs0_2 t) scM0_0 (Memref.isWhole_whole _)
      (fun h => h0 ((hcond0_0 t).mp h)) (iblk m c 0 t) (iblk m c 1 t)
      (outsAt0 m c (t.val - 1) (Nat.lt_of_le_of_lt (Nat.sub_le _ _) t.isLt)).2)

/-- The body's total at point t adds the point's block sum to the accumulator's entry. -/
theorem total_at (c : Dev nD) (t : Fin cfg0.N) (acc : Vec Ideal S1x1 .f32) :
    total (iblk m c 0 t) (iblk m c 1 t) acc (ix2 (0 : Fin 1) (0 : Fin 1))
      = acc (ix2 (0 : Fin 1) (0 : Fin 1)) + blockSum m c t :=
  total_apply (iblk m c 0 t) (iblk m c 1 t) acc

/-- After point n the output block and the accumulator are the same block, and its entry is the
    running total: by induction on the point. -/
theorem outsAt_eq (c : Dev nD) : ∀ (n : ℕ) (h : n < cfg0.N),
    (outsAt0 m c n h).1 = (outsAt0 m c n h).2 ∧ (outsAt0 m c n h).2 (ix2 (0 : Fin 1) (0 : Fin 1)) = running m c n
  | 0, h => by
    have e := at_A m c ⟨0, h⟩ rfl
    refine ⟨(congrArg Prod.fst e).trans (congrArg Prod.snd e).symm, ?_⟩
    refine (congrFun (congrArg Prod.snd e) _).trans ((total_at m c ⟨0, h⟩ (k0_pay2 (F := Ideal))).trans ?_)
    rw [pay2_apply]
    unfold running blockSumN
    rw [Finset.sum_range_one, dif_pos h]
  | n + 1, h => by
    have hN : cfg0.N = 392 := N_0
    have hB : ¬(⟨n + 1, h⟩ : Fin cfg0.N).val % 392 = 0 := by dsimp only; omega
    have e := at_B m c ⟨n + 1, h⟩ hB
    refine ⟨(congrArg Prod.fst e).trans (congrArg Prod.snd e).symm, ?_⟩
    refine (congrFun (congrArg Prod.snd e) _).trans ((total_at m c ⟨n + 1, h⟩ _).trans ?_)
    have ih := (outsAt_eq c n (Nat.lt_of_succ_lt h)).2
    refine (congrArg (· + blockSum m c ⟨n + 1, h⟩) ih).trans ?_
    unfold running
    rw [Finset.sum_range_succ _ (n + 1), ← add_assoc]
    congr 1
    unfold blockSumN
    rw [dif_pos h]

/-- The 1-by-1 shape has one index. -/
theorem idx11 (j : S1x1.Idx) : j = ix2 (0 : Fin 1) (0 : Fin 1) := by
  funext d
  apply Fin.ext
  fin_cases d
  · have h := (j 0).isLt; change (j 0).val < 1 at h; show (j 0).val = 0; omega
  · have h := (j 1).isLt; change (j 1).val < 1 at h; show (j 1).val = 0; omega

/-- After point t the output block holds the running total at its one entry. -/
theorem out_const (c : Dev nD) (t : Fin cfg0.N) :
    (outsAt0 m c t.val t.isLt).1 = fun _ => running m c t.val := by
  have h := outsAt_eq m c t.val t.isLt
  funext j
  rw [h.1, idx11 j]
  exact h.2

/-- What the region's result array ends holding: the running total after the last point. -/
def result (c : Dev nD) : Buf (Elt Ideal) ((c : Thread nD τ).loc main_v2) := fun _ => running m c 391

/-- The output window's block index is (0, 0) at every point, and its block is the whole 1-by-1 array. -/
theorem out_index : ∀ t : Fin cfg0.N, win0_2.index t 0 = 0 ∧ win0_2.index t 1 = 0
    ∧ win0_2.xsize (grid0.coords t) 0 = 1 ∧ win0_2.xsize (grid0.coords t) 1 = 1 :=
  (by decide +kernel : ∀ t : Fin grid0.N, win0_2.index t 0 = 0 ∧ win0_2.index t 1 = 0
    ∧ win0_2.xsize (grid0.coords t) 0 = 1 ∧ win0_2.xsize (grid0.coords t) 1 = 1)

/-- The one write-back, after the last point, writes the output block: block (0, 0) of the 1-by-1 array
    read through zero offsets is the array. -/
theorem flushed_eq (c : Dev nD) (t : Fin cfg0.N) (hf : (cfg0.win 2).flush t = true) :
    (dats m 0 c).flushed 2 t = ((cfg0.win 2).blk t).view.read (Elt Ideal) (result m c) := by
  have hN : cfg0.N = 392 := N_0
  have h3 : t.val = 391 := by have := (flush0_2 t).mp hf; have := t.isLt; omega
  show (cfg0.win 2).cut (grid0.coords t) ((dats m 0 c).after 2 t) = _
  rw [after0_2, out_const m c t, h3]
  have hz' : (fun a => win0_2.index t a * main_v2.ty.shape.size a) = fun _ => 0 := funext fun a => by
    fin_cases a
    · show win0_2.index t 0 * _ = 0; rw [(out_index t).1, Nat.zero_mul]
    · show win0_2.index t 1 * _ = 0; rw [(out_index t).2.1, Nat.zero_mul]
  exact (Memref.read_access_unit_zero (Elt Ideal) main_v2 hz' (fun a => by rw [congrFun hz' a]; simp) (result m c)).symm

/-- The last point of the grid. -/
abbrev tLast : Fin cfg0.N := ⟨391, by rw [show cfg0.N = 392 from N_0]; decide⟩

/-- So the region's result array ends holding the running total after the last point. -/
theorem final (c : Dev nD) : (dats m 0 c).arrAt 2 cfg0.N = result m c :=
  (dats m 0 c).arrAt_eq_of_cover 2 (result m c) (flushed_eq m c) fun i =>
    ⟨tLast, (flush0_2 tLast).mpr rfl, by
      show i ∈ ((View.whole main_v2).slice (win0_2.rect tLast)).set
      rw [View.set_slice_whole, Rect.mem_set_unit]
      intro a
      have h0 : (i 0 : Nat) < 1 := (i 0).isLt
      have h1 : (i 1 : Nat) < 1 := (i 1).isLt
      match a with
      | ⟨0, _⟩ =>
        show win0_2.index tLast 0 * win0_2.size 0 ≤ (i 0 : Nat) ∧ (i 0 : Nat) < win0_2.index tLast 0 * win0_2.size 0 + win0_2.xsize (grid0.coords tLast) 0
        rw [(out_index tLast).1, (out_index tLast).2.2.1]; omega
      | ⟨1, _⟩ =>
        show win0_2.index tLast 1 * win0_2.size 1 ≤ (i 1 : Nat) ∧ (i 1 : Nat) < win0_2.index tLast 1 * win0_2.size 1 + win0_2.xsize (grid0.coords tLast) 1
        rw [(out_index tLast).2.1, (out_index tLast).2.2.2]; omega⟩

/-- The region finds the two flattened argument arrays in its input windows' arrays. -/
theorem V_v0 (c : Dev nD) : (V m c main_v0 : S802816x30.Idx → EReal)
    = shapeCast S802816x30 (m ((c : Thread nD τ).loc main_arg0)) shapeCasts_S16384x7x7x30_S802816x30 := by
  show StableHlo.after hostOps0 (fun b => m (c, b)) (Proc.devRef .tc main_v0) = _
  after_results
  rfl

theorem V_v1 (c : Dev nD) : (V m c main_v1 : S802816x30.Idx → EReal)
    = shapeCast S802816x30 (m ((c : Thread nD τ).loc main_arg1)) shapeCasts_S16384x7x7x30_S802816x30 := by
  show StableHlo.after hostOps0 (fun b => m (c, b)) (Proc.devRef .tc main_v1) = _
  after_results
  rfl

/-- The input windows' block index at point t is (t, 0). -/
theorem in_index : ∀ t : Fin cfg0.N, win0_0.index t 0 = t.val ∧ win0_0.index t 1 = 0
    ∧ win0_1.index t 0 = t.val ∧ win0_1.index t 1 = 0 :=
  (by decide +kernel : ∀ t : Fin grid0.N, win0_0.index t 0 = t.val ∧ win0_0.index t 1 = 0
    ∧ win0_1.index t 0 = t.val ∧ win0_1.index t 1 = 0)

/-- Row y of the block of the predictions at point t is row 2048 t + y of the flattened array. -/
theorem iblk0_apply (c : Dev nD) (t : Fin cfg0.N) (y : Fin 2048) (k : Fin 30) :
    (iblk m c 0 t : Vec Ideal S2048x30 .f32) (ix2 y k)
      = shapeCast S802816x30 (m ((c : Thread nD τ).loc main_arg0)) shapeCasts_S16384x7x7x30_S802816x30
          (ix2 (⟨2048 * t.val + y.val, by have := t.isLt; have hN : cfg0.N = 392 := N_0; have := y.isLt; omega⟩ : Fin 802816) k) := by
  have hi := in_index t
  unfold iblk
  rw [View.read_apply]
  show V m c main_v0 _ = _
  rw [V_v0]
  congr 1
  funext a
  apply Fin.ext
  match a with
  | ⟨0, _⟩ => show win0_0.index t 0 * 2048 + 1 * y.val = 2048 * t.val + y.val; rw [hi.1]; omega
  | ⟨1, _⟩ => show win0_0.index t 1 * 30 + 1 * k.val = k.val; rw [hi.2.1]; omega

theorem iblk1_apply (c : Dev nD) (t : Fin cfg0.N) (y : Fin 2048) (k : Fin 30) :
    (iblk m c 1 t : Vec Ideal S2048x30 .f32) (ix2 y k)
      = shapeCast S802816x30 (m ((c : Thread nD τ).loc main_arg1)) shapeCasts_S16384x7x7x30_S802816x30
          (ix2 (⟨2048 * t.val + y.val, by have := t.isLt; have hN : cfg0.N = 392 := N_0; have := y.isLt; omega⟩ : Fin 802816) k) := by
  have hi := in_index t
  unfold iblk
  rw [View.read_apply]
  show V m c main_v1 _ = _
  rw [V_v1]
  congr 1
  funext a
  apply Fin.ext
  match a with
  | ⟨0, _⟩ => show win0_1.index t 0 * 2048 + 1 * y.val = 2048 * t.val + y.val; rw [hi.2.2.1]; omega
  | ⟨1, _⟩ => show win0_1.index t 1 * 30 + 1 * k.val = k.val; rw [hi.2.2.2]; omega

/-- The program's result: the total over the grid divided by 16384. -/
def value (c : Dev nD) : Buf (Elt Ideal) ((c : Thread nD τ).loc main_v4) :=
  fun _ => Ideal.div (running m c 391) (Ideal.ofBits .f32 0x46800000#32)

/-- The host operations after the region leave the result buffer at that value: they drop the two unit
    axes of the region's 1-by-1 array and divide by the word of 16384. -/
theorem tail_eq (c : Dev nD) :
    Pipeline.afterTail₀ cfgs (dats m) 0 (V0 m) [hostOps1] c main_v4 = value m c := by
  unfold Pipeline.afterTail₀
  show StableHlo.after hostOps1 _ (Proc.devRef .tc main_v4) = _
  after_results
  have hA : Pipeline.withArrays (cfgs 0).spec c (V0 m c) (fun w => (dats m 0 c).arrAt w (cfgs 0).N)
      (Proc.devRef .tc main_v2) = result m c :=
    (Pipeline.withArrays_arr spec0 launch0.win.arr_inj c _ _ 2).trans (final m c)
  rw [hA]
  funext j
  rfl

/-- THE KERNEL'S RUN, read: every weakly fair execution terminates with the result buffer at the
    total over the grid divided by 16384, and with the two argument arrays unchanged. -/
theorem run : θ_run defs (onTc (τ := τ) (main (F := Ideal))) ⟨m, fun _ => 0, ρ⟩ fun r => ∀ c : Dev nD,
      r.2.mem ((c.tc : Thread nD τ).loc main_v4) = value m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v4 (Pipeline.mem_restRefs_of main_v4 (by decide) (by decide))).trans (tail_eq m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c)⟩)
    (run_main m ρ)

/-- The cell (n, a, b) of an argument array: its 30 entries. -/
def cell (x : S16384x7x7x30.Idx → EReal) (j : (⟨3, ![16384, 7, 7]⟩ : Shape).Idx) : Fin 30 → EReal :=
  fun k => x (ix4 (j 0) (j 1) (j 2) k)

/-- The total over the grid is zero plus the sum over all cells of the cell's loss: the 392 blocks of
    2048 rows of the flattened arrays are the 16384 · 7 · 7 cells, each once. -/
theorem running_cells (c : Dev nD) :
    running m c 391 = c0 + ∑ j : (⟨3, ![16384, 7, 7]⟩ : Shape).Idx,
      rowTotal (cell (m ((c : Thread nD τ).loc main_arg0)) j) (cell (m ((c : Thread nD τ).loc main_arg1)) j) := by
  have hN : cfg0.N = 392 := N_0
  unfold running
  show c0 + ∑ t ∈ Finset.range 392, blockSumN m c t = _
  rw [Finset.sum_range]
  refine congrArg (c0 + ·) ?_
  refine Eq.trans ?_ (LibFlatten.sum_blocks_eq_sum_cells (m ((c : Thread nD τ).loc main_arg0))
    (m ((c : Thread nD τ).loc main_arg1)) shapeCasts_S16384x7x7x30_S802816x30 rowTotal)
  refine Finset.sum_congr rfl fun t _ => ?_
  have ht : t.val < cfg0.N := by have := t.isLt; omega
  unfold blockSumN
  rw [dif_pos ht]
  unfold blockSum
  refine Finset.sum_congr rfl fun y _ => ?_
  have e0 : row (iblk m c 0 ⟨t.val, ht⟩ : Vec Ideal S2048x30 .f32) y = fun k =>
      shapeCast ⟨2, ![802816, 30]⟩ (m ((c : Thread nD τ).loc main_arg0)) shapeCasts_S16384x7x7x30_S802816x30
        (ix2 (⟨2048 * t.val + y.val, by have := t.isLt; have := y.isLt; omega⟩ : Fin 802816) k) :=
    funext fun k => iblk0_apply m c ⟨t.val, ht⟩ y k
  have e1 : row (iblk m c 1 ⟨t.val, ht⟩ : Vec Ideal S2048x30 .f32) y = fun k =>
      shapeCast ⟨2, ![802816, 30]⟩ (m ((c : Thread nD τ).loc main_arg1)) shapeCasts_S16384x7x7x30_S802816x30
        (ix2 (⟨2048 * t.val + y.val, by have := t.isLt; have := y.isLt; omega⟩ : Fin 802816) k) :=
    funext fun k => iblk1_apply m c ⟨t.val, ht⟩ y k
  rw [e0, e1]

end Cert.KernelIdeal.Total

end
-- ==== Proof.RefStages.lean ====
/-
  The reference program's operations as a chain of named stages.

  The reference is a straight line of array operations on the two argument arrays x0 (the
  predictions) and x1 (the targets), both of shape [16384, 7, 7, 30]. Stage N is the value operation
  N writes, as a function of the argument arrays it depends on, stated through the earlier stages by
  name: a value that several later operations read (the overlap ratios, the responsible-box bit,
  the objectness weights) is computed once and shared through its name instead of being repeated
  inside every term that reads it. The comment above each stage is the operation's own text. The
  last stage is the scalar the program returns.
-/
import proofs.«118524_j27917287424001_2_alg».proof.ReferenceIdeal
import proofs.«118524_j27917287424001_2_alg».proof.Proof.Gen.ReferenceIdeal
import Idealize.ShloMosaic.Lib.Pipeline.Value
import Idealize.ShloMosaic.PureOps.Ideal.Laws

noncomputable section

namespace Cert.RefStages

open Cert.ReferenceIdeal Cert.ReferenceIdeal.Gen Idealize.ShloMosaic Idealize.ShloMosaic.TcCoe Idealize.SL.Sem Idealize.ShloMosaic.StableHlo

variable {F : FTy → Type} [FloatOps F]

-- %0 = stablehlo.slice %arg1 [0:16384, 0:7, 0:7, 4:5] : (tensor<16384x7x7x30xf32>) -> tensor<16384x7x7x1xf32>
def val_main_v0 (x1 : (⟨S16384x7x7x30, .f32⟩ : BufTy).Contents (Elt F)) : (⟨S16384x7x7x1, .f32⟩ : BufTy).Contents (Elt F) :=
  extractStridedSlice S16384x7x7x1 ![0, 0, 0, 4] (x1) slices_S16384x7x7x30_S16384x7x7x1_0_0_0_4

-- %1 = stablehlo.reshape %0 : (tensor<16384x7x7x1xf32>) -> tensor<16384x7x7xf32>
def val_main_v1 (x1 : (⟨S16384x7x7x30, .f32⟩ : BufTy).Contents (Elt F)) : (⟨S16384x7x7, .f32⟩ : BufTy).Contents (Elt F) :=
  shapeCast _ (val_main_v0 (F := F) x1) shapeCasts_S16384x7x7x1_S16384x7x7

-- %cst = stablehlo.constant dense<1.000000e+00> : tensor<f32>
def val_main_cst : (⟨S_, .f32⟩ : BufTy).Contents (Elt F) :=
  constant S_ .f32 0x3F800000#32

-- %2 = stablehlo.broadcast_in_dim %cst, dims = [] : (tensor<f32>) -> tensor<16384x7x7xf32>
def val_main_v2 : (⟨S16384x7x7, .f32⟩ : BufTy).Contents (Elt F) :=
  broadcastInDim S16384x7x7 ![] bcast_S_S16384x7x7 (val_main_cst (F := F))

-- %3 = stablehlo.compare EQ, %1, %2, FLOAT : (tensor<16384x7x7xf32>, tensor<16384x7x7xf32>) -> tensor<16384x7x7xi1>
def val_main_v3 (x1 : (⟨S16384x7x7x30, .f32⟩ : BufTy).Contents (Elt F)) : (⟨S16384x7x7, .i1⟩ : BufTy).Contents (Elt F) :=
  cmpf .oeq (val_main_v1 (F := F) x1) (val_main_v2 (F := F))

-- %4 = stablehlo.convert %3 : (tensor<16384x7x7xi1>) -> tensor<16384x7x7xf32>
def val_main_v4 (x1 : (⟨S16384x7x7x30, .f32⟩ : BufTy).Contents (Elt F)) : (⟨S16384x7x7, .f32⟩ : BufTy).Contents (Elt F) :=
  uitofp .f32 (val_main_v3 (F := F) x1)

-- %cst_0 = stablehlo.constant dense<1.000000e+00> : tensor<f32>
def val_main_cst_0 : (⟨S_, .f32⟩ : BufTy).Contents (Elt F) :=
  constant S_ .f32 0x3F800000#32

-- %5 = stablehlo.broadcast_in_dim %cst_0, dims = [] : (tensor<f32>) -> tensor<16384x7x7xf32>
def val_main_v5 : (⟨S16384x7x7, .f32⟩ : BufTy).Contents (Elt F) :=
  broadcastInDim S16384x7x7 ![] bcast_S_S16384x7x7 (val_main_cst_0 (F := F))

-- %6 = stablehlo.subtract %5, %4 : tensor<16384x7x7xf32>
def val_main_v6 (x1 : (⟨S16384x7x7x30, .f32⟩ : BufTy).Contents (Elt F)) : (⟨S16384x7x7, .f32⟩ : BufTy).Contents (Elt F) :=
  subf (val_main_v5 (F := F)) (val_main_v4 (F := F) x1)

-- %7 = stablehlo.slice %arg0 [0:16384, 0:7, 0:7, 0:4] : (tensor<16384x7x7x30xf32>) -> tensor<16384x7x7x4xf32>
def val_main_v7 (x0 : (⟨S16384x7x7x30, .f32⟩ : BufTy).Contents (Elt F)) : (⟨S16384x7x7x4, .f32⟩ : BufTy).Contents (Elt F) :=
  extractStridedSlice S16384x7x7x4 ![0, 0, 0, 0] (x0) slices_S16384x7x7x30_S16384x7x7x4_0_0_0_0

-- %8 = stablehlo.slice %arg1 [0:16384, 0:7, 0:7, 0:4] : (tensor<16384x7x7x30xf32>) -> tensor<16384x7x7x4xf32>
def val_main_v8 (x1 : (⟨S16384x7x7x30, .f32⟩ : BufTy).Contents (Elt F)) : (⟨S16384x7x7x4, .f32⟩ : BufTy).Contents (Elt F) :=
  extractStridedSlice S16384x7x7x4 ![0, 0, 0, 0] (x1) slices_S16384x7x7x30_S16384x7x7x4_0_0_0_0

-- %9 = stablehlo.slice %7 [0:16384, 0:7, 0:7, 0:1] : (tensor<16384x7x7x4xf32>) -> tensor<16384x7x7x1xf32>
def val_main_v9 (x0 : (⟨S16384x7x7x30, .f32⟩ : BufTy).Contents (Elt F)) : (⟨S16384x7x7x1, .f32⟩ : BufTy).Contents (Elt F) :=
  extractStridedSlice S16384x7x7x1 ![0, 0, 0, 0] (val_main_v7 (F := F) x0) slices_S16384x7x7x4_S16384x7x7x1_0_0_0_0

-- %10 = stablehlo.reshape %9 : (tensor<16384x7x7x1xf32>) -> tensor<16384x7x7xf32>
def val_main_v10 (x0 : (⟨S16384x7x7x30, .f32⟩ : BufTy).Contents (Elt F)) : (⟨S16384x7x7, .f32⟩ : BufTy).Contents (Elt F) :=
  shapeCast _ (val_main_v9 (F := F) x0) shapeCasts_S16384x7x7x1_S16384x7x7

-- %11 = stablehlo.slice %7 [0:16384, 0:7, 0:7, 2:3] : (tensor<16384x7x7x4xf32>) -> tensor<16384x7x7x1xf32>
def val_main_v11 (x0 : (⟨S16384x7x7x30, .f32⟩ : BufTy).Contents (Elt F)) : (⟨S16384x7x7x1, .f32⟩ : BufTy).Contents (Elt F) :=
  extractStridedSlice S16384x7x7x1 ![0, 0, 0, 2] (val_main_v7 (F := F) x0) slices_S16384x7x7x4_S16384x7x7x1_0_0_0_2

-- %12 = stablehlo.reshape %11 : (tensor<16384x7x7x1xf32>) -> tensor<16384x7x7xf32>
def val_main_v12 (x0 : (⟨S16384x7x7x30, .f32⟩ : BufTy).Contents (Elt F)) : (⟨S16384x7x7, .f32⟩ : BufTy).Contents (Elt F) :=
  shapeCast _ (val_main_v11 (F := F) x0) shapeCasts_S16384x7x7x1_S16384x7x7

-- %cst_1 = stablehlo.constant dense<2.000000e+00> : tensor<f32>
def val_main_cst_1 : (⟨S_, .f32⟩ : BufTy).Contents (Elt F) :=
  constant S_ .f32 0x40000000#32

-- %13 = stablehlo.broadcast_in_dim %cst_1, dims = [] : (tensor<f32>) -> tensor<16384x7x7xf32>
def val_main_v13 : (⟨S16384x7x7, .f32⟩ : BufTy).Contents (Elt F) :=
  broadcastInDim S16384x7x7 ![] bcast_S_S16384x7x7 (val_main_cst_1 (F := F))

-- %14 = stablehlo.divide %12, %13 : tensor<16384x7x7xf32>
def val_main_v14 (x0 : (⟨S16384x7x7x30, .f32⟩ : BufTy).Contents (Elt F)) : (⟨S16384x7x7, .f32⟩ : BufTy).Contents (Elt F) :=
  Host.divf (val_main_v12 (F := F) x0) (val_main_v13 (F := F))

-- %15 = stablehlo.subtract %10, %14 : tensor<16384x7x7xf32>
def val_main_v15 (x0 : (⟨S16384x7x7x30, .f32⟩ : BufTy).Contents (Elt F)) : (⟨S16384x7x7, .f32⟩ : BufTy).Contents (Elt F) :=
  subf (val_main_v10 (F := F) x0) (val_main_v14 (F := F) x0)

-- %16 = stablehlo.slice %7 [0:16384, 0:7, 0:7, 1:2] : (tensor<16384x7x7x4xf32>) -> tensor<16384x7x7x1xf32>
def val_main_v16 (x0 : (⟨S16384x7x7x30, .f32⟩ : BufTy).Contents (Elt F)) : (⟨S16384x7x7x1, .f32⟩ : BufTy).Contents (Elt F) :=
  extractStridedSlice S16384x7x7x1 ![0, 0, 0, 1] (val_main_v7 (F := F) x0) slices_S16384x7x7x4_S16384x7x7x1_0_0_0_1

-- %17 = stablehlo.reshape %16 : (tensor<16384x7x7x1xf32>) -> tensor<16384x7x7xf32>
def val_main_v17 (x0 : (⟨S16384x7x7x30, .f32⟩ : BufTy).Contents (Elt F)) : (⟨S16384x7x7, .f32⟩ : BufTy).Contents (Elt F) :=
  shapeCast _ (val_main_v16 (F := F) x0) shapeCasts_S16384x7x7x1_S16384x7x7

-- %18 = stablehlo.slice %7 [0:16384, 0:7, 0:7, 3:4] : (tensor<16384x7x7x4xf32>) -> tensor<16384x7x7x1xf32>
def val_main_v18 (x0 : (⟨S16384x7x7x30, .f32⟩ : BufTy).Contents (Elt F)) : (⟨S16384x7x7x1, .f32⟩ : BufTy).Contents (Elt F) :=
  extractStridedSlice S16384x7x7x1 ![0, 0, 0, 3] (val_main_v7 (F := F) x0) slices_S16384x7x7x4_S16384x7x7x1_0_0_0_3

-- %19 = stablehlo.reshape %18 : (tensor<16384x7x7x1xf32>) -> tensor<16384x7x7xf32>
def val_main_v19 (x0 : (⟨S16384x7x7x30, .f32⟩ : BufTy).Contents (Elt F)) : (⟨S16384x7x7, .f32⟩ : BufTy).Contents (Elt F) :=
  shapeCast _ (val_main_v18 (F := F) x0) shapeCasts_S16384x7x7x1_S16384x7x7

-- %cst_2 = stablehlo.constant dense<2.000000e+00> : tensor<f32>
def val_main_cst_2 : (⟨S_, .f32⟩ : BufTy).Contents (Elt F) :=
  constant S_ .f32 0x40000000#32

-- %20 = stablehlo.broadcast_in_dim %cst_2, dims = [] : (tensor<f32>) -> tensor<16384x7x7xf32>
def val_main_v20 : (⟨S16384x7x7, .f32⟩ : BufTy).Contents (Elt F) :=
  broadcastInDim S16384x7x7 ![] bcast_S_S16384x7x7 (val_main_cst_2 (F := F))

-- %21 = stablehlo.divide %19, %20 : tensor<16384x7x7xf32>
def val_main_v21 (x0 : (⟨S16384x7x7x30, .f32⟩ : BufTy).Contents (Elt F)) : (⟨S16384x7x7, .f32⟩ : BufTy).Contents (Elt F) :=
  Host.divf (val_main_v19 (F := F) x0) (val_main_v20 (F := F))

-- %22 = stablehlo.subtract %17, %21 : tensor<16384x7x7xf32>
def val_main_v22 (x0 : (⟨S16384x7x7x30, .f32⟩ : BufTy).Contents (Elt F)) : (⟨S16384x7x7, .f32⟩ : BufTy).Contents (Elt F) :=
  subf (val_main_v17 (F := F) x0) (val_main_v21 (F := F) x0)

-- %23 = stablehlo.slice %7 [0:16384, 0:7, 0:7, 0:1] : (tensor<16384x7x7x4xf32>) -> tensor<16384x7x7x1xf32>
def val_main_v23 (x0 : (⟨S16384x7x7x30, .f32⟩ : BufTy).Contents (Elt F)) : (⟨S16384x7x7x1, .f32⟩ : BufTy).Contents (Elt F) :=
  extractStridedSlice S16384x7x7x1 ![0, 0, 0, 0] (val_main_v7 (F := F) x0) slices_S16384x7x7x4_S16384x7x7x1_0_0_0_0

-- %24 = stablehlo.reshape %23 : (tensor<16384x7x7x1xf32>) -> tensor<16384x7x7xf32>
def val_main_v24 (x0 : (⟨S16384x7x7x30, .f32⟩ : BufTy).Contents (Elt F)) : (⟨S16384x7x7, .f32⟩ : BufTy).Contents (Elt F) :=
  shapeCast _ (val_main_v23 (F := F) x0) shapeCasts_S16384x7x7x1_S16384x7x7

-- %25 = stablehlo.slice %7 [0:16384, 0:7, 0:7, 2:3] : (tensor<16384x7x7x4xf32>) -> tensor<16384x7x7x1xf32>
def val_main_v25 (x0 : (⟨S16384x7x7x30, .f32⟩ : BufTy).Contents (Elt F)) : (⟨S16384x7x7x1, .f32⟩ : BufTy).Contents (Elt F) :=
  extractStridedSlice S16384x7x7x1 ![0, 0, 0, 2] (val_main_v7 (F := F) x0) slices_S16384x7x7x4_S16384x7x7x1_0_0_0_2

-- %26 = stablehlo.reshape %25 : (tensor<16384x7x7x1xf32>) -> tensor<16384x7x7xf32>
def val_main_v26 (x0 : (⟨S16384x7x7x30, .f32⟩ : BufTy).Contents (Elt F)) : (⟨S16384x7x7, .f32⟩ : BufTy).Contents (Elt F) :=
  shapeCast _ (val_main_v25 (F := F) x0) shapeCasts_S16384x7x7x1_S16384x7x7

-- %cst_3 = stablehlo.constant dense<2.000000e+00> : tensor<f32>
def val_main_cst_3 : (⟨S_, .f32⟩ : BufTy).Contents (Elt F) :=
  constant S_ .f32 0x40000000#32

-- %27 = stablehlo.broadcast_in_dim %cst_3, dims = [] : (tensor<f32>) -> tensor<16384x7x7xf32>
def val_main_v27 : (⟨S16384x7x7, .f32⟩ : BufTy).Contents (Elt F) :=
  broadcastInDim S16384x7x7 ![] bcast_S_S16384x7x7 (val_main_cst_3 (F := F))

-- %28 = stablehlo.divide %26, %27 : tensor<16384x7x7xf32>
def val_main_v28 (x0 : (⟨S16384x7x7x30, .f32⟩ : BufTy).Contents (Elt F)) : (⟨S16384x7x7, .f32⟩ : BufTy).Contents (Elt F) :=
  Host.divf (val_main_v26 (F := F) x0) (val_main_v27 (F := F))

-- %29 = stablehlo.add %24, %28 : tensor<16384x7x7xf32>
def val_main_v29 (x0 : (⟨S16384x7x7x30, .f32⟩ : BufTy).Contents (Elt F)) : (⟨S16384x7x7, .f32⟩ : BufTy).Contents (Elt F) :=
  addf (val_main_v24 (F := F) x0) (val_main_v28 (F := F) x0)

-- %30 = stablehlo.slice %7 [0:16384, 0:7, 0:7, 1:2] : (tensor<16384x7x7x4xf32>) -> tensor<16384x7x7x1xf32>
def val_main_v30 (x0 : (⟨S16384x7x7x30, .f32⟩ : BufTy).Contents (Elt F)) : (⟨S16384x7x7x1, .f32⟩ : BufTy).Contents (Elt F) :=
  extractStridedSlice S16384x7x7x1 ![0, 0, 0, 1] (val_main_v7 (F := F) x0) slices_S16384x7x7x4_S16384x7x7x1_0_0_0_1

-- %31 = stablehlo.reshape %30 : (tensor<16384x7x7x1xf32>) -> tensor<16384x7x7xf32>
def val_main_v31 (x0 : (⟨S16384x7x7x30, .f32⟩ : BufTy).Contents (Elt F)) : (⟨S16384x7x7, .f32⟩ : BufTy).Contents (Elt F) :=
  shapeCast _ (val_main_v30 (F := F) x0) shapeCasts_S16384x7x7x1_S16384x7x7

-- %32 = stablehlo.slice %7 [0:16384, 0:7, 0:7, 3:4] : (tensor<16384x7x7x4xf32>) -> tensor<16384x7x7x1xf32>
def val_main_v32 (x0 : (⟨S16384x7x7x30, .f32⟩ : BufTy).Contents (Elt F)) : (⟨S16384x7x7x1, .f32⟩ : BufTy).Contents (Elt F) :=
  extractStridedSlice S16384x7x7x1 ![0, 0, 0, 3] (val_main_v7 (F := F) x0) slices_S16384x7x7x4_S16384x7x7x1_0_0_0_3

-- %33 = stablehlo.reshape %32 : (tensor<16384x7x7x1xf32>) -> tensor<16384x7x7xf32>
def val_main_v33 (x0 : (⟨S16384x7x7x30, .f32⟩ : BufTy).Contents (Elt F)) : (⟨S16384x7x7, .f32⟩ : BufTy).Contents (Elt F) :=
  shapeCast _ (val_main_v32 (F := F) x0) shapeCasts_S16384x7x7x1_S16384x7x7

-- %cst_4 = stablehlo.constant dense<2.000000e+00> : tensor<f32>
def val_main_cst_4 : (⟨S_, .f32⟩ : BufTy).Contents (Elt F) :=
  constant S_ .f32 0x40000000#32

-- %34 = stablehlo.broadcast_in_dim %cst_4, dims = [] : (tensor<f32>) -> tensor<16384x7x7xf32>
def val_main_v34 : (⟨S16384x7x7, .f32⟩ : BufTy).Contents (Elt F) :=
  broadcastInDim S16384x7x7 ![] bcast_S_S16384x7x7 (val_main_cst_4 (F := F))

-- %35 = stablehlo.divide %33, %34 : tensor<16384x7x7xf32>
def val_main_v35 (x0 : (⟨S16384x7x7x30, .f32⟩ : BufTy).Contents (Elt F)) : (⟨S16384x7x7, .f32⟩ : BufTy).Contents (Elt F) :=
  Host.divf (val_main_v33 (F := F) x0) (val_main_v34 (F := F))

-- %36 = stablehlo.add %31, %35 : tensor<16384x7x7xf32>
def val_main_v36 (x0 : (⟨S16384x7x7x30, .f32⟩ : BufTy).Contents (Elt F)) : (⟨S16384x7x7, .f32⟩ : BufTy).Contents (Elt F) :=
  addf (val_main_v31 (F := F) x0) (val_main_v35 (F := F) x0)

-- %37 = stablehlo.slice %8 [0:16384, 0:7, 0:7, 0:1] : (tensor<16384x7x7x4xf32>) -> tensor<16384x7x7x1xf32>
def val_main_v37 (x1 : (⟨S16384x7x7x30, .f32⟩ : BufTy).Contents (Elt F)) : (⟨S16384x7x7x1, .f32⟩ : BufTy).Contents (Elt F) :=
  extractStridedSlice S16384x7x7x1 ![0, 0, 0, 0] (val_main_v8 (F := F) x1) slices_S16384x7x7x4_S16384x7x7x1_0_0_0_0

-- %38 = stablehlo.reshape %37 : (tensor<16384x7x7x1xf32>) -> tensor<16384x7x7xf32>
def val_main_v38 (x1 : (⟨S16384x7x7x30, .f32⟩ : BufTy).Contents (Elt F)) : (⟨S16384x7x7, .f32⟩ : BufTy).Contents (Elt F) :=
  shapeCast _ (val_main_v37 (F := F) x1) shapeCasts_S16384x7x7x1_S16384x7x7

-- %39 = stablehlo.slice %8 [0:16384, 0:7, 0:7, 2:3] : (tensor<16384x7x7x4xf32>) -> tensor<16384x7x7x1xf32>
def val_main_v39 (x1 : (⟨S16384x7x7x30, .f32⟩ : BufTy).Contents (Elt F)) : (⟨S16384x7x7x1, .f32⟩ : BufTy).Contents (Elt F) :=
  extractStridedSlice S16384x7x7x1 ![0, 0, 0, 2] (val_main_v8 (F := F) x1) slices_S16384x7x7x4_S16384x7x7x1_0_0_0_2

-- %40 = stablehlo.reshape %39 : (tensor<16384x7x7x1xf32>) -> tensor<16384x7x7xf32>
def val_main_v40 (x1 : (⟨S16384x7x7x30, .f32⟩ : BufTy).Contents (Elt F)) : (⟨S16384x7x7, .f32⟩ : BufTy).Contents (Elt F) :=
  shapeCast _ (val_main_v39 (F := F) x1) shapeCasts_S16384x7x7x1_S16384x7x7

-- %cst_5 = stablehlo.constant dense<2.000000e+00> : tensor<f32>
def val_main_cst_5 : (⟨S_, .f32⟩ : BufTy).Contents (Elt F) :=
  constant S_ .f32 0x40000000#32

-- %41 = stablehlo.broadcast_in_dim %cst_5, dims = [] : (tensor<f32>) -> tensor<16384x7x7xf32>
def val_main_v41 : (⟨S16384x7x7, .f32⟩ : BufTy).Contents (Elt F) :=
  broadcastInDim S16384x7x7 ![] bcast_S_S16384x7x7 (val_main_cst_5 (F := F))

-- %42 = stablehlo.divide %40, %41 : tensor<16384x7x7xf32>
def val_main_v42 (x1 : (⟨S16384x7x7x30, .f32⟩ : BufTy).Contents (Elt F)) : (⟨S16384x7x7, .f32⟩ : BufTy).Contents (Elt F) :=
  Host.divf (val_main_v40 (F := F) x1) (val_main_v41 (F := F))

-- %43 = stablehlo.subtract %38, %42 : tensor<16384x7x7xf32>
def val_main_v43 (x1 : (⟨S16384x7x7x30, .f32⟩ : BufTy).Contents (Elt F)) : (⟨S16384x7x7, .f32⟩ : BufTy).Contents (Elt F) :=
  subf (val_main_v38 (F := F) x1) (val_main_v42 (F := F) x1)

-- %44 = stablehlo.slice %8 [0:16384, 0:7, 0:7, 1:2] : (tensor<16384x7x7x4xf32>) -> tensor<16384x7x7x1xf32>
def val_main_v44 (x1 : (⟨S16384x7x7x30, .f32⟩ : BufTy).Contents (Elt F)) : (⟨S16384x7x7x1, .f32⟩ : BufTy).Contents (Elt F) :=
  extractStridedSlice S16384x7x7x1 ![0, 0, 0, 1] (val_main_v8 (F := F) x1) slices_S16384x7x7x4_S16384x7x7x1_0_0_0_1

-- %45 = stablehlo.reshape %44 : (tensor<16384x7x7x1xf32>) -> tensor<16384x7x7xf32>
def val_main_v45 (x1 : (⟨S16384x7x7x30, .f32⟩ : BufTy).Contents (Elt F)) : (⟨S16384x7x7, .f32⟩ : BufTy).Contents (Elt F) :=
  shapeCast _ (val_main_v44 (F := F) x1) shapeCasts_S16384x7x7x1_S16384x7x7

-- %46 = stablehlo.slice %8 [0:16384, 0:7, 0:7, 3:4] : (tensor<16384x7x7x4xf32>) -> tensor<16384x7x7x1xf32>
def val_main_v46 (x1 : (⟨S16384x7x7x30, .f32⟩ : BufTy).Contents (Elt F)) : (⟨S16384x7x7x1, .f32⟩ : BufTy).Contents (Elt F) :=
  extractStridedSlice S16384x7x7x1 ![0, 0, 0, 3] (val_main_v8 (F := F) x1) slices_S16384x7x7x4_S16384x7x7x1_0_0_0_3

-- %47 = stablehlo.reshape %46 : (tensor<16384x7x7x1xf32>) -> tensor<16384x7x7xf32>
def val_main_v47 (x1 : (⟨S16384x7x7x30, .f32⟩ : BufTy).Contents (Elt F)) : (⟨S16384x7x7, .f32⟩ : BufTy).Contents (Elt F) :=
  shapeCast _ (val_main_v46 (F := F) x1) shapeCasts_S16384x7x7x1_S16384x7x7

-- %cst_6 = stablehlo.constant dense<2.000000e+00> : tensor<f32>
def val_main_cst_6 : (⟨S_, .f32⟩ : BufTy).Contents (Elt F) :=
  constant S_ .f32 0x40000000#32

-- %48 = stablehlo.broadcast_in_dim %cst_6, dims = [] : (tensor<f32>) -> tensor<16384x7x7xf32>
def val_main_v48 : (⟨S16384x7x7, .f32⟩ : BufTy).Contents (Elt F) :=
  broadcastInDim S16384x7x7 ![] bcast_S_S16384x7x7 (val_main_cst_6 (F := F))

-- %49 = stablehlo.divide %47, %48 : tensor<16384x7x7xf32>
def val_main_v49 (x1 : (⟨S16384x7x7x30, .f32⟩ : BufTy).Contents (Elt F)) : (⟨S16384x7x7, .f32⟩ : BufTy).Contents (Elt F) :=
  Host.divf (val_main_v47 (F := F) x1) (val_main_v48 (F := F))

-- %50 = stablehlo.subtract %45, %49 : tensor<16384x7x7xf32>
def val_main_v50 (x1 : (⟨S16384x7x7x30, .f32⟩ : BufTy).Contents (Elt F)) : (⟨S16384x7x7, .f32⟩ : BufTy).Contents (Elt F) :=
  subf (val_main_v45 (F := F) x1) (val_main_v49 (F := F) x1)

-- %51 = stablehlo.slice %8 [0:16384, 0:7, 0:7, 0:1] : (tensor<16384x7x7x4xf32>) -> tensor<16384x7x7x1xf32>
def val_main_v51 (x1 : (⟨S16384x7x7x30, .f32⟩ : BufTy).Contents (Elt F)) : (⟨S16384x7x7x1, .f32⟩ : BufTy).Contents (Elt F) :=
  extractStridedSlice S16384x7x7x1 ![0, 0, 0, 0] (val_main_v8 (F := F) x1) slices_S16384x7x7x4_S16384x7x7x1_0_0_0_0

-- %52 = stablehlo.reshape %51 : (tensor<16384x7x7x1xf32>) -> tensor<16384x7x7xf32>
def val_main_v52 (x1 : (⟨S16384x7x7x30, .f32⟩ : BufTy).Contents (Elt F)) : (⟨S16384x7x7, .f32⟩ : BufTy).Contents (Elt F) :=
  shapeCast _ (val_main_v51 (F := F) x1) shapeCasts_S16384x7x7x1_S16384x7x7

-- %53 = stablehlo.slice %8 [0:16384, 0:7, 0:7, 2:3] : (tensor<16384x7x7x4xf32>) -> tensor<16384x7x7x1xf32>
def val_main_v53 (x1 : (⟨S16384x7x7x30, .f32⟩ : BufTy).Contents (Elt F)) : (⟨S16384x7x7x1, .f32⟩ : BufTy).Contents (Elt F) :=
  extractStridedSlice S16384x7x7x1 ![0, 0, 0, 2] (val_main_v8 (F := F) x1) slices_S16384x7x7x4_S16384x7x7x1_0_0_0_2

-- %54 = stablehlo.reshape %53 : (tensor<16384x7x7x1xf32>) -> tensor<16384x7x7xf32>
def val_main_v54 (x1 : (⟨S16384x7x7x30, .f32⟩ : BufTy).Contents (Elt F)) : (⟨S16384x7x7, .f32⟩ : BufTy).Contents (Elt F) :=
  shapeCast _ (val_main_v53 (F := F) x1) shapeCasts_S16384x7x7x1_S16384x7x7

-- %cst_7 = stablehlo.constant dense<2.000000e+00> : tensor<f32>
def val_main_cst_7 : (⟨S_, .f32⟩ : BufTy).Contents (Elt F) :=
  constant S_ .f32 0x40000000#32

-- %55 = stablehlo.broadcast_in_dim %cst_7, dims = [] : (tensor<f32>) -> tensor<16384x7x7xf32>
def val_main_v55 : (⟨S16384x7x7, .f32⟩ : BufTy).Contents (Elt F) :=
  broadcastInDim S16384x7x7 ![] bcast_S_S16384x7x7 (val_main_cst_7 (F := F))

-- %56 = stablehlo.divide %54, %55 : tensor<16384x7x7xf32>
def val_main_v56 (x1 : (⟨S16384x7x7x30, .f32⟩ : BufTy).Contents (Elt F)) : (⟨S16384x7x7, .f32⟩ : BufTy).Contents (Elt F) :=
  Host.divf (val_main_v54 (F := F) x1) (val_main_v55 (F := F))

-- %57 = stablehlo.add %52, %56 : tensor<16384x7x7xf32>
def val_main_v57 (x1 : (⟨S16384x7x7x30, .f32⟩ : BufTy).Contents (Elt F)) : (⟨S16384x7x7, .f32⟩ : BufTy).Contents (Elt F) :=
  addf (val_main_v52 (F := F) x1) (val_main_v56 (F := F) x1)

-- %58 = stablehlo.slice %8 [0:16384, 0:7, 0:7, 1:2] : (tensor<16384x7x7x4xf32>) -> tensor<16384x7x7x1xf32>
def val_main_v58 (x1 : (⟨S16384x7x7x30, .f32⟩ : BufTy).Contents (Elt F)) : (⟨S16384x7x7x1, .f32⟩ : BufTy).Contents (Elt F) :=
  extractStridedSlice S16384x7x7x1 ![0, 0, 0, 1] (val_main_v8 (F := F) x1) slices_S16384x7x7x4_S16384x7x7x1_0_0_0_1

-- %59 = stablehlo.reshape %58 : (tensor<16384x7x7x1xf32>) -> tensor<16384x7x7xf32>
def val_main_v59 (x1 : (⟨S16384x7x7x30, .f32⟩ : BufTy).Contents (Elt F)) : (⟨S16384x7x7, .f32⟩ : BufTy).Contents (Elt F) :=
  shapeCast _ (val_main_v58 (F := F) x1) shapeCasts_S16384x7x7x1_S16384x7x7

-- %60 = stablehlo.slice %8 [0:16384, 0:7, 0:7, 3:4] : (tensor<16384x7x7x4xf32>) -> tensor<16384x7x7x1xf32>
def val_main_v60 (x1 : (⟨S16384x7x7x30, .f32⟩ : BufTy).Contents (Elt F)) : (⟨S16384x7x7x1, .f32⟩ : BufTy).Contents (Elt F) :=
  extractStridedSlice S16384x7x7x1 ![0, 0, 0, 3] (val_main_v8 (F := F) x1) slices_S16384x7x7x4_S16384x7x7x1_0_0_0_3

-- %61 = stablehlo.reshape %60 : (tensor<16384x7x7x1xf32>) -> tensor<16384x7x7xf32>
def val_main_v61 (x1 : (⟨S16384x7x7x30, .f32⟩ : BufTy).Contents (Elt F)) : (⟨S16384x7x7, .f32⟩ : BufTy).Contents (Elt F) :=
  shapeCast _ (val_main_v60 (F := F) x1) shapeCasts_S16384x7x7x1_S16384x7x7

-- %cst_8 = stablehlo.constant dense<2.000000e+00> : tensor<f32>
def val_main_cst_8 : (⟨S_, .f32⟩ : BufTy).Contents (Elt F) :=
  constant S_ .f32 0x40000000#32

-- %62 = stablehlo.broadcast_in_dim %cst_8, dims = [] : (tensor<f32>) -> tensor<16384x7x7xf32>
def val_main_v62 : (⟨S16384x7x7, .f32⟩ : BufTy).Contents (Elt F) :=
  broadcastInDim S16384x7x7 ![] bcast_S_S16384x7x7 (val_main_cst_8 (F := F))

-- %63 = stablehlo.divide %61, %62 : tensor<16384x7x7xf32>
def val_main_v63 (x1 : (⟨S16384x7x7x30, .f32⟩ : BufTy).Contents (Elt F)) : (⟨S16384x7x7, .f32⟩ : BufTy).Contents (Elt F) :=
  Host.divf (val_main_v61 (F := F) x1) (val_main_v62 (F := F))

-- %64 = stablehlo.add %59, %63 : tensor<16384x7x7xf32>
def val_main_v64 (x1 : (⟨S16384x7x7x30, .f32⟩ : BufTy).Contents (Elt F)) : (⟨S16384x7x7, .f32⟩ : BufTy).Contents (Elt F) :=
  addf (val_main_v59 (F := F) x1) (val_main_v63 (F := F) x1)

-- %65 = stablehlo.minimum %29, %57 : tensor<16384x7x7xf32>
def val_main_v65 (x0 x1 : (⟨S16384x7x7x30, .f32⟩ : BufTy).Contents (Elt F)) : (⟨S16384x7x7, .f32⟩ : BufTy).Contents (Elt F) :=
  minimumf (val_main_v29 (F := F) x0) (val_main_v57 (F := F) x1)

-- %66 = stablehlo.maximum %15, %43 : tensor<16384x7x7xf32>
def val_main_v66 (x0 x1 : (⟨S16384x7x7x30, .f32⟩ : BufTy).Contents (Elt F)) : (⟨S16384x7x7, .f32⟩ : BufTy).Contents (Elt F) :=
  maximumf (val_main_v15 (F := F) x0) (val_main_v43 (F := F) x1)

-- %67 = stablehlo.subtract %65, %66 : tensor<16384x7x7xf32>
def val_main_v67 (x0 x1 : (⟨S16384x7x7x30, .f32⟩ : BufTy).Contents (Elt F)) : (⟨S16384x7x7, .f32⟩ : BufTy).Contents (Elt F) :=
  subf (val_main_v65 (F := F) x0 x1) (val_main_v66 (F := F) x0 x1)

-- %cst_9 = stablehlo.constant dense<0.000000e+00> : tensor<f32>
def val_main_cst_9 : (⟨S_, .f32⟩ : BufTy).Contents (Elt F) :=
  constant S_ .f32 0x00000000#32

def val_main_call0_v0 : (⟨S_, .f32⟩ : BufTy).Contents (Elt F) :=
  id (val_main_cst_9 (F := F))

def val_main_call0_v1 : (⟨S16384x7x7, .f32⟩ : BufTy).Contents (Elt F) :=
  broadcastInDim S16384x7x7 ![] bcast_S_S16384x7x7 (val_main_call0_v0 (F := F))

-- %68 = func.call @clip(…) (record main_call0) result 0: @clip's %2 = stablehlo.maximum %1, %arg0 : tensor<16384x7x7xf32>
def val_main_v68 (x0 x1 : (⟨S16384x7x7x30, .f32⟩ : BufTy).Contents (Elt F)) : (⟨S16384x7x7, .f32⟩ : BufTy).Contents (Elt F) :=
  maximumf (val_main_call0_v1 (F := F)) (val_main_v67 (F := F) x0 x1)

-- %69 = stablehlo.minimum %36, %64 : tensor<16384x7x7xf32>
def val_main_v69 (x0 x1 : (⟨S16384x7x7x30, .f32⟩ : BufTy).Contents (Elt F)) : (⟨S16384x7x7, .f32⟩ : BufTy).Contents (Elt F) :=
  minimumf (val_main_v36 (F := F) x0) (val_main_v64 (F := F) x1)

-- %70 = stablehlo.maximum %22, %50 : tensor<16384x7x7xf32>
def val_main_v70 (x0 x1 : (⟨S16384x7x7x30, .f32⟩ : BufTy).Contents (Elt F)) : (⟨S16384x7x7, .f32⟩ : BufTy).Contents (Elt F) :=
  maximumf (val_main_v22 (F := F) x0) (val_main_v50 (F := F) x1)

-- %71 = stablehlo.subtract %69, %70 : tensor<16384x7x7xf32>
def val_main_v71 (x0 x1 : (⟨S16384x7x7x30, .f32⟩ : BufTy).Contents (Elt F)) : (⟨S16384x7x7, .f32⟩ : BufTy).Contents (Elt F) :=
  subf (val_main_v69 (F := F) x0 x1) (val_main_v70 (F := F) x0 x1)

-- %cst_10 = stablehlo.constant dense<0.000000e+00> : tensor<f32>
def val_main_cst_10 : (⟨S_, .f32⟩ : BufTy).Contents (Elt F) :=
  constant S_ .f32 0x00000000#32

def val_main_call1_v0 : (⟨S_, .f32⟩ : BufTy).Contents (Elt F) :=
  id (val_main_cst_10 (F := F))

def val_main_call1_v1 : (⟨S16384x7x7, .f32⟩ : BufTy).Contents (Elt F) :=
  broadcastInDim S16384x7x7 ![] bcast_S_S16384x7x7 (val_main_call1_v0 (F := F))

-- %72 = func.call @clip(…) (record main_call1) result 0: @clip's %2 = stablehlo.maximum %1, %arg0 : tensor<16384x7x7xf32>
def val_main_v72 (x0 x1 : (⟨S16384x7x7x30, .f32⟩ : BufTy).Contents (Elt F)) : (⟨S16384x7x7, .f32⟩ : BufTy).Contents (Elt F) :=
  maximumf (val_main_call1_v1 (F := F)) (val_main_v71 (F := F) x0 x1)

-- %73 = stablehlo.multiply %68, %72 : tensor<16384x7x7xf32>
def val_main_v73 (x0 x1 : (⟨S16384x7x7x30, .f32⟩ : BufTy).Contents (Elt F)) : (⟨S16384x7x7, .f32⟩ : BufTy).Contents (Elt F) :=
  mulf (val_main_v68 (F := F) x0 x1) (val_main_v72 (F := F) x0 x1)

-- %74 = stablehlo.slice %7 [0:16384, 0:7, 0:7, 2:3] : (tensor<16384x7x7x4xf32>) -> tensor<16384x7x7x1xf32>
def val_main_v74 (x0 : (⟨S16384x7x7x30, .f32⟩ : BufTy).Contents (Elt F)) : (⟨S16384x7x7x1, .f32⟩ : BufTy).Contents (Elt F) :=
  extractStridedSlice S16384x7x7x1 ![0, 0, 0, 2] (val_main_v7 (F := F) x0) slices_S16384x7x7x4_S16384x7x7x1_0_0_0_2

-- %75 = stablehlo.reshape %74 : (tensor<16384x7x7x1xf32>) -> tensor<16384x7x7xf32>
def val_main_v75 (x0 : (⟨S16384x7x7x30, .f32⟩ : BufTy).Contents (Elt F)) : (⟨S16384x7x7, .f32⟩ : BufTy).Contents (Elt F) :=
  shapeCast _ (val_main_v74 (F := F) x0) shapeCasts_S16384x7x7x1_S16384x7x7

-- %76 = stablehlo.slice %7 [0:16384, 0:7, 0:7, 3:4] : (tensor<16384x7x7x4xf32>) -> tensor<16384x7x7x1xf32>
def val_main_v76 (x0 : (⟨S16384x7x7x30, .f32⟩ : BufTy).Contents (Elt F)) : (⟨S16384x7x7x1, .f32⟩ : BufTy).Contents (Elt F) :=
  extractStridedSlice S16384x7x7x1 ![0, 0, 0, 3] (val_main_v7 (F := F) x0) slices_S16384x7x7x4_S16384x7x7x1_0_0_0_3

-- %77 = stablehlo.reshape %76 : (tensor<16384x7x7x1xf32>) -> tensor<16384x7x7xf32>
def val_main_v77 (x0 : (⟨S16384x7x7x30, .f32⟩ : BufTy).Contents (Elt F)) : (⟨S16384x7x7, .f32⟩ : BufTy).Contents (Elt F) :=
  shapeCast _ (val_main_v76 (F := F) x0) shapeCasts_S16384x7x7x1_S16384x7x7

-- %78 = stablehlo.multiply %75, %77 : tensor<16384x7x7xf32>
def val_main_v78 (x0 : (⟨S16384x7x7x30, .f32⟩ : BufTy).Contents (Elt F)) : (⟨S16384x7x7, .f32⟩ : BufTy).Contents (Elt F) :=
  mulf (val_main_v75 (F := F) x0) (val_main_v77 (F := F) x0)

-- %79 = stablehlo.slice %8 [0:16384, 0:7, 0:7, 2:3] : (tensor<16384x7x7x4xf32>) -> tensor<16384x7x7x1xf32>
def val_main_v79 (x1 : (⟨S16384x7x7x30, .f32⟩ : BufTy).Contents (Elt F)) : (⟨S16384x7x7x1, .f32⟩ : BufTy).Contents (Elt F) :=
  extractStridedSlice S16384x7x7x1 ![0, 0, 0, 2] (val_main_v8 (F := F) x1) slices_S16384x7x7x4_S16384x7x7x1_0_0_0_2

-- %80 = stablehlo.reshape %79 : (tensor<16384x7x7x1xf32>) -> tensor<16384x7x7xf32>
def val_main_v80 (x1 : (⟨S16384x7x7x30, .f32⟩ : BufTy).Contents (Elt F)) : (⟨S16384x7x7, .f32⟩ : BufTy).Contents (Elt F) :=
  shapeCast _ (val_main_v79 (F := F) x1) shapeCasts_S16384x7x7x1_S16384x7x7

-- %81 = stablehlo.slice %8 [0:16384, 0:7, 0:7, 3:4] : (tensor<16384x7x7x4xf32>) -> tensor<16384x7x7x1xf32>
def val_main_v81 (x1 : (⟨S16384x7x7x30, .f32⟩ : BufTy).Contents (Elt F)) : (⟨S16384x7x7x1, .f32⟩ : BufTy).Contents (Elt F) :=
  extractStridedSlice S16384x7x7x1 ![0, 0, 0, 3] (val_main_v8 (F := F) x1) slices_S16384x7x7x4_S16384x7x7x1_0_0_0_3

-- %82 = stablehlo.reshape %81 : (tensor<16384x7x7x1xf32>) -> tensor<16384x7x7xf32>
def val_main_v82 (x1 : (⟨S16384x7x7x30, .f32⟩ : BufTy).Contents (Elt F)) : (⟨S16384x7x7, .f32⟩ : BufTy).Contents (Elt F) :=
  shapeCast _ (val_main_v81 (F := F) x1) shapeCasts_S16384x7x7x1_S16384x7x7

-- %83 = stablehlo.multiply %80, %82 : tensor<16384x7x7xf32>
def val_main_v83 (x1 : (⟨S16384x7x7x30, .f32⟩ : BufTy).Contents (Elt F)) : (⟨S16384x7x7, .f32⟩ : BufTy).Contents (Elt F) :=
  mulf (val_main_v80 (F := F) x1) (val_main_v82 (F := F) x1)

-- %84 = stablehlo.add %78, %83 : tensor<16384x7x7xf32>
def val_main_v84 (x0 x1 : (⟨S16384x7x7x30, .f32⟩ : BufTy).Contents (Elt F)) : (⟨S16384x7x7, .f32⟩ : BufTy).Contents (Elt F) :=
  addf (val_main_v78 (F := F) x0) (val_main_v83 (F := F) x1)

-- %85 = stablehlo.subtract %84, %73 : tensor<16384x7x7xf32>
def val_main_v85 (x0 x1 : (⟨S16384x7x7x30, .f32⟩ : BufTy).Contents (Elt F)) : (⟨S16384x7x7, .f32⟩ : BufTy).Contents (Elt F) :=
  subf (val_main_v84 (F := F) x0 x1) (val_main_v73 (F := F) x0 x1)

-- %cst_11 = stablehlo.constant dense<1.000000e-10> : tensor<f32>
def val_main_cst_11 : (⟨S_, .f32⟩ : BufTy).Contents (Elt F) :=
  constant S_ .f32 0x2EDBE6FF#32

-- %86 = stablehlo.broadcast_in_dim %cst_11, dims = [] : (tensor<f32>) -> tensor<16384x7x7xf32>
def val_main_v86 : (⟨S16384x7x7, .f32⟩ : BufTy).Contents (Elt F) :=
  broadcastInDim S16384x7x7 ![] bcast_S_S16384x7x7 (val_main_cst_11 (F := F))

-- %87 = stablehlo.add %85, %86 : tensor<16384x7x7xf32>
def val_main_v87 (x0 x1 : (⟨S16384x7x7x30, .f32⟩ : BufTy).Contents (Elt F)) : (⟨S16384x7x7, .f32⟩ : BufTy).Contents (Elt F) :=
  addf (val_main_v85 (F := F) x0 x1) (val_main_v86 (F := F))

-- %88 = stablehlo.divide %73, %87 : tensor<16384x7x7xf32>
def val_main_v88 (x0 x1 : (⟨S16384x7x7x30, .f32⟩ : BufTy).Contents (Elt F)) : (⟨S16384x7x7, .f32⟩ : BufTy).Contents (Elt F) :=
  Host.divf (val_main_v73 (F := F) x0 x1) (val_main_v87 (F := F) x0 x1)

-- %89 = stablehlo.slice %arg0 [0:16384, 0:7, 0:7, 5:9] : (tensor<16384x7x7x30xf32>) -> tensor<16384x7x7x4xf32>
def val_main_v89 (x0 : (⟨S16384x7x7x30, .f32⟩ : BufTy).Contents (Elt F)) : (⟨S16384x7x7x4, .f32⟩ : BufTy).Contents (Elt F) :=
  extractStridedSlice S16384x7x7x4 ![0, 0, 0, 5] (x0) slices_S16384x7x7x30_S16384x7x7x4_0_0_0_5

-- %90 = stablehlo.slice %arg1 [0:16384, 0:7, 0:7, 0:4] : (tensor<16384x7x7x30xf32>) -> tensor<16384x7x7x4xf32>
def val_main_v90 (x1 : (⟨S16384x7x7x30, .f32⟩ : BufTy).Contents (Elt F)) : (⟨S16384x7x7x4, .f32⟩ : BufTy).Contents (Elt F) :=
  extractStridedSlice S16384x7x7x4 ![0, 0, 0, 0] (x1) slices_S16384x7x7x30_S16384x7x7x4_0_0_0_0

-- %91 = stablehlo.slice %89 [0:16384, 0:7, 0:7, 0:1] : (tensor<16384x7x7x4xf32>) -> tensor<16384x7x7x1xf32>
def val_main_v91 (x0 : (⟨S16384x7x7x30, .f32⟩ : BufTy).Contents (Elt F)) : (⟨S16384x7x7x1, .f32⟩ : BufTy).Contents (Elt F) :=
  extractStridedSlice S16384x7x7x1 ![0, 0, 0, 0] (val_main_v89 (F := F) x0) slices_S16384x7x7x4_S16384x7x7x1_0_0_0_0

-- %92 = stablehlo.reshape %91 : (tensor<16384x7x7x1xf32>) -> tensor<16384x7x7xf32>
def val_main_v92 (x0 : (⟨S16384x7x7x30, .f32⟩ : BufTy).Contents (Elt F)) : (⟨S16384x7x7, .f32⟩ : BufTy).Contents (Elt F) :=
  shapeCast _ (val_main_v91 (F := F) x0) shapeCasts_S16384x7x7x1_S16384x7x7

-- %93 = stablehlo.slice %89 [0:16384, 0:7, 0:7, 2:3] : (tensor<16384x7x7x4xf32>) -> tensor<16384x7x7x1xf32>
def val_main_v93 (x0 : (⟨S16384x7x7x30, .f32⟩ : BufTy).Contents (Elt F)) : (⟨S16384x7x7x1, .f32⟩ : BufTy).Contents (Elt F) :=
  extractStridedSlice S16384x7x7x1 ![0, 0, 0, 2] (val_main_v89 (F := F) x0) slices_S16384x7x7x4_S16384x7x7x1_0_0_0_2

-- %94 = stablehlo.reshape %93 : (tensor<16384x7x7x1xf32>) -> tensor<16384x7x7xf32>
def val_main_v94 (x0 : (⟨S16384x7x7x30, .f32⟩ : BufTy).Contents (Elt F)) : (⟨S16384x7x7, .f32⟩ : BufTy).Contents (Elt F) :=
  shapeCast _ (val_main_v93 (F := F) x0) shapeCasts_S16384x7x7x1_S16384x7x7

-- %cst_12 = stablehlo.constant dense<2.000000e+00> : tensor<f32>
def val_main_cst_12 : (⟨S_, .f32⟩ : BufTy).Contents (Elt F) :=
  constant S_ .f32 0x40000000#32

-- %95 = stablehlo.broadcast_in_dim %cst_12, dims = [] : (tensor<f32>) -> tensor<16384x7x7xf32>
def val_main_v95 : (⟨S16384x7x7, .f32⟩ : BufTy).Contents (Elt F) :=
  broadcastInDim S16384x7x7 ![] bcast_S_S16384x7x7 (val_main_cst_12 (F := F))

-- %96 = stablehlo.divide %94, %95 : tensor<16384x7x7xf32>
def val_main_v96 (x0 : (⟨S16384x7x7x30, .f32⟩ : BufTy).Contents (Elt F)) : (⟨S16384x7x7, .f32⟩ : BufTy).Contents (Elt F) :=
  Host.divf (val_main_v94 (F := F) x0) (val_main_v95 (F := F))

-- %97 = stablehlo.subtract %92, %96 : tensor<16384x7x7xf32>
def val_main_v97 (x0 : (⟨S16384x7x7x30, .f32⟩ : BufTy).Contents (Elt F)) : (⟨S16384x7x7, .f32⟩ : BufTy).Contents (Elt F) :=
  subf (val_main_v92 (F := F) x0) (val_main_v96 (F := F) x0)

-- %98 = stablehlo.slice %89 [0:16384, 0:7, 0:7, 1:2] : (tensor<16384x7x7x4xf32>) -> tensor<16384x7x7x1xf32>
def val_main_v98 (x0 : (⟨S16384x7x7x30, .f32⟩ : BufTy).Contents (Elt F)) : (⟨S16384x7x7x1, .f32⟩ : BufTy).Contents (Elt F) :=
  extractStridedSlice S16384x7x7x1 ![0, 0, 0, 1] (val_main_v89 (F := F) x0) slices_S16384x7x7x4_S16384x7x7x1_0_0_0_1

-- %99 = stablehlo.reshape %98 : (tensor<16384x7x7x1xf32>) -> tensor<16384x7x7xf32>
def val_main_v99 (x0 : (⟨S16384x7x7x30, .f32⟩ : BufTy).Contents (Elt F)) : (⟨S16384x7x7, .f32⟩ : BufTy).Contents (Elt F) :=
  shapeCast _ (val_main_v98 (F := F) x0) shapeCasts_S16384x7x7x1_S16384x7x7

-- %100 = stablehlo.slice %89 [0:16384, 0:7, 0:7, 3:4] : (tensor<16384x7x7x4xf32>) -> tensor<16384x7x7x1xf32>
def val_main_v100 (x0 : (⟨S16384x7x7x30, .f32⟩ : BufTy).Contents (Elt F)) : (⟨S16384x7x7x1, .f32⟩ : BufTy).Contents (Elt F) :=
  extractStridedSlice S16384x7x7x1 ![0, 0, 0, 3] (val_main_v89 (F := F) x0) slices_S16384x7x7x4_S16384x7x7x1_0_0_0_3

-- %101 = stablehlo.reshape %100 : (tensor<16384x7x7x1xf32>) -> tensor<16384x7x7xf32>
def val_main_v101 (x0 : (⟨S16384x7x7x30, .f32⟩ : BufTy).Contents (Elt F)) : (⟨S16384x7x7, .f32⟩ : BufTy).Contents (Elt F) :=
  shapeCast _ (val_main_v100 (F := F) x0) shapeCasts_S16384x7x7x1_S16384x7x7

-- %cst_13 = stablehlo.constant dense<2.000000e+00> : tensor<f32>
def val_main_cst_13 : (⟨S_, .f32⟩ : BufTy).Contents (Elt F) :=
  constant S_ .f32 0x40000000#32

-- %102 = stablehlo.broadcast_in_dim %cst_13, dims = [] : (tensor<f32>) -> tensor<16384x7x7xf32>
def val_main_v102 : (⟨S16384x7x7, .f32⟩ : BufTy).Contents (Elt F) :=
  broadcastInDim S16384x7x7 ![] bcast_S_S16384x7x7 (val_main_cst_13 (F := F))

-- %103 = stablehlo.divide %101, %102 : tensor<16384x7x7xf32>
def val_main_v103 (x0 : (⟨S16384x7x7x30, .f32⟩ : BufTy).Contents (Elt F)) : (⟨S16384x7x7, .f32⟩ : BufTy).Contents (Elt F) :=
  Host.divf (val_main_v101 (F := F) x0) (val_main_v102 (F := F))

-- %104 = stablehlo.subtract %99, %103 : tensor<16384x7x7xf32>
def val_main_v104 (x0 : (⟨S16384x7x7x30, .f32⟩ : BufTy).Contents (Elt F)) : (⟨S16384x7x7, .f32⟩ : BufTy).Contents (Elt F) :=
  subf (val_main_v99 (F := F) x0) (val_main_v103 (F := F) x0)

-- %105 = stablehlo.slice %89 [0:16384, 0:7, 0:7, 0:1] : (tensor<16384x7x7x4xf32>) -> tensor<16384x7x7x1xf32>
def val_main_v105 (x0 : (⟨S16384x7x7x30, .f32⟩ : BufTy).Contents (Elt F)) : (⟨S16384x7x7x1, .f32⟩ : BufTy).Contents (Elt F) :=
  extractStridedSlice S16384x7x7x1 ![0, 0, 0, 0] (val_main_v89 (F := F) x0) slices_S16384x7x7x4_S16384x7x7x1_0_0_0_0

-- %106 = stablehlo.reshape %105 : (tensor<16384x7x7x1xf32>) -> tensor<16384x7x7xf32>
def val_main_v106 (x0 : (⟨S16384x7x7x30, .f32⟩ : BufTy).Contents (Elt F)) : (⟨S16384x7x7, .f32⟩ : BufTy).Contents (Elt F) :=
  shapeCast _ (val_main_v105 (F := F) x0) shapeCasts_S16384x7x7x1_S16384x7x7

-- %107 = stablehlo.slice %89 [0:16384, 0:7, 0:7, 2:3] : (tensor<16384x7x7x4xf32>) -> tensor<16384x7x7x1xf32>
def val_main_v107 (x0 : (⟨S16384x7x7x30, .f32⟩ : BufTy).Contents (Elt F)) : (⟨S16384x7x7x1, .f32⟩ : BufTy).Contents (Elt F) :=
  extractStridedSlice S16384x7x7x1 ![0, 0, 0, 2] (val_main_v89 (F := F) x0) slices_S16384x7x7x4_S16384x7x7x1_0_0_0_2

-- %108 = stablehlo.reshape %107 : (tensor<16384x7x7x1xf32>) -> tensor<16384x7x7xf32>
def val_main_v108 (x0 : (⟨S16384x7x7x30, .f32⟩ : BufTy).Contents (Elt F)) : (⟨S16384x7x7, .f32⟩ : BufTy).Contents (Elt F) :=
  shapeCast _ (val_main_v107 (F := F) x0) shapeCasts_S16384x7x7x1_S16384x7x7

-- %cst_14 = stablehlo.constant dense<2.000000e+00> : tensor<f32>
def val_main_cst_14 : (⟨S_, .f32⟩ : BufTy).Contents (Elt F) :=
  constant S_ .f32 0x40000000#32

-- %109 = stablehlo.broadcast_in_dim %cst_14, dims = [] : (tensor<f32>) -> tensor<16384x7x7xf32>
def val_main_v109 : (⟨S16384x7x7, .f32⟩ : BufTy).Contents (Elt F) :=
  broadcastInDim S16384x7x7 ![] bcast_S_S16384x7x7 (val_main_cst_14 (F := F))

-- %110 = stablehlo.divide %108, %109 : tensor<16384x7x7xf32>
def val_main_v110 (x0 : (⟨S16384x7x7x30, .f32⟩ : BufTy).Contents (Elt F)) : (⟨S16384x7x7, .f32⟩ : BufTy).Contents (Elt F) :=
  Host.divf (val_main_v108 (F := F) x0) (val_main_v109 (F := F))

-- %111 = stablehlo.add %106, %110 : tensor<16384x7x7xf32>
def val_main_v111 (x0 : (⟨S16384x7x7x30, .f32⟩ : BufTy).Contents (Elt F)) : (⟨S16384x7x7, .f32⟩ : BufTy).Contents (Elt F) :=
  addf (val_main_v106 (F := F) x0) (val_main_v110 (F := F) x0)

-- %112 = stablehlo.slice %89 [0:16384, 0:7, 0:7, 1:2] : (tensor<16384x7x7x4xf32>) -> tensor<16384x7x7x1xf32>
def val_main_v112 (x0 : (⟨S16384x7x7x30, .f32⟩ : BufTy).Contents (Elt F)) : (⟨S16384x7x7x1, .f32⟩ : BufTy).Contents (Elt F) :=
  extractStridedSlice S16384x7x7x1 ![0, 0, 0, 1] (val_main_v89 (F := F) x0) slices_S16384x7x7x4_S16384x7x7x1_0_0_0_1

-- %113 = stablehlo.reshape %112 : (tensor<16384x7x7x1xf32>) -> tensor<16384x7x7xf32>
def val_main_v113 (x0 : (⟨S16384x7x7x30, .f32⟩ : BufTy).Contents (Elt F)) : (⟨S16384x7x7, .f32⟩ : BufTy).Contents (Elt F) :=
  shapeCast _ (val_main_v112 (F := F) x0) shapeCasts_S16384x7x7x1_S16384x7x7

-- %114 = stablehlo.slice %89 [0:16384, 0:7, 0:7, 3:4] : (tensor<16384x7x7x4xf32>) -> tensor<16384x7x7x1xf32>
def val_main_v114 (x0 : (⟨S16384x7x7x30, .f32⟩ : BufTy).Contents (Elt F)) : (⟨S16384x7x7x1, .f32⟩ : BufTy).Contents (Elt F) :=
  extractStridedSlice S16384x7x7x1 ![0, 0, 0, 3] (val_main_v89 (F := F) x0) slices_S16384x7x7x4_S16384x7x7x1_0_0_0_3

-- %115 = stablehlo.reshape %114 : (tensor<16384x7x7x1xf32>) -> tensor<16384x7x7xf32>
def val_main_v115 (x0 : (⟨S16384x7x7x30, .f32⟩ : BufTy).Contents (Elt F)) : (⟨S16384x7x7, .f32⟩ : BufTy).Contents (Elt F) :=
  shapeCast _ (val_main_v114 (F := F) x0) shapeCasts_S16384x7x7x1_S16384x7x7

-- %cst_15 = stablehlo.constant dense<2.000000e+00> : tensor<f32>
def val_main_cst_15 : (⟨S_, .f32⟩ : BufTy).Contents (Elt F) :=
  constant S_ .f32 0x40000000#32

-- %116 = stablehlo.broadcast_in_dim %cst_15, dims = [] : (tensor<f32>) -> tensor<16384x7x7xf32>
def val_main_v116 : (⟨S16384x7x7, .f32⟩ : BufTy).Contents (Elt F) :=
  broadcastInDim S16384x7x7 ![] bcast_S_S16384x7x7 (val_main_cst_15 (F := F))

-- %117 = stablehlo.divide %115, %116 : tensor<16384x7x7xf32>
def val_main_v117 (x0 : (⟨S16384x7x7x30, .f32⟩ : BufTy).Contents (Elt F)) : (⟨S16384x7x7, .f32⟩ : BufTy).Contents (Elt F) :=
  Host.divf (val_main_v115 (F := F) x0) (val_main_v116 (F := F))

-- %118 = stablehlo.add %113, %117 : tensor<16384x7x7xf32>
def val_main_v118 (x0 : (⟨S16384x7x7x30, .f32⟩ : BufTy).Contents (Elt F)) : (⟨S16384x7x7, .f32⟩ : BufTy).Contents (Elt F) :=
  addf (val_main_v113 (F := F) x0) (val_main_v117 (F := F) x0)

-- %119 = stablehlo.slice %90 [0:16384, 0:7, 0:7, 0:1] : (tensor<16384x7x7x4xf32>) -> tensor<16384x7x7x1xf32>
def val_main_v119 (x1 : (⟨S16384x7x7x30, .f32⟩ : BufTy).Contents (Elt F)) : (⟨S16384x7x7x1, .f32⟩ : BufTy).Contents (Elt F) :=
  extractStridedSlice S16384x7x7x1 ![0, 0, 0, 0] (val_main_v90 (F := F) x1) slices_S16384x7x7x4_S16384x7x7x1_0_0_0_0

-- %120 = stablehlo.reshape %119 : (tensor<16384x7x7x1xf32>) -> tensor<16384x7x7xf32>
def val_main_v120 (x1 : (⟨S16384x7x7x30, .f32⟩ : BufTy).Contents (Elt F)) : (⟨S16384x7x7, .f32⟩ : BufTy).Contents (Elt F) :=
  shapeCast _ (val_main_v119 (F := F) x1) shapeCasts_S16384x7x7x1_S16384x7x7

-- %121 = stablehlo.slice %90 [0:16384, 0:7, 0:7, 2:3] : (tensor<16384x7x7x4xf32>) -> tensor<16384x7x7x1xf32>
def val_main_v121 (x1 : (⟨S16384x7x7x30, .f32⟩ : BufTy).Contents (Elt F)) : (⟨S16384x7x7x1, .f32⟩ : BufTy).Contents (Elt F) :=
  extractStridedSlice S16384x7x7x1 ![0, 0, 0, 2] (val_main_v90 (F := F) x1) slices_S16384x7x7x4_S16384x7x7x1_0_0_0_2

-- %122 = stablehlo.reshape %121 : (tensor<16384x7x7x1xf32>) -> tensor<16384x7x7xf32>
def val_main_v122 (x1 : (⟨S16384x7x7x30, .f32⟩ : BufTy).Contents (Elt F)) : (⟨S16384x7x7, .f32⟩ : BufTy).Contents (Elt F) :=
  shapeCast _ (val_main_v121 (F := F) x1) shapeCasts_S16384x7x7x1_S16384x7x7

-- %cst_16 = stablehlo.constant dense<2.000000e+00> : tensor<f32>
def val_main_cst_16 : (⟨S_, .f32⟩ : BufTy).Contents (Elt F) :=
  constant S_ .f32 0x40000000#32

-- %123 = stablehlo.broadcast_in_dim %cst_16, dims = [] : (tensor<f32>) -> tensor<16384x7x7xf32>
def val_main_v123 : (⟨S16384x7x7, .f32⟩ : BufTy).Contents (Elt F) :=
  broadcastInDim S16384x7x7 ![] bcast_S_S16384x7x7 (val_main_cst_16 (F := F))

-- %124 = stablehlo.divide %122, %123 : tensor<16384x7x7xf32>
def val_main_v124 (x1 : (⟨S16384x7x7x30, .f32⟩ : BufTy).Contents (Elt F)) : (⟨S16384x7x7, .f32⟩ : BufTy).Contents (Elt F) :=
  Host.divf (val_main_v122 (F := F) x1) (val_main_v123 (F := F))

-- %125 = stablehlo.subtract %120, %124 : tensor<16384x7x7xf32>
def val_main_v125 (x1 : (⟨S16384x7x7x30, .f32⟩ : BufTy).Contents (Elt F)) : (⟨S16384x7x7, .f32⟩ : BufTy).Contents (Elt F) :=
  subf (val_main_v120 (F := F) x1) (val_main_v124 (F := F) x1)

-- %126 = stablehlo.slice %90 [0:16384, 0:7, 0:7, 1:2] : (tensor<16384x7x7x4xf32>) -> tensor<16384x7x7x1xf32>
def val_main_v126 (x1 : (⟨S16384x7x7x30, .f32⟩ : BufTy).Contents (Elt F)) : (⟨S16384x7x7x1, .f32⟩ : BufTy).Contents (Elt F) :=
  extractStridedSlice S16384x7x7x1 ![0, 0, 0, 1] (val_main_v90 (F := F) x1) slices_S16384x7x7x4_S16384x7x7x1_0_0_0_1

-- %127 = stablehlo.reshape %126 : (tensor<16384x7x7x1xf32>) -> tensor<16384x7x7xf32>
def val_main_v127 (x1 : (⟨S16384x7x7x30, .f32⟩ : BufTy).Contents (Elt F)) : (⟨S16384x7x7, .f32⟩ : BufTy).Contents (Elt F) :=
  shapeCast _ (val_main_v126 (F := F) x1) shapeCasts_S16384x7x7x1_S16384x7x7

-- %128 = stablehlo.slice %90 [0:16384, 0:7, 0:7, 3:4] : (tensor<16384x7x7x4xf32>) -> tensor<16384x7x7x1xf32>
def val_main_v128 (x1 : (⟨S16384x7x7x30, .f32⟩ : BufTy).Contents (Elt F)) : (⟨S16384x7x7x1, .f32⟩ : BufTy).Contents (Elt F) :=
  extractStridedSlice S16384x7x7x1 ![0, 0, 0, 3] (val_main_v90 (F := F) x1) slices_S16384x7x7x4_S16384x7x7x1_0_0_0_3

-- %129 = stablehlo.reshape %128 : (tensor<16384x7x7x1xf32>) -> tensor<16384x7x7xf32>
def val_main_v129 (x1 : (⟨S16384x7x7x30, .f32⟩ : BufTy).Contents (Elt F)) : (⟨S16384x7x7, .f32⟩ : BufTy).Contents (Elt F) :=
  shapeCast _ (val_main_v128 (F := F) x1) shapeCasts_S16384x7x7x1_S16384x7x7

-- %cst_17 = stablehlo.constant dense<2.000000e+00> : tensor<f32>
def val_main_cst_17 : (⟨S_, .f32⟩ : BufTy).Contents (Elt F) :=
  constant S_ .f32 0x40000000#32

-- %130 = stablehlo.broadcast_in_dim %cst_17, dims = [] : (tensor<f32>) -> tensor<16384x7x7xf32>
def val_main_v130 : (⟨S16384x7x7, .f32⟩ : BufTy).Contents (Elt F) :=
  broadcastInDim S16384x7x7 ![] bcast_S_S16384x7x7 (val_main_cst_17 (F := F))

-- %131 = stablehlo.divide %129, %130 : tensor<16384x7x7xf32>
def val_main_v131 (x1 : (⟨S16384x7x7x30, .f32⟩ : BufTy).Contents (Elt F)) : (⟨S16384x7x7, .f32⟩ : BufTy).Contents (Elt F) :=
  Host.divf (val_main_v129 (F := F) x1) (val_main_v130 (F := F))

-- %132 = stablehlo.subtract %127, %131 : tensor<16384x7x7xf32>
def val_main_v132 (x1 : (⟨S16384x7x7x30, .f32⟩ : BufTy).Contents (Elt F)) : (⟨S16384x7x7, .f32⟩ : BufTy).Contents (Elt F) :=
  subf (val_main_v127 (F := F) x1) (val_main_v131 (F := F) x1)

-- %133 = stablehlo.slice %90 [0:16384, 0:7, 0:7, 0:1] : (tensor<16384x7x7x4xf32>) -> tensor<16384x7x7x1xf32>
def val_main_v133 (x1 : (⟨S16384x7x7x30, .f32⟩ : BufTy).Contents (Elt F)) : (⟨S16384x7x7x1, .f32⟩ : BufTy).Contents (Elt F) :=
  extractStridedSlice S16384x7x7x1 ![0, 0, 0, 0] (val_main_v90 (F := F) x1) slices_S16384x7x7x4_S16384x7x7x1_0_0_0_0

-- %134 = stablehlo.reshape %133 : (tensor<16384x7x7x1xf32>) -> tensor<16384x7x7xf32>
def val_main_v134 (x1 : (⟨S16384x7x7x30, .f32⟩ : BufTy).Contents (Elt F)) : (⟨S16384x7x7, .f32⟩ : BufTy).Contents (Elt F) :=
  shapeCast _ (val_main_v133 (F := F) x1) shapeCasts_S16384x7x7x1_S16384x7x7

-- %135 = stablehlo.slice %90 [0:16384, 0:7, 0:7, 2:3] : (tensor<16384x7x7x4xf32>) -> tensor<16384x7x7x1xf32>
def val_main_v135 (x1 : (⟨S16384x7x7x30, .f32⟩ : BufTy).Contents (Elt F)) : (⟨S16384x7x7x1, .f32⟩ : BufTy).Contents (Elt F) :=
  extractStridedSlice S16384x7x7x1 ![0, 0, 0, 2] (val_main_v90 (F := F) x1) slices_S16384x7x7x4_S16384x7x7x1_0_0_0_2

-- %136 = stablehlo.reshape %135 : (tensor<16384x7x7x1xf32>) -> tensor<16384x7x7xf32>
def val_main_v136 (x1 : (⟨S16384x7x7x30, .f32⟩ : BufTy).Contents (Elt F)) : (⟨S16384x7x7, .f32⟩ : BufTy).Contents (Elt F) :=
  shapeCast _ (val_main_v135 (F := F) x1) shapeCasts_S16384x7x7x1_S16384x7x7

-- %cst_18 = stablehlo.constant dense<2.000000e+00> : tensor<f32>
def val_main_cst_18 : (⟨S_, .f32⟩ : BufTy).Contents (Elt F) :=
  constant S_ .f32 0x40000000#32

-- %137 = stablehlo.broadcast_in_dim %cst_18, dims = [] : (tensor<f32>) -> tensor<16384x7x7xf32>
def val_main_v137 : (⟨S16384x7x7, .f32⟩ : BufTy).Contents (Elt F) :=
  broadcastInDim S16384x7x7 ![] bcast_S_S16384x7x7 (val_main_cst_18 (F := F))

-- %138 = stablehlo.divide %136, %137 : tensor<16384x7x7xf32>
def val_main_v138 (x1 : (⟨S16384x7x7x30, .f32⟩ : BufTy).Contents (Elt F)) : (⟨S16384x7x7, .f32⟩ : BufTy).Contents (Elt F) :=
  Host.divf (val_main_v136 (F := F) x1) (val_main_v137 (F := F))

-- %139 = stablehlo.add %134, %138 : tensor<16384x7x7xf32>
def val_main_v139 (x1 : (⟨S16384x7x7x30, .f32⟩ : BufTy).Contents (Elt F)) : (⟨S16384x7x7, .f32⟩ : BufTy).Contents (Elt F) :=
  addf (val_main_v134 (F := F) x1) (val_main_v138 (F := F) x1)

-- %140 = stablehlo.slice %90 [0:16384, 0:7, 0:7, 1:2] : (tensor<16384x7x7x4xf32>) -> tensor<16384x7x7x1xf32>
def val_main_v140 (x1 : (⟨S16384x7x7x30, .f32⟩ : BufTy).Contents (Elt F)) : (⟨S16384x7x7x1, .f32⟩ : BufTy).Contents (Elt F) :=
  extractStridedSlice S16384x7x7x1 ![0, 0, 0, 1] (val_main_v90 (F := F) x1) slices_S16384x7x7x4_S16384x7x7x1_0_0_0_1

-- %141 = stablehlo.reshape %140 : (tensor<16384x7x7x1xf32>) -> tensor<16384x7x7xf32>
def val_main_v141 (x1 : (⟨S16384x7x7x30, .f32⟩ : BufTy).Contents (Elt F)) : (⟨S16384x7x7, .f32⟩ : BufTy).Contents (Elt F) :=
  shapeCast _ (val_main_v140 (F := F) x1) shapeCasts_S16384x7x7x1_S16384x7x7

-- %142 = stablehlo.slice %90 [0:16384, 0:7, 0:7, 3:4] : (tensor<16384x7x7x4xf32>) -> tensor<16384x7x7x1xf32>
def val_main_v142 (x1 : (⟨S16384x7x7x30, .f32⟩ : BufTy).Contents (Elt F)) : (⟨S16384x7x7x1, .f32⟩ : BufTy).Contents (Elt F) :=
  extractStridedSlice S16384x7x7x1 ![0, 0, 0, 3] (val_main_v90 (F := F) x1) slices_S16384x7x7x4_S16384x7x7x1_0_0_0_3

-- %143 = stablehlo.reshape %142 : (tensor<16384x7x7x1xf32>) -> tensor<16384x7x7xf32>
def val_main_v143 (x1 : (⟨S16384x7x7x30, .f32⟩ : BufTy).Contents (Elt F)) : (⟨S16384x7x7, .f32⟩ : BufTy).Contents (Elt F) :=
  shapeCast _ (val_main_v142 (F := F) x1) shapeCasts_S16384x7x7x1_S16384x7x7

-- %cst_19 = stablehlo.constant dense<2.000000e+00> : tensor<f32>
def val_main_cst_19 : (⟨S_, .f32⟩ : BufTy).Contents (Elt F) :=
  constant S_ .f32 0x40000000#32

-- %144 = stablehlo.broadcast_in_dim %cst_19, dims = [] : (tensor<f32>) -> tensor<16384x7x7xf32>
def val_main_v144 : (⟨S16384x7x7, .f32⟩ : BufTy).Contents (Elt F) :=
  broadcastInDim S16384x7x7 ![] bcast_S_S16384x7x7 (val_main_cst_19 (F := F))

-- %145 = stablehlo.divide %143, %144 : tensor<16384x7x7xf32>
def val_main_v145 (x1 : (⟨S16384x7x7x30, .f32⟩ : BufTy).Contents (Elt F)) : (⟨S16384x7x7, .f32⟩ : BufTy).Contents (Elt F) :=
  Host.divf (val_main_v143 (F := F) x1) (val_main_v144 (F := F))

-- %146 = stablehlo.add %141, %145 : tensor<16384x7x7xf32>
def val_main_v146 (x1 : (⟨S16384x7x7x30, .f32⟩ : BufTy).Contents (Elt F)) : (⟨S16384x7x7, .f32⟩ : BufTy).Contents (Elt F) :=
  addf (val_main_v141 (F := F) x1) (val_main_v145 (F := F) x1)

-- %147 = stablehlo.minimum %111, %139 : tensor<16384x7x7xf32>
def val_main_v147 (x0 x1 : (⟨S16384x7x7x30, .f32⟩ : BufTy).Contents (Elt F)) : (⟨S16384x7x7, .f32⟩ : BufTy).Contents (Elt F) :=
  minimumf (val_main_v111 (F := F) x0) (val_main_v139 (F := F) x1)

-- %148 = stablehlo.maximum %97, %125 : tensor<16384x7x7xf32>
def val_main_v148 (x0 x1 : (⟨S16384x7x7x30, .f32⟩ : BufTy).Contents (Elt F)) : (⟨S16384x7x7, .f32⟩ : BufTy).Contents (Elt F) :=
  maximumf (val_main_v97 (F := F) x0) (val_main_v125 (F := F) x1)

-- %149 = stablehlo.subtract %147, %148 : tensor<16384x7x7xf32>
def val_main_v149 (x0 x1 : (⟨S16384x7x7x30, .f32⟩ : BufTy).Contents (Elt F)) : (⟨S16384x7x7, .f32⟩ : BufTy).Contents (Elt F) :=
  subf (val_main_v147 (F := F) x0 x1) (val_main_v148 (F := F) x0 x1)

-- %cst_20 = stablehlo.constant dense<0.000000e+00> : tensor<f32>
def val_main_cst_20 : (⟨S_, .f32⟩ : BufTy).Contents (Elt F) :=
  constant S_ .f32 0x00000000#32

def val_main_call2_v0 : (⟨S_, .f32⟩ : BufTy).Contents (Elt F) :=
  id (val_main_cst_20 (F := F))

def val_main_call2_v1 : (⟨S16384x7x7, .f32⟩ : BufTy).Contents (Elt F) :=
  broadcastInDim S16384x7x7 ![] bcast_S_S16384x7x7 (val_main_call2_v0 (F := F))

-- %150 = func.call @clip(…) (record main_call2) result 0: @clip's %2 = stablehlo.maximum %1, %arg0 : tensor<16384x7x7xf32>
def val_main_v150 (x0 x1 : (⟨S16384x7x7x30, .f32⟩ : BufTy).Contents (Elt F)) : (⟨S16384x7x7, .f32⟩ : BufTy).Contents (Elt F) :=
  maximumf (val_main_call2_v1 (F := F)) (val_main_v149 (F := F) x0 x1)

-- %151 = stablehlo.minimum %118, %146 : tensor<16384x7x7xf32>
def val_main_v151 (x0 x1 : (⟨S16384x7x7x30, .f32⟩ : BufTy).Contents (Elt F)) : (⟨S16384x7x7, .f32⟩ : BufTy).Contents (Elt F) :=
  minimumf (val_main_v118 (F := F) x0) (val_main_v146 (F := F) x1)

-- %152 = stablehlo.maximum %104, %132 : tensor<16384x7x7xf32>
def val_main_v152 (x0 x1 : (⟨S16384x7x7x30, .f32⟩ : BufTy).Contents (Elt F)) : (⟨S16384x7x7, .f32⟩ : BufTy).Contents (Elt F) :=
  maximumf (val_main_v104 (F := F) x0) (val_main_v132 (F := F) x1)

-- %153 = stablehlo.subtract %151, %152 : tensor<16384x7x7xf32>
def val_main_v153 (x0 x1 : (⟨S16384x7x7x30, .f32⟩ : BufTy).Contents (Elt F)) : (⟨S16384x7x7, .f32⟩ : BufTy).Contents (Elt F) :=
  subf (val_main_v151 (F := F) x0 x1) (val_main_v152 (F := F) x0 x1)

-- %cst_21 = stablehlo.constant dense<0.000000e+00> : tensor<f32>
def val_main_cst_21 : (⟨S_, .f32⟩ : BufTy).Contents (Elt F) :=
  constant S_ .f32 0x00000000#32

def val_main_call3_v0 : (⟨S_, .f32⟩ : BufTy).Contents (Elt F) :=
  id (val_main_cst_21 (F := F))

def val_main_call3_v1 : (⟨S16384x7x7, .f32⟩ : BufTy).Contents (Elt F) :=
  broadcastInDim S16384x7x7 ![] bcast_S_S16384x7x7 (val_main_call3_v0 (F := F))

-- %154 = func.call @clip(…) (record main_call3) result 0: @clip's %2 = stablehlo.maximum %1, %arg0 : tensor<16384x7x7xf32>
def val_main_v154 (x0 x1 : (⟨S16384x7x7x30, .f32⟩ : BufTy).Contents (Elt F)) : (⟨S16384x7x7, .f32⟩ : BufTy).Contents (Elt F) :=
  maximumf (val_main_call3_v1 (F := F)) (val_main_v153 (F := F) x0 x1)

-- %155 = stablehlo.multiply %150, %154 : tensor<16384x7x7xf32>
def val_main_v155 (x0 x1 : (⟨S16384x7x7x30, .f32⟩ : BufTy).Contents (Elt F)) : (⟨S16384x7x7, .f32⟩ : BufTy).Contents (Elt F) :=
  mulf (val_main_v150 (F := F) x0 x1) (val_main_v154 (F := F) x0 x1)

-- %156 = stablehlo.slice %89 [0:16384, 0:7, 0:7, 2:3] : (tensor<16384x7x7x4xf32>) -> tensor<16384x7x7x1xf32>
def val_main_v156 (x0 : (⟨S16384x7x7x30, .f32⟩ : BufTy).Contents (Elt F)) : (⟨S16384x7x7x1, .f32⟩ : BufTy).Contents (Elt F) :=
  extractStridedSlice S16384x7x7x1 ![0, 0, 0, 2] (val_main_v89 (F := F) x0) slices_S16384x7x7x4_S16384x7x7x1_0_0_0_2

-- %157 = stablehlo.reshape %156 : (tensor<16384x7x7x1xf32>) -> tensor<16384x7x7xf32>
def val_main_v157 (x0 : (⟨S16384x7x7x30, .f32⟩ : BufTy).Contents (Elt F)) : (⟨S16384x7x7, .f32⟩ : BufTy).Contents (Elt F) :=
  shapeCast _ (val_main_v156 (F := F) x0) shapeCasts_S16384x7x7x1_S16384x7x7

-- %158 = stablehlo.slice %89 [0:16384, 0:7, 0:7, 3:4] : (tensor<16384x7x7x4xf32>) -> tensor<16384x7x7x1xf32>
def val_main_v158 (x0 : (⟨S16384x7x7x30, .f32⟩ : BufTy).Contents (Elt F)) : (⟨S16384x7x7x1, .f32⟩ : BufTy).Contents (Elt F) :=
  extractStridedSlice S16384x7x7x1 ![0, 0, 0, 3] (val_main_v89 (F := F) x0) slices_S16384x7x7x4_S16384x7x7x1_0_0_0_3

-- %159 = stablehlo.reshape %158 : (tensor<16384x7x7x1xf32>) -> tensor<16384x7x7xf32>
def val_main_v159 (x0 : (⟨S16384x7x7x30, .f32⟩ : BufTy).Contents (Elt F)) : (⟨S16384x7x7, .f32⟩ : BufTy).Contents (Elt F) :=
  shapeCast _ (val_main_v158 (F := F) x0) shapeCasts_S16384x7x7x1_S16384x7x7

-- %160 = stablehlo.multiply %157, %159 : tensor<16384x7x7xf32>
def val_main_v160 (x0 : (⟨S16384x7x7x30, .f32⟩ : BufTy).Contents (Elt F)) : (⟨S16384x7x7, .f32⟩ : BufTy).Contents (Elt F) :=
  mulf (val_main_v157 (F := F) x0) (val_main_v159 (F := F) x0)

-- %161 = stablehlo.slice %90 [0:16384, 0:7, 0:7, 2:3] : (tensor<16384x7x7x4xf32>) -> tensor<16384x7x7x1xf32>
def val_main_v161 (x1 : (⟨S16384x7x7x30, .f32⟩ : BufTy).Contents (Elt F)) : (⟨S16384x7x7x1, .f32⟩ : BufTy).Contents (Elt F) :=
  extractStridedSlice S16384x7x7x1 ![0, 0, 0, 2] (val_main_v90 (F := F) x1) slices_S16384x7x7x4_S16384x7x7x1_0_0_0_2

-- %162 = stablehlo.reshape %161 : (tensor<16384x7x7x1xf32>) -> tensor<16384x7x7xf32>
def val_main_v162 (x1 : (⟨S16384x7x7x30, .f32⟩ : BufTy).Contents (Elt F)) : (⟨S16384x7x7, .f32⟩ : BufTy).Contents (Elt F) :=
  shapeCast _ (val_main_v161 (F := F) x1) shapeCasts_S16384x7x7x1_S16384x7x7

-- %163 = stablehlo.slice %90 [0:16384, 0:7, 0:7, 3:4] : (tensor<16384x7x7x4xf32>) -> tensor<16384x7x7x1xf32>
def val_main_v163 (x1 : (⟨S16384x7x7x30, .f32⟩ : BufTy).Contents (Elt F)) : (⟨S16384x7x7x1, .f32⟩ : BufTy).Contents (Elt F) :=
  extractStridedSlice S16384x7x7x1 ![0, 0, 0, 3] (val_main_v90 (F := F) x1) slices_S16384x7x7x4_S16384x7x7x1_0_0_0_3

-- %164 = stablehlo.reshape %163 : (tensor<16384x7x7x1xf32>) -> tensor<16384x7x7xf32>
def val_main_v164 (x1 : (⟨S16384x7x7x30, .f32⟩ : BufTy).Contents (Elt F)) : (⟨S16384x7x7, .f32⟩ : BufTy).Contents (Elt F) :=
  shapeCast _ (val_main_v163 (F := F) x1) shapeCasts_S16384x7x7x1_S16384x7x7

-- %165 = stablehlo.multiply %162, %164 : tensor<16384x7x7xf32>
def val_main_v165 (x1 : (⟨S16384x7x7x30, .f32⟩ : BufTy).Contents (Elt F)) : (⟨S16384x7x7, .f32⟩ : BufTy).Contents (Elt F) :=
  mulf (val_main_v162 (F := F) x1) (val_main_v164 (F := F) x1)

-- %166 = stablehlo.add %160, %165 : tensor<16384x7x7xf32>
def val_main_v166 (x0 x1 : (⟨S16384x7x7x30, .f32⟩ : BufTy).Contents (Elt F)) : (⟨S16384x7x7, .f32⟩ : BufTy).Contents (Elt F) :=
  addf (val_main_v160 (F := F) x0) (val_main_v165 (F := F) x1)

-- %167 = stablehlo.subtract %166, %155 : tensor<16384x7x7xf32>
def val_main_v167 (x0 x1 : (⟨S16384x7x7x30, .f32⟩ : BufTy).Contents (Elt F)) : (⟨S16384x7x7, .f32⟩ : BufTy).Contents (Elt F) :=
  subf (val_main_v166 (F := F) x0 x1) (val_main_v155 (F := F) x0 x1)

-- %cst_22 = stablehlo.constant dense<1.000000e-10> : tensor<f32>
def val_main_cst_22 : (⟨S_, .f32⟩ : BufTy).Contents (Elt F) :=
  constant S_ .f32 0x2EDBE6FF#32

-- %168 = stablehlo.broadcast_in_dim %cst_22, dims = [] : (tensor<f32>) -> tensor<16384x7x7xf32>
def val_main_v168 : (⟨S16384x7x7, .f32⟩ : BufTy).Contents (Elt F) :=
  broadcastInDim S16384x7x7 ![] bcast_S_S16384x7x7 (val_main_cst_22 (F := F))

-- %169 = stablehlo.add %167, %168 : tensor<16384x7x7xf32>
def val_main_v169 (x0 x1 : (⟨S16384x7x7x30, .f32⟩ : BufTy).Contents (Elt F)) : (⟨S16384x7x7, .f32⟩ : BufTy).Contents (Elt F) :=
  addf (val_main_v167 (F := F) x0 x1) (val_main_v168 (F := F))

-- %170 = stablehlo.divide %155, %169 : tensor<16384x7x7xf32>
def val_main_v170 (x0 x1 : (⟨S16384x7x7x30, .f32⟩ : BufTy).Contents (Elt F)) : (⟨S16384x7x7, .f32⟩ : BufTy).Contents (Elt F) :=
  Host.divf (val_main_v155 (F := F) x0 x1) (val_main_v169 (F := F) x0 x1)

-- %171 = stablehlo.compare GT, %88, %170, FLOAT : (tensor<16384x7x7xf32>, tensor<16384x7x7xf32>) -> tensor<16384x7x7xi1>
def val_main_v171 (x0 x1 : (⟨S16384x7x7x30, .f32⟩ : BufTy).Contents (Elt F)) : (⟨S16384x7x7, .i1⟩ : BufTy).Contents (Elt F) :=
  cmpf .ogt (val_main_v88 (F := F) x0 x1) (val_main_v170 (F := F) x0 x1)

-- %172 = stablehlo.convert %171 : (tensor<16384x7x7xi1>) -> tensor<16384x7x7xf32>
def val_main_v172 (x0 x1 : (⟨S16384x7x7x30, .f32⟩ : BufTy).Contents (Elt F)) : (⟨S16384x7x7, .f32⟩ : BufTy).Contents (Elt F) :=
  uitofp .f32 (val_main_v171 (F := F) x0 x1)

-- %173 = stablehlo.broadcast_in_dim %172, dims = [0, 1, 2] : (tensor<16384x7x7xf32>) -> tensor<16384x7x7x1xf32>
def val_main_v173 (x0 x1 : (⟨S16384x7x7x30, .f32⟩ : BufTy).Contents (Elt F)) : (⟨S16384x7x7x1, .f32⟩ : BufTy).Contents (Elt F) :=
  broadcastInDim S16384x7x7x1 ![0, 1, 2] bcast_S16384x7x7_S16384x7x7x1_0_1_2 (val_main_v172 (F := F) x0 x1)

-- %174 = stablehlo.slice %arg0 [0:16384, 0:7, 0:7, 0:2] : (tensor<16384x7x7x30xf32>) -> tensor<16384x7x7x2xf32>
def val_main_v174 (x0 : (⟨S16384x7x7x30, .f32⟩ : BufTy).Contents (Elt F)) : (⟨S16384x7x7x2, .f32⟩ : BufTy).Contents (Elt F) :=
  extractStridedSlice S16384x7x7x2 ![0, 0, 0, 0] (x0) slices_S16384x7x7x30_S16384x7x7x2_0_0_0_0

-- %175 = stablehlo.broadcast_in_dim %173, dims = [0, 1, 2, 3] : (tensor<16384x7x7x1xf32>) -> tensor<16384x7x7x2xf32>
def val_main_v175 (x0 x1 : (⟨S16384x7x7x30, .f32⟩ : BufTy).Contents (Elt F)) : (⟨S16384x7x7x2, .f32⟩ : BufTy).Contents (Elt F) :=
  broadcastInDim S16384x7x7x2 ![0, 1, 2, 3] bcast_S16384x7x7x1_S16384x7x7x2_0_1_2_3 (val_main_v173 (F := F) x0 x1)

-- %176 = stablehlo.multiply %175, %174 : tensor<16384x7x7x2xf32>
def val_main_v176 (x0 x1 : (⟨S16384x7x7x30, .f32⟩ : BufTy).Contents (Elt F)) : (⟨S16384x7x7x2, .f32⟩ : BufTy).Contents (Elt F) :=
  mulf (val_main_v175 (F := F) x0 x1) (val_main_v174 (F := F) x0)

-- %cst_23 = stablehlo.constant dense<1.000000e+00> : tensor<f32>
def val_main_cst_23 : (⟨S_, .f32⟩ : BufTy).Contents (Elt F) :=
  constant S_ .f32 0x3F800000#32

-- %177 = stablehlo.broadcast_in_dim %cst_23, dims = [] : (tensor<f32>) -> tensor<16384x7x7x1xf32>
def val_main_v177 : (⟨S16384x7x7x1, .f32⟩ : BufTy).Contents (Elt F) :=
  broadcastInDim S16384x7x7x1 ![] bcast_S_S16384x7x7x1 (val_main_cst_23 (F := F))

-- %178 = stablehlo.subtract %177, %173 : tensor<16384x7x7x1xf32>
def val_main_v178 (x0 x1 : (⟨S16384x7x7x30, .f32⟩ : BufTy).Contents (Elt F)) : (⟨S16384x7x7x1, .f32⟩ : BufTy).Contents (Elt F) :=
  subf (val_main_v177 (F := F)) (val_main_v173 (F := F) x0 x1)

-- %179 = stablehlo.slice %arg0 [0:16384, 0:7, 0:7, 5:7] : (tensor<16384x7x7x30xf32>) -> tensor<16384x7x7x2xf32>
def val_main_v179 (x0 : (⟨S16384x7x7x30, .f32⟩ : BufTy).Contents (Elt F)) : (⟨S16384x7x7x2, .f32⟩ : BufTy).Contents (Elt F) :=
  extractStridedSlice S16384x7x7x2 ![0, 0, 0, 5] (x0) slices_S16384x7x7x30_S16384x7x7x2_0_0_0_5

-- %180 = stablehlo.broadcast_in_dim %178, dims = [0, 1, 2, 3] : (tensor<16384x7x7x1xf32>) -> tensor<16384x7x7x2xf32>
def val_main_v180 (x0 x1 : (⟨S16384x7x7x30, .f32⟩ : BufTy).Contents (Elt F)) : (⟨S16384x7x7x2, .f32⟩ : BufTy).Contents (Elt F) :=
  broadcastInDim S16384x7x7x2 ![0, 1, 2, 3] bcast_S16384x7x7x1_S16384x7x7x2_0_1_2_3 (val_main_v178 (F := F) x0 x1)

-- %181 = stablehlo.multiply %180, %179 : tensor<16384x7x7x2xf32>
def val_main_v181 (x0 x1 : (⟨S16384x7x7x30, .f32⟩ : BufTy).Contents (Elt F)) : (⟨S16384x7x7x2, .f32⟩ : BufTy).Contents (Elt F) :=
  mulf (val_main_v180 (F := F) x0 x1) (val_main_v179 (F := F) x0)

-- %182 = stablehlo.add %176, %181 : tensor<16384x7x7x2xf32>
def val_main_v182 (x0 x1 : (⟨S16384x7x7x30, .f32⟩ : BufTy).Contents (Elt F)) : (⟨S16384x7x7x2, .f32⟩ : BufTy).Contents (Elt F) :=
  addf (val_main_v176 (F := F) x0 x1) (val_main_v181 (F := F) x0 x1)

-- %183 = stablehlo.slice %arg1 [0:16384, 0:7, 0:7, 0:2] : (tensor<16384x7x7x30xf32>) -> tensor<16384x7x7x2xf32>
def val_main_v183 (x1 : (⟨S16384x7x7x30, .f32⟩ : BufTy).Contents (Elt F)) : (⟨S16384x7x7x2, .f32⟩ : BufTy).Contents (Elt F) :=
  extractStridedSlice S16384x7x7x2 ![0, 0, 0, 0] (x1) slices_S16384x7x7x30_S16384x7x7x2_0_0_0_0

-- %184 = stablehlo.broadcast_in_dim %173, dims = [0, 1, 2, 3] : (tensor<16384x7x7x1xf32>) -> tensor<16384x7x7x2xf32>
def val_main_v184 (x0 x1 : (⟨S16384x7x7x30, .f32⟩ : BufTy).Contents (Elt F)) : (⟨S16384x7x7x2, .f32⟩ : BufTy).Contents (Elt F) :=
  broadcastInDim S16384x7x7x2 ![0, 1, 2, 3] bcast_S16384x7x7x1_S16384x7x7x2_0_1_2_3 (val_main_v173 (F := F) x0 x1)

-- %185 = stablehlo.multiply %184, %183 : tensor<16384x7x7x2xf32>
def val_main_v185 (x0 x1 : (⟨S16384x7x7x30, .f32⟩ : BufTy).Contents (Elt F)) : (⟨S16384x7x7x2, .f32⟩ : BufTy).Contents (Elt F) :=
  mulf (val_main_v184 (F := F) x0 x1) (val_main_v183 (F := F) x1)

-- %cst_24 = stablehlo.constant dense<1.000000e+00> : tensor<f32>
def val_main_cst_24 : (⟨S_, .f32⟩ : BufTy).Contents (Elt F) :=
  constant S_ .f32 0x3F800000#32

-- %186 = stablehlo.broadcast_in_dim %cst_24, dims = [] : (tensor<f32>) -> tensor<16384x7x7x1xf32>
def val_main_v186 : (⟨S16384x7x7x1, .f32⟩ : BufTy).Contents (Elt F) :=
  broadcastInDim S16384x7x7x1 ![] bcast_S_S16384x7x7x1 (val_main_cst_24 (F := F))

-- %187 = stablehlo.subtract %186, %173 : tensor<16384x7x7x1xf32>
def val_main_v187 (x0 x1 : (⟨S16384x7x7x30, .f32⟩ : BufTy).Contents (Elt F)) : (⟨S16384x7x7x1, .f32⟩ : BufTy).Contents (Elt F) :=
  subf (val_main_v186 (F := F)) (val_main_v173 (F := F) x0 x1)

-- %188 = stablehlo.slice %arg1 [0:16384, 0:7, 0:7, 5:7] : (tensor<16384x7x7x30xf32>) -> tensor<16384x7x7x2xf32>
def val_main_v188 (x1 : (⟨S16384x7x7x30, .f32⟩ : BufTy).Contents (Elt F)) : (⟨S16384x7x7x2, .f32⟩ : BufTy).Contents (Elt F) :=
  extractStridedSlice S16384x7x7x2 ![0, 0, 0, 5] (x1) slices_S16384x7x7x30_S16384x7x7x2_0_0_0_5

-- %189 = stablehlo.broadcast_in_dim %187, dims = [0, 1, 2, 3] : (tensor<16384x7x7x1xf32>) -> tensor<16384x7x7x2xf32>
def val_main_v189 (x0 x1 : (⟨S16384x7x7x30, .f32⟩ : BufTy).Contents (Elt F)) : (⟨S16384x7x7x2, .f32⟩ : BufTy).Contents (Elt F) :=
  broadcastInDim S16384x7x7x2 ![0, 1, 2, 3] bcast_S16384x7x7x1_S16384x7x7x2_0_1_2_3 (val_main_v187 (F := F) x0 x1)

-- %190 = stablehlo.multiply %189, %188 : tensor<16384x7x7x2xf32>
def val_main_v190 (x0 x1 : (⟨S16384x7x7x30, .f32⟩ : BufTy).Contents (Elt F)) : (⟨S16384x7x7x2, .f32⟩ : BufTy).Contents (Elt F) :=
  mulf (val_main_v189 (F := F) x0 x1) (val_main_v188 (F := F) x1)

-- %191 = stablehlo.add %185, %190 : tensor<16384x7x7x2xf32>
def val_main_v191 (x0 x1 : (⟨S16384x7x7x30, .f32⟩ : BufTy).Contents (Elt F)) : (⟨S16384x7x7x2, .f32⟩ : BufTy).Contents (Elt F) :=
  addf (val_main_v185 (F := F) x0 x1) (val_main_v190 (F := F) x0 x1)

-- %192 = stablehlo.slice %arg0 [0:16384, 0:7, 0:7, 2:4] : (tensor<16384x7x7x30xf32>) -> tensor<16384x7x7x2xf32>
def val_main_v192 (x0 : (⟨S16384x7x7x30, .f32⟩ : BufTy).Contents (Elt F)) : (⟨S16384x7x7x2, .f32⟩ : BufTy).Contents (Elt F) :=
  extractStridedSlice S16384x7x7x2 ![0, 0, 0, 2] (x0) slices_S16384x7x7x30_S16384x7x7x2_0_0_0_2

-- %193 = stablehlo.broadcast_in_dim %173, dims = [0, 1, 2, 3] : (tensor<16384x7x7x1xf32>) -> tensor<16384x7x7x2xf32>
def val_main_v193 (x0 x1 : (⟨S16384x7x7x30, .f32⟩ : BufTy).Contents (Elt F)) : (⟨S16384x7x7x2, .f32⟩ : BufTy).Contents (Elt F) :=
  broadcastInDim S16384x7x7x2 ![0, 1, 2, 3] bcast_S16384x7x7x1_S16384x7x7x2_0_1_2_3 (val_main_v173 (F := F) x0 x1)

-- %194 = stablehlo.multiply %193, %192 : tensor<16384x7x7x2xf32>
def val_main_v194 (x0 x1 : (⟨S16384x7x7x30, .f32⟩ : BufTy).Contents (Elt F)) : (⟨S16384x7x7x2, .f32⟩ : BufTy).Contents (Elt F) :=
  mulf (val_main_v193 (F := F) x0 x1) (val_main_v192 (F := F) x0)

-- %cst_25 = stablehlo.constant dense<1.000000e+00> : tensor<f32>
def val_main_cst_25 : (⟨S_, .f32⟩ : BufTy).Contents (Elt F) :=
  constant S_ .f32 0x3F800000#32

-- %195 = stablehlo.broadcast_in_dim %cst_25, dims = [] : (tensor<f32>) -> tensor<16384x7x7x1xf32>
def val_main_v195 : (⟨S16384x7x7x1, .f32⟩ : BufTy).Contents (Elt F) :=
  broadcastInDim S16384x7x7x1 ![] bcast_S_S16384x7x7x1 (val_main_cst_25 (F := F))

-- %196 = stablehlo.subtract %195, %173 : tensor<16384x7x7x1xf32>
def val_main_v196 (x0 x1 : (⟨S16384x7x7x30, .f32⟩ : BufTy).Contents (Elt F)) : (⟨S16384x7x7x1, .f32⟩ : BufTy).Contents (Elt F) :=
  subf (val_main_v195 (F := F)) (val_main_v173 (F := F) x0 x1)

-- %197 = stablehlo.slice %arg0 [0:16384, 0:7, 0:7, 7:9] : (tensor<16384x7x7x30xf32>) -> tensor<16384x7x7x2xf32>
def val_main_v197 (x0 : (⟨S16384x7x7x30, .f32⟩ : BufTy).Contents (Elt F)) : (⟨S16384x7x7x2, .f32⟩ : BufTy).Contents (Elt F) :=
  extractStridedSlice S16384x7x7x2 ![0, 0, 0, 7] (x0) slices_S16384x7x7x30_S16384x7x7x2_0_0_0_7

-- %198 = stablehlo.broadcast_in_dim %196, dims = [0, 1, 2, 3] : (tensor<16384x7x7x1xf32>) -> tensor<16384x7x7x2xf32>
def val_main_v198 (x0 x1 : (⟨S16384x7x7x30, .f32⟩ : BufTy).Contents (Elt F)) : (⟨S16384x7x7x2, .f32⟩ : BufTy).Contents (Elt F) :=
  broadcastInDim S16384x7x7x2 ![0, 1, 2, 3] bcast_S16384x7x7x1_S16384x7x7x2_0_1_2_3 (val_main_v196 (F := F) x0 x1)

-- %199 = stablehlo.multiply %198, %197 : tensor<16384x7x7x2xf32>
def val_main_v199 (x0 x1 : (⟨S16384x7x7x30, .f32⟩ : BufTy).Contents (Elt F)) : (⟨S16384x7x7x2, .f32⟩ : BufTy).Contents (Elt F) :=
  mulf (val_main_v198 (F := F) x0 x1) (val_main_v197 (F := F) x0)

-- %200 = stablehlo.add %194, %199 : tensor<16384x7x7x2xf32>
def val_main_v200 (x0 x1 : (⟨S16384x7x7x30, .f32⟩ : BufTy).Contents (Elt F)) : (⟨S16384x7x7x2, .f32⟩ : BufTy).Contents (Elt F) :=
  addf (val_main_v194 (F := F) x0 x1) (val_main_v199 (F := F) x0 x1)

-- %201 = stablehlo.slice %arg1 [0:16384, 0:7, 0:7, 2:4] : (tensor<16384x7x7x30xf32>) -> tensor<16384x7x7x2xf32>
def val_main_v201 (x1 : (⟨S16384x7x7x30, .f32⟩ : BufTy).Contents (Elt F)) : (⟨S16384x7x7x2, .f32⟩ : BufTy).Contents (Elt F) :=
  extractStridedSlice S16384x7x7x2 ![0, 0, 0, 2] (x1) slices_S16384x7x7x30_S16384x7x7x2_0_0_0_2

-- %202 = stablehlo.broadcast_in_dim %173, dims = [0, 1, 2, 3] : (tensor<16384x7x7x1xf32>) -> tensor<16384x7x7x2xf32>
def val_main_v202 (x0 x1 : (⟨S16384x7x7x30, .f32⟩ : BufTy).Contents (Elt F)) : (⟨S16384x7x7x2, .f32⟩ : BufTy).Contents (Elt F) :=
  broadcastInDim S16384x7x7x2 ![0, 1, 2, 3] bcast_S16384x7x7x1_S16384x7x7x2_0_1_2_3 (val_main_v173 (F := F) x0 x1)

-- %203 = stablehlo.multiply %202, %201 : tensor<16384x7x7x2xf32>
def val_main_v203 (x0 x1 : (⟨S16384x7x7x30, .f32⟩ : BufTy).Contents (Elt F)) : (⟨S16384x7x7x2, .f32⟩ : BufTy).Contents (Elt F) :=
  mulf (val_main_v202 (F := F) x0 x1) (val_main_v201 (F := F) x1)

-- %cst_26 = stablehlo.constant dense<1.000000e+00> : tensor<f32>
def val_main_cst_26 : (⟨S_, .f32⟩ : BufTy).Contents (Elt F) :=
  constant S_ .f32 0x3F800000#32

-- %204 = stablehlo.broadcast_in_dim %cst_26, dims = [] : (tensor<f32>) -> tensor<16384x7x7x1xf32>
def val_main_v204 : (⟨S16384x7x7x1, .f32⟩ : BufTy).Contents (Elt F) :=
  broadcastInDim S16384x7x7x1 ![] bcast_S_S16384x7x7x1 (val_main_cst_26 (F := F))

-- %205 = stablehlo.subtract %204, %173 : tensor<16384x7x7x1xf32>
def val_main_v205 (x0 x1 : (⟨S16384x7x7x30, .f32⟩ : BufTy).Contents (Elt F)) : (⟨S16384x7x7x1, .f32⟩ : BufTy).Contents (Elt F) :=
  subf (val_main_v204 (F := F)) (val_main_v173 (F := F) x0 x1)

-- %206 = stablehlo.slice %arg1 [0:16384, 0:7, 0:7, 7:9] : (tensor<16384x7x7x30xf32>) -> tensor<16384x7x7x2xf32>
def val_main_v206 (x1 : (⟨S16384x7x7x30, .f32⟩ : BufTy).Contents (Elt F)) : (⟨S16384x7x7x2, .f32⟩ : BufTy).Contents (Elt F) :=
  extractStridedSlice S16384x7x7x2 ![0, 0, 0, 7] (x1) slices_S16384x7x7x30_S16384x7x7x2_0_0_0_7

-- %207 = stablehlo.broadcast_in_dim %205, dims = [0, 1, 2, 3] : (tensor<16384x7x7x1xf32>) -> tensor<16384x7x7x2xf32>
def val_main_v207 (x0 x1 : (⟨S16384x7x7x30, .f32⟩ : BufTy).Contents (Elt F)) : (⟨S16384x7x7x2, .f32⟩ : BufTy).Contents (Elt F) :=
  broadcastInDim S16384x7x7x2 ![0, 1, 2, 3] bcast_S16384x7x7x1_S16384x7x7x2_0_1_2_3 (val_main_v205 (F := F) x0 x1)

-- %208 = stablehlo.multiply %207, %206 : tensor<16384x7x7x2xf32>
def val_main_v208 (x0 x1 : (⟨S16384x7x7x30, .f32⟩ : BufTy).Contents (Elt F)) : (⟨S16384x7x7x2, .f32⟩ : BufTy).Contents (Elt F) :=
  mulf (val_main_v207 (F := F) x0 x1) (val_main_v206 (F := F) x1)

-- %209 = stablehlo.add %203, %208 : tensor<16384x7x7x2xf32>
def val_main_v209 (x0 x1 : (⟨S16384x7x7x30, .f32⟩ : BufTy).Contents (Elt F)) : (⟨S16384x7x7x2, .f32⟩ : BufTy).Contents (Elt F) :=
  addf (val_main_v203 (F := F) x0 x1) (val_main_v208 (F := F) x0 x1)

-- %210 = stablehlo.slice %arg0 [0:16384, 0:7, 0:7, 4:5] : (tensor<16384x7x7x30xf32>) -> tensor<16384x7x7x1xf32>
def val_main_v210 (x0 : (⟨S16384x7x7x30, .f32⟩ : BufTy).Contents (Elt F)) : (⟨S16384x7x7x1, .f32⟩ : BufTy).Contents (Elt F) :=
  extractStridedSlice S16384x7x7x1 ![0, 0, 0, 4] (x0) slices_S16384x7x7x30_S16384x7x7x1_0_0_0_4

-- %211 = stablehlo.reshape %210 : (tensor<16384x7x7x1xf32>) -> tensor<16384x7x7xf32>
def val_main_v211 (x0 : (⟨S16384x7x7x30, .f32⟩ : BufTy).Contents (Elt F)) : (⟨S16384x7x7, .f32⟩ : BufTy).Contents (Elt F) :=
  shapeCast _ (val_main_v210 (F := F) x0) shapeCasts_S16384x7x7x1_S16384x7x7

-- %212 = stablehlo.slice %arg0 [0:16384, 0:7, 0:7, 9:10] : (tensor<16384x7x7x30xf32>) -> tensor<16384x7x7x1xf32>
def val_main_v212 (x0 : (⟨S16384x7x7x30, .f32⟩ : BufTy).Contents (Elt F)) : (⟨S16384x7x7x1, .f32⟩ : BufTy).Contents (Elt F) :=
  extractStridedSlice S16384x7x7x1 ![0, 0, 0, 9] (x0) slices_S16384x7x7x30_S16384x7x7x1_0_0_0_9

-- %213 = stablehlo.reshape %212 : (tensor<16384x7x7x1xf32>) -> tensor<16384x7x7xf32>
def val_main_v213 (x0 : (⟨S16384x7x7x30, .f32⟩ : BufTy).Contents (Elt F)) : (⟨S16384x7x7, .f32⟩ : BufTy).Contents (Elt F) :=
  shapeCast _ (val_main_v212 (F := F) x0) shapeCasts_S16384x7x7x1_S16384x7x7

-- %214 = func.call @_where(…) (record main_call4) result 0: @_where's %0 = stablehlo.select %arg0, %arg1, %arg2 : tensor<16384x7x7xi1>, tensor<16384x7x7xf32>
def val_main_v214 (x0 x1 : (⟨S16384x7x7x30, .f32⟩ : BufTy).Contents (Elt F)) : (⟨S16384x7x7, .f32⟩ : BufTy).Contents (Elt F) :=
  select (val_main_v171 (F := F) x0 x1) (val_main_v211 (F := F) x0) (val_main_v213 (F := F) x0)

-- %215 = stablehlo.slice %arg0 [0:16384, 0:7, 0:7, 9:10] : (tensor<16384x7x7x30xf32>) -> tensor<16384x7x7x1xf32>
def val_main_v215 (x0 : (⟨S16384x7x7x30, .f32⟩ : BufTy).Contents (Elt F)) : (⟨S16384x7x7x1, .f32⟩ : BufTy).Contents (Elt F) :=
  extractStridedSlice S16384x7x7x1 ![0, 0, 0, 9] (x0) slices_S16384x7x7x30_S16384x7x7x1_0_0_0_9

-- %216 = stablehlo.reshape %215 : (tensor<16384x7x7x1xf32>) -> tensor<16384x7x7xf32>
def val_main_v216 (x0 : (⟨S16384x7x7x30, .f32⟩ : BufTy).Contents (Elt F)) : (⟨S16384x7x7, .f32⟩ : BufTy).Contents (Elt F) :=
  shapeCast _ (val_main_v215 (F := F) x0) shapeCasts_S16384x7x7x1_S16384x7x7

-- %217 = stablehlo.slice %arg0 [0:16384, 0:7, 0:7, 4:5] : (tensor<16384x7x7x30xf32>) -> tensor<16384x7x7x1xf32>
def val_main_v217 (x0 : (⟨S16384x7x7x30, .f32⟩ : BufTy).Contents (Elt F)) : (⟨S16384x7x7x1, .f32⟩ : BufTy).Contents (Elt F) :=
  extractStridedSlice S16384x7x7x1 ![0, 0, 0, 4] (x0) slices_S16384x7x7x30_S16384x7x7x1_0_0_0_4

-- %218 = stablehlo.reshape %217 : (tensor<16384x7x7x1xf32>) -> tensor<16384x7x7xf32>
def val_main_v218 (x0 : (⟨S16384x7x7x30, .f32⟩ : BufTy).Contents (Elt F)) : (⟨S16384x7x7, .f32⟩ : BufTy).Contents (Elt F) :=
  shapeCast _ (val_main_v217 (F := F) x0) shapeCasts_S16384x7x7x1_S16384x7x7

-- %219 = func.call @_where(…) (record main_call5) result 0: @_where's %0 = stablehlo.select %arg0, %arg1, %arg2 : tensor<16384x7x7xi1>, tensor<16384x7x7xf32>
def val_main_v219 (x0 x1 : (⟨S16384x7x7x30, .f32⟩ : BufTy).Contents (Elt F)) : (⟨S16384x7x7, .f32⟩ : BufTy).Contents (Elt F) :=
  select (val_main_v171 (F := F) x0 x1) (val_main_v216 (F := F) x0) (val_main_v218 (F := F) x0)

-- %220 = func.call @_where(…) (record main_call6) result 0: @_where's %0 = stablehlo.select %arg0, %arg1, %arg2 : tensor<16384x7x7xi1>, tensor<16384x7x7xf32>
def val_main_v220 (x0 x1 : (⟨S16384x7x7x30, .f32⟩ : BufTy).Contents (Elt F)) : (⟨S16384x7x7, .f32⟩ : BufTy).Contents (Elt F) :=
  select (val_main_v171 (F := F) x0 x1) (val_main_v88 (F := F) x0 x1) (val_main_v170 (F := F) x0 x1)

-- %221 = func.call @_where(…) (record main_call7) result 0: @_where's %0 = stablehlo.select %arg0, %arg1, %arg2 : tensor<16384x7x7xi1>, tensor<16384x7x7xf32>
def val_main_v221 (x0 x1 : (⟨S16384x7x7x30, .f32⟩ : BufTy).Contents (Elt F)) : (⟨S16384x7x7, .f32⟩ : BufTy).Contents (Elt F) :=
  select (val_main_v171 (F := F) x0 x1) (val_main_v170 (F := F) x0 x1) (val_main_v88 (F := F) x0 x1)

-- %222 = stablehlo.subtract %182, %191 : tensor<16384x7x7x2xf32>
def val_main_v222 (x0 x1 : (⟨S16384x7x7x30, .f32⟩ : BufTy).Contents (Elt F)) : (⟨S16384x7x7x2, .f32⟩ : BufTy).Contents (Elt F) :=
  subf (val_main_v182 (F := F) x0 x1) (val_main_v191 (F := F) x0 x1)

-- %223 = stablehlo.multiply %222, %222 : tensor<16384x7x7x2xf32>
def val_main_v223 (x0 x1 : (⟨S16384x7x7x30, .f32⟩ : BufTy).Contents (Elt F)) : (⟨S16384x7x7x2, .f32⟩ : BufTy).Contents (Elt F) :=
  mulf (val_main_v222 (F := F) x0 x1) (val_main_v222 (F := F) x0 x1)

-- %cst_27 = stablehlo.constant dense<0.000000e+00> : tensor<f32>
def val_main_cst_27 : (⟨S_, .f32⟩ : BufTy).Contents (Elt F) :=
  constant S_ .f32 0x00000000#32

-- %224 = stablehlo.reduce(%223 init: %cst_27) applies stablehlo.add across dimensions = [3] : (tensor<16384x7x7x2xf32>, tensor<f32>) -> tensor<16384x7x7xf32> {
def val_main_v224 (x0 x1 : (⟨S16384x7x7x30, .f32⟩ : BufTy).Contents (Elt F)) : (⟨S16384x7x7, .f32⟩ : BufTy).Contents (Elt F) :=
  Host.reduceAdd (val_main_v223 (F := F) x0 x1) (val_main_cst_27 (F := F)) reducesTo_S16384x7x7x2_S16384x7x7_d3 h_S_

-- %225 = stablehlo.multiply %4, %224 : tensor<16384x7x7xf32>
def val_main_v225 (x0 x1 : (⟨S16384x7x7x30, .f32⟩ : BufTy).Contents (Elt F)) : (⟨S16384x7x7, .f32⟩ : BufTy).Contents (Elt F) :=
  mulf (val_main_v4 (F := F) x1) (val_main_v224 (F := F) x0 x1)

-- %cst_28 = stablehlo.constant dense<0.000000e+00> : tensor<f32>
def val_main_cst_28 : (⟨S_, .f32⟩ : BufTy).Contents (Elt F) :=
  constant S_ .f32 0x00000000#32

-- %226 = stablehlo.reduce(%225 init: %cst_28) applies stablehlo.add across dimensions = [0, 1, 2] : (tensor<16384x7x7xf32>, tensor<f32>) -> tensor<f32> {
def val_main_v226 (x0 x1 : (⟨S16384x7x7x30, .f32⟩ : BufTy).Contents (Elt F)) : (⟨S_, .f32⟩ : BufTy).Contents (Elt F) :=
  Host.reduceAdd (val_main_v225 (F := F) x0 x1) (val_main_cst_28 (F := F)) reducesTo_S16384x7x7_S_d0_1_2 h_S_

-- %cst_29 = stablehlo.constant dense<5.000000e+00> : tensor<f32>
def val_main_cst_29 : (⟨S_, .f32⟩ : BufTy).Contents (Elt F) :=
  constant S_ .f32 0x40A00000#32

-- %227 = stablehlo.multiply %cst_29, %226 : tensor<f32>
def val_main_v227 (x0 x1 : (⟨S16384x7x7x30, .f32⟩ : BufTy).Contents (Elt F)) : (⟨S_, .f32⟩ : BufTy).Contents (Elt F) :=
  mulf (val_main_cst_29 (F := F)) (val_main_v226 (F := F) x0 x1)

-- %228 = stablehlo.sqrt %200 : tensor<16384x7x7x2xf32>
def val_main_v228 (x0 x1 : (⟨S16384x7x7x30, .f32⟩ : BufTy).Contents (Elt F)) : (⟨S16384x7x7x2, .f32⟩ : BufTy).Contents (Elt F) :=
  Host.sqrt (val_main_v200 (F := F) x0 x1)

-- %229 = stablehlo.sqrt %209 : tensor<16384x7x7x2xf32>
def val_main_v229 (x0 x1 : (⟨S16384x7x7x30, .f32⟩ : BufTy).Contents (Elt F)) : (⟨S16384x7x7x2, .f32⟩ : BufTy).Contents (Elt F) :=
  Host.sqrt (val_main_v209 (F := F) x0 x1)

-- %230 = stablehlo.subtract %228, %229 : tensor<16384x7x7x2xf32>
def val_main_v230 (x0 x1 : (⟨S16384x7x7x30, .f32⟩ : BufTy).Contents (Elt F)) : (⟨S16384x7x7x2, .f32⟩ : BufTy).Contents (Elt F) :=
  subf (val_main_v228 (F := F) x0 x1) (val_main_v229 (F := F) x0 x1)

-- %231 = stablehlo.multiply %230, %230 : tensor<16384x7x7x2xf32>
def val_main_v231 (x0 x1 : (⟨S16384x7x7x30, .f32⟩ : BufTy).Contents (Elt F)) : (⟨S16384x7x7x2, .f32⟩ : BufTy).Contents (Elt F) :=
  mulf (val_main_v230 (F := F) x0 x1) (val_main_v230 (F := F) x0 x1)

-- %cst_30 = stablehlo.constant dense<0.000000e+00> : tensor<f32>
def val_main_cst_30 : (⟨S_, .f32⟩ : BufTy).Contents (Elt F) :=
  constant S_ .f32 0x00000000#32

-- %232 = stablehlo.reduce(%231 init: %cst_30) applies stablehlo.add across dimensions = [3] : (tensor<16384x7x7x2xf32>, tensor<f32>) -> tensor<16384x7x7xf32> {
def val_main_v232 (x0 x1 : (⟨S16384x7x7x30, .f32⟩ : BufTy).Contents (Elt F)) : (⟨S16384x7x7, .f32⟩ : BufTy).Contents (Elt F) :=
  Host.reduceAdd (val_main_v231 (F := F) x0 x1) (val_main_cst_30 (F := F)) reducesTo_S16384x7x7x2_S16384x7x7_d3 h_S_

-- %233 = stablehlo.multiply %4, %232 : tensor<16384x7x7xf32>
def val_main_v233 (x0 x1 : (⟨S16384x7x7x30, .f32⟩ : BufTy).Contents (Elt F)) : (⟨S16384x7x7, .f32⟩ : BufTy).Contents (Elt F) :=
  mulf (val_main_v4 (F := F) x1) (val_main_v232 (F := F) x0 x1)

-- %cst_31 = stablehlo.constant dense<0.000000e+00> : tensor<f32>
def val_main_cst_31 : (⟨S_, .f32⟩ : BufTy).Contents (Elt F) :=
  constant S_ .f32 0x00000000#32

-- %234 = stablehlo.reduce(%233 init: %cst_31) applies stablehlo.add across dimensions = [0, 1, 2] : (tensor<16384x7x7xf32>, tensor<f32>) -> tensor<f32> {
def val_main_v234 (x0 x1 : (⟨S16384x7x7x30, .f32⟩ : BufTy).Contents (Elt F)) : (⟨S_, .f32⟩ : BufTy).Contents (Elt F) :=
  Host.reduceAdd (val_main_v233 (F := F) x0 x1) (val_main_cst_31 (F := F)) reducesTo_S16384x7x7_S_d0_1_2 h_S_

-- %235 = stablehlo.subtract %214, %220 : tensor<16384x7x7xf32>
def val_main_v235 (x0 x1 : (⟨S16384x7x7x30, .f32⟩ : BufTy).Contents (Elt F)) : (⟨S16384x7x7, .f32⟩ : BufTy).Contents (Elt F) :=
  subf (val_main_v214 (F := F) x0 x1) (val_main_v220 (F := F) x0 x1)

-- %236 = stablehlo.multiply %235, %235 : tensor<16384x7x7xf32>
def val_main_v236 (x0 x1 : (⟨S16384x7x7x30, .f32⟩ : BufTy).Contents (Elt F)) : (⟨S16384x7x7, .f32⟩ : BufTy).Contents (Elt F) :=
  mulf (val_main_v235 (F := F) x0 x1) (val_main_v235 (F := F) x0 x1)

-- %237 = stablehlo.multiply %4, %236 : tensor<16384x7x7xf32>
def val_main_v237 (x0 x1 : (⟨S16384x7x7x30, .f32⟩ : BufTy).Contents (Elt F)) : (⟨S16384x7x7, .f32⟩ : BufTy).Contents (Elt F) :=
  mulf (val_main_v4 (F := F) x1) (val_main_v236 (F := F) x0 x1)

-- %cst_32 = stablehlo.constant dense<0.000000e+00> : tensor<f32>
def val_main_cst_32 : (⟨S_, .f32⟩ : BufTy).Contents (Elt F) :=
  constant S_ .f32 0x00000000#32

-- %238 = stablehlo.reduce(%237 init: %cst_32) applies stablehlo.add across dimensions = [0, 1, 2] : (tensor<16384x7x7xf32>, tensor<f32>) -> tensor<f32> {
def val_main_v238 (x0 x1 : (⟨S16384x7x7x30, .f32⟩ : BufTy).Contents (Elt F)) : (⟨S_, .f32⟩ : BufTy).Contents (Elt F) :=
  Host.reduceAdd (val_main_v237 (F := F) x0 x1) (val_main_cst_32 (F := F)) reducesTo_S16384x7x7_S_d0_1_2 h_S_

-- %239 = stablehlo.subtract %219, %221 : tensor<16384x7x7xf32>
def val_main_v239 (x0 x1 : (⟨S16384x7x7x30, .f32⟩ : BufTy).Contents (Elt F)) : (⟨S16384x7x7, .f32⟩ : BufTy).Contents (Elt F) :=
  subf (val_main_v219 (F := F) x0 x1) (val_main_v221 (F := F) x0 x1)

-- %240 = stablehlo.multiply %239, %239 : tensor<16384x7x7xf32>
def val_main_v240 (x0 x1 : (⟨S16384x7x7x30, .f32⟩ : BufTy).Contents (Elt F)) : (⟨S16384x7x7, .f32⟩ : BufTy).Contents (Elt F) :=
  mulf (val_main_v239 (F := F) x0 x1) (val_main_v239 (F := F) x0 x1)

-- %241 = stablehlo.multiply %4, %240 : tensor<16384x7x7xf32>
def val_main_v241 (x0 x1 : (⟨S16384x7x7x30, .f32⟩ : BufTy).Contents (Elt F)) : (⟨S16384x7x7, .f32⟩ : BufTy).Contents (Elt F) :=
  mulf (val_main_v4 (F := F) x1) (val_main_v240 (F := F) x0 x1)

-- %cst_33 = stablehlo.constant dense<0.000000e+00> : tensor<f32>
def val_main_cst_33 : (⟨S_, .f32⟩ : BufTy).Contents (Elt F) :=
  constant S_ .f32 0x00000000#32

-- %242 = stablehlo.reduce(%241 init: %cst_33) applies stablehlo.add across dimensions = [0, 1, 2] : (tensor<16384x7x7xf32>, tensor<f32>) -> tensor<f32> {
def val_main_v242 (x0 x1 : (⟨S16384x7x7x30, .f32⟩ : BufTy).Contents (Elt F)) : (⟨S_, .f32⟩ : BufTy).Contents (Elt F) :=
  Host.reduceAdd (val_main_v241 (F := F) x0 x1) (val_main_cst_33 (F := F)) reducesTo_S16384x7x7_S_d0_1_2 h_S_

-- %cst_34 = stablehlo.constant dense<5.000000e-01> : tensor<f32>
def val_main_cst_34 : (⟨S_, .f32⟩ : BufTy).Contents (Elt F) :=
  constant S_ .f32 0x3F000000#32

-- %243 = stablehlo.multiply %cst_34, %242 : tensor<f32>
def val_main_v243 (x0 x1 : (⟨S16384x7x7x30, .f32⟩ : BufTy).Contents (Elt F)) : (⟨S_, .f32⟩ : BufTy).Contents (Elt F) :=
  mulf (val_main_cst_34 (F := F)) (val_main_v242 (F := F) x0 x1)

-- %244 = stablehlo.slice %arg0 [0:16384, 0:7, 0:7, 4:5] : (tensor<16384x7x7x30xf32>) -> tensor<16384x7x7x1xf32>
def val_main_v244 (x0 : (⟨S16384x7x7x30, .f32⟩ : BufTy).Contents (Elt F)) : (⟨S16384x7x7x1, .f32⟩ : BufTy).Contents (Elt F) :=
  extractStridedSlice S16384x7x7x1 ![0, 0, 0, 4] (x0) slices_S16384x7x7x30_S16384x7x7x1_0_0_0_4

-- %245 = stablehlo.reshape %244 : (tensor<16384x7x7x1xf32>) -> tensor<16384x7x7xf32>
def val_main_v245 (x0 : (⟨S16384x7x7x30, .f32⟩ : BufTy).Contents (Elt F)) : (⟨S16384x7x7, .f32⟩ : BufTy).Contents (Elt F) :=
  shapeCast _ (val_main_v244 (F := F) x0) shapeCasts_S16384x7x7x1_S16384x7x7

-- %246 = stablehlo.multiply %245, %245 : tensor<16384x7x7xf32>
def val_main_v246 (x0 : (⟨S16384x7x7x30, .f32⟩ : BufTy).Contents (Elt F)) : (⟨S16384x7x7, .f32⟩ : BufTy).Contents (Elt F) :=
  mulf (val_main_v245 (F := F) x0) (val_main_v245 (F := F) x0)

-- %247 = stablehlo.slice %arg0 [0:16384, 0:7, 0:7, 9:10] : (tensor<16384x7x7x30xf32>) -> tensor<16384x7x7x1xf32>
def val_main_v247 (x0 : (⟨S16384x7x7x30, .f32⟩ : BufTy).Contents (Elt F)) : (⟨S16384x7x7x1, .f32⟩ : BufTy).Contents (Elt F) :=
  extractStridedSlice S16384x7x7x1 ![0, 0, 0, 9] (x0) slices_S16384x7x7x30_S16384x7x7x1_0_0_0_9

-- %248 = stablehlo.reshape %247 : (tensor<16384x7x7x1xf32>) -> tensor<16384x7x7xf32>
def val_main_v248 (x0 : (⟨S16384x7x7x30, .f32⟩ : BufTy).Contents (Elt F)) : (⟨S16384x7x7, .f32⟩ : BufTy).Contents (Elt F) :=
  shapeCast _ (val_main_v247 (F := F) x0) shapeCasts_S16384x7x7x1_S16384x7x7

-- %249 = stablehlo.multiply %248, %248 : tensor<16384x7x7xf32>
def val_main_v249 (x0 : (⟨S16384x7x7x30, .f32⟩ : BufTy).Contents (Elt F)) : (⟨S16384x7x7, .f32⟩ : BufTy).Contents (Elt F) :=
  mulf (val_main_v248 (F := F) x0) (val_main_v248 (F := F) x0)

-- %250 = stablehlo.add %246, %249 : tensor<16384x7x7xf32>
def val_main_v250 (x0 : (⟨S16384x7x7x30, .f32⟩ : BufTy).Contents (Elt F)) : (⟨S16384x7x7, .f32⟩ : BufTy).Contents (Elt F) :=
  addf (val_main_v246 (F := F) x0) (val_main_v249 (F := F) x0)

-- %251 = stablehlo.multiply %6, %250 : tensor<16384x7x7xf32>
def val_main_v251 (x0 x1 : (⟨S16384x7x7x30, .f32⟩ : BufTy).Contents (Elt F)) : (⟨S16384x7x7, .f32⟩ : BufTy).Contents (Elt F) :=
  mulf (val_main_v6 (F := F) x1) (val_main_v250 (F := F) x0)

-- %cst_35 = stablehlo.constant dense<0.000000e+00> : tensor<f32>
def val_main_cst_35 : (⟨S_, .f32⟩ : BufTy).Contents (Elt F) :=
  constant S_ .f32 0x00000000#32

-- %252 = stablehlo.reduce(%251 init: %cst_35) applies stablehlo.add across dimensions = [0, 1, 2] : (tensor<16384x7x7xf32>, tensor<f32>) -> tensor<f32> {
def val_main_v252 (x0 x1 : (⟨S16384x7x7x30, .f32⟩ : BufTy).Contents (Elt F)) : (⟨S_, .f32⟩ : BufTy).Contents (Elt F) :=
  Host.reduceAdd (val_main_v251 (F := F) x0 x1) (val_main_cst_35 (F := F)) reducesTo_S16384x7x7_S_d0_1_2 h_S_

-- %cst_36 = stablehlo.constant dense<5.000000e-01> : tensor<f32>
def val_main_cst_36 : (⟨S_, .f32⟩ : BufTy).Contents (Elt F) :=
  constant S_ .f32 0x3F000000#32

-- %253 = stablehlo.multiply %cst_36, %252 : tensor<f32>
def val_main_v253 (x0 x1 : (⟨S16384x7x7x30, .f32⟩ : BufTy).Contents (Elt F)) : (⟨S_, .f32⟩ : BufTy).Contents (Elt F) :=
  mulf (val_main_cst_36 (F := F)) (val_main_v252 (F := F) x0 x1)

-- %254 = stablehlo.slice %arg0 [0:16384, 0:7, 0:7, 10:30] : (tensor<16384x7x7x30xf32>) -> tensor<16384x7x7x20xf32>
def val_main_v254 (x0 : (⟨S16384x7x7x30, .f32⟩ : BufTy).Contents (Elt F)) : (⟨S16384x7x7x20, .f32⟩ : BufTy).Contents (Elt F) :=
  extractStridedSlice S16384x7x7x20 ![0, 0, 0, 10] (x0) slices_S16384x7x7x30_S16384x7x7x20_0_0_0_10

-- %255 = stablehlo.slice %arg1 [0:16384, 0:7, 0:7, 10:30] : (tensor<16384x7x7x30xf32>) -> tensor<16384x7x7x20xf32>
def val_main_v255 (x1 : (⟨S16384x7x7x30, .f32⟩ : BufTy).Contents (Elt F)) : (⟨S16384x7x7x20, .f32⟩ : BufTy).Contents (Elt F) :=
  extractStridedSlice S16384x7x7x20 ![0, 0, 0, 10] (x1) slices_S16384x7x7x30_S16384x7x7x20_0_0_0_10

-- %256 = stablehlo.subtract %254, %255 : tensor<16384x7x7x20xf32>
def val_main_v256 (x0 x1 : (⟨S16384x7x7x30, .f32⟩ : BufTy).Contents (Elt F)) : (⟨S16384x7x7x20, .f32⟩ : BufTy).Contents (Elt F) :=
  subf (val_main_v254 (F := F) x0) (val_main_v255 (F := F) x1)

-- %257 = stablehlo.multiply %256, %256 : tensor<16384x7x7x20xf32>
def val_main_v257 (x0 x1 : (⟨S16384x7x7x30, .f32⟩ : BufTy).Contents (Elt F)) : (⟨S16384x7x7x20, .f32⟩ : BufTy).Contents (Elt F) :=
  mulf (val_main_v256 (F := F) x0 x1) (val_main_v256 (F := F) x0 x1)

-- %cst_37 = stablehlo.constant dense<0.000000e+00> : tensor<f32>
def val_main_cst_37 : (⟨S_, .f32⟩ : BufTy).Contents (Elt F) :=
  constant S_ .f32 0x00000000#32

-- %258 = stablehlo.reduce(%257 init: %cst_37) applies stablehlo.add across dimensions = [3] : (tensor<16384x7x7x20xf32>, tensor<f32>) -> tensor<16384x7x7xf32> {
def val_main_v258 (x0 x1 : (⟨S16384x7x7x30, .f32⟩ : BufTy).Contents (Elt F)) : (⟨S16384x7x7, .f32⟩ : BufTy).Contents (Elt F) :=
  Host.reduceAdd (val_main_v257 (F := F) x0 x1) (val_main_cst_37 (F := F)) reducesTo_S16384x7x7x20_S16384x7x7_d3 h_S_

-- %259 = stablehlo.multiply %4, %258 : tensor<16384x7x7xf32>
def val_main_v259 (x0 x1 : (⟨S16384x7x7x30, .f32⟩ : BufTy).Contents (Elt F)) : (⟨S16384x7x7, .f32⟩ : BufTy).Contents (Elt F) :=
  mulf (val_main_v4 (F := F) x1) (val_main_v258 (F := F) x0 x1)

-- %cst_38 = stablehlo.constant dense<0.000000e+00> : tensor<f32>
def val_main_cst_38 : (⟨S_, .f32⟩ : BufTy).Contents (Elt F) :=
  constant S_ .f32 0x00000000#32

-- %260 = stablehlo.reduce(%259 init: %cst_38) applies stablehlo.add across dimensions = [0, 1, 2] : (tensor<16384x7x7xf32>, tensor<f32>) -> tensor<f32> {
def val_main_v260 (x0 x1 : (⟨S16384x7x7x30, .f32⟩ : BufTy).Contents (Elt F)) : (⟨S_, .f32⟩ : BufTy).Contents (Elt F) :=
  Host.reduceAdd (val_main_v259 (F := F) x0 x1) (val_main_cst_38 (F := F)) reducesTo_S16384x7x7_S_d0_1_2 h_S_

-- %261 = stablehlo.add %227, %234 : tensor<f32>
def val_main_v261 (x0 x1 : (⟨S16384x7x7x30, .f32⟩ : BufTy).Contents (Elt F)) : (⟨S_, .f32⟩ : BufTy).Contents (Elt F) :=
  addf (val_main_v227 (F := F) x0 x1) (val_main_v234 (F := F) x0 x1)

-- %262 = stablehlo.add %261, %238 : tensor<f32>
def val_main_v262 (x0 x1 : (⟨S16384x7x7x30, .f32⟩ : BufTy).Contents (Elt F)) : (⟨S_, .f32⟩ : BufTy).Contents (Elt F) :=
  addf (val_main_v261 (F := F) x0 x1) (val_main_v238 (F := F) x0 x1)

-- %263 = stablehlo.add %262, %243 : tensor<f32>
def val_main_v263 (x0 x1 : (⟨S16384x7x7x30, .f32⟩ : BufTy).Contents (Elt F)) : (⟨S_, .f32⟩ : BufTy).Contents (Elt F) :=
  addf (val_main_v262 (F := F) x0 x1) (val_main_v243 (F := F) x0 x1)

-- %264 = stablehlo.add %263, %253 : tensor<f32>
def val_main_v264 (x0 x1 : (⟨S16384x7x7x30, .f32⟩ : BufTy).Contents (Elt F)) : (⟨S_, .f32⟩ : BufTy).Contents (Elt F) :=
  addf (val_main_v263 (F := F) x0 x1) (val_main_v253 (F := F) x0 x1)

-- %265 = stablehlo.add %264, %260 : tensor<f32>
def val_main_v265 (x0 x1 : (⟨S16384x7x7x30, .f32⟩ : BufTy).Contents (Elt F)) : (⟨S_, .f32⟩ : BufTy).Contents (Elt F) :=
  addf (val_main_v264 (F := F) x0 x1) (val_main_v260 (F := F) x0 x1)

-- %cst_39 = stablehlo.constant dense<1.638400e+04> : tensor<f32>
def val_main_cst_39 : (⟨S_, .f32⟩ : BufTy).Contents (Elt F) :=
  constant S_ .f32 0x46800000#32

-- %266 = stablehlo.divide %265, %cst_39 : tensor<f32>
def val_main_v266 (x0 x1 : (⟨S16384x7x7x30, .f32⟩ : BufTy).Contents (Elt F)) : (⟨S_, .f32⟩ : BufTy).Contents (Elt F) :=
  Host.divf (val_main_v265 (F := F) x0 x1) (val_main_cst_39 (F := F))

end Cert.RefStages

end
-- ==== Proof.RefRun.lean ====
/-
  The reference program's run, read back as the last of its named stages.

  The program is a straight line of array operations, so every weakly fair execution performs them
  in order and ends with each buffer at what the operations, composed, make of the argument arrays.
  The line is read piece by piece. It is cut into 6 consecutive windows (a called function's
  operations stand at its call). For a window, only the buffers that a later window or the result
  still reads matter: if, before the window, each such buffer that the window reads or passes on
  holds its named stage of the two argument arrays, then after the window each buffer that is still
  needed holds its named stage again, since a stage is by definition its operation applied to the
  stages it reads. Composing the windows from the launch contents (where the argument buffers hold
  the argument arrays) gives the result buffer the last stage; the argument buffers, which no
  operation writes, are carried through every window unchanged.
-/
import proofs.«118524_j27917287424001_2_alg».proof.Proof.RefStages
import Idealize.ShloMosaic.Lib.StableHlo.Run

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

/-! ## The operations, window by window (program order) -/

set_option maxHeartbeats 4000000 in
/-- Operations 1 … 60 of the 316. -/
abbrev ops0 : List (HloOp τ sig (Elt F)) :=
  [ unary main_arg1 main_v0 ((extractStridedSlice S16384x7x7x1 ![0, 0, 0, 4] · slices_S16384x7x7x30_S16384x7x7x1_0_0_0_4) : (⟨S16384x7x7x30, .f32⟩ : BufTy).Contents (Elt F) → (⟨S16384x7x7x1, .f32⟩ : BufTy).Contents (Elt F)),
    reshape main_v0 main_v1 rfl shapeCasts_S16384x7x7x1_S16384x7x7,
    nullary main_cst (constant S_ .f32 0x3F800000#32),
    unary main_cst main_v2 (broadcastInDim S16384x7x7 ![] bcast_S_S16384x7x7 : (⟨S_, .f32⟩ : BufTy).Contents (Elt F) → (⟨S16384x7x7, .f32⟩ : BufTy).Contents (Elt F)),
    binary main_v1 main_v2 main_v3 (cmpf .oeq : (⟨S16384x7x7, .f32⟩ : BufTy).Contents (Elt F) → (⟨S16384x7x7, .f32⟩ : BufTy).Contents (Elt F) → (⟨S16384x7x7, .i1⟩ : BufTy).Contents (Elt F)),
    unary main_v3 main_v4 (uitofp .f32 : (⟨S16384x7x7, .i1⟩ : BufTy).Contents (Elt F) → (⟨S16384x7x7, .f32⟩ : BufTy).Contents (Elt F)),
    nullary main_cst_0 (constant S_ .f32 0x3F800000#32),
    unary main_cst_0 main_v5 (broadcastInDim S16384x7x7 ![] bcast_S_S16384x7x7 : (⟨S_, .f32⟩ : BufTy).Contents (Elt F) → (⟨S16384x7x7, .f32⟩ : BufTy).Contents (Elt F)),
    binary main_v5 main_v4 main_v6 (subf : (⟨S16384x7x7, .f32⟩ : BufTy).Contents (Elt F) → (⟨S16384x7x7, .f32⟩ : BufTy).Contents (Elt F) → (⟨S16384x7x7, .f32⟩ : BufTy).Contents (Elt F)),
    unary main_arg0 main_v7 ((extractStridedSlice S16384x7x7x4 ![0, 0, 0, 0] · slices_S16384x7x7x30_S16384x7x7x4_0_0_0_0) : (⟨S16384x7x7x30, .f32⟩ : BufTy).Contents (Elt F) → (⟨S16384x7x7x4, .f32⟩ : BufTy).Contents (Elt F)),
    unary main_arg1 main_v8 ((extractStridedSlice S16384x7x7x4 ![0, 0, 0, 0] · slices_S16384x7x7x30_S16384x7x7x4_0_0_0_0) : (⟨S16384x7x7x30, .f32⟩ : BufTy).Contents (Elt F) → (⟨S16384x7x7x4, .f32⟩ : BufTy).Contents (Elt F)),
    unary main_v7 main_v9 ((extractStridedSlice S16384x7x7x1 ![0, 0, 0, 0] · slices_S16384x7x7x4_S16384x7x7x1_0_0_0_0) : (⟨S16384x7x7x4, .f32⟩ : BufTy).Contents (Elt F) → (⟨S16384x7x7x1, .f32⟩ : BufTy).Contents (Elt F)),
    reshape main_v9 main_v10 rfl shapeCasts_S16384x7x7x1_S16384x7x7,
    unary main_v7 main_v11 ((extractStridedSlice S16384x7x7x1 ![0, 0, 0, 2] · slices_S16384x7x7x4_S16384x7x7x1_0_0_0_2) : (⟨S16384x7x7x4, .f32⟩ : BufTy).Contents (Elt F) → (⟨S16384x7x7x1, .f32⟩ : BufTy).Contents (Elt F)),
    reshape main_v11 main_v12 rfl shapeCasts_S16384x7x7x1_S16384x7x7,
    nullary main_cst_1 (constant S_ .f32 0x40000000#32),
    unary main_cst_1 main_v13 (broadcastInDim S16384x7x7 ![] bcast_S_S16384x7x7 : (⟨S_, .f32⟩ : BufTy).Contents (Elt F) → (⟨S16384x7x7, .f32⟩ : BufTy).Contents (Elt F)),
    binary main_v12 main_v13 main_v14 (Host.divf : (⟨S16384x7x7, .f32⟩ : BufTy).Contents (Elt F) → (⟨S16384x7x7, .f32⟩ : BufTy).Contents (Elt F) → (⟨S16384x7x7, .f32⟩ : BufTy).Contents (Elt F)),
    binary main_v10 main_v14 main_v15 (subf : (⟨S16384x7x7, .f32⟩ : BufTy).Contents (Elt F) → (⟨S16384x7x7, .f32⟩ : BufTy).Contents (Elt F) → (⟨S16384x7x7, .f32⟩ : BufTy).Contents (Elt F)),
    unary main_v7 main_v16 ((extractStridedSlice S16384x7x7x1 ![0, 0, 0, 1] · slices_S16384x7x7x4_S16384x7x7x1_0_0_0_1) : (⟨S16384x7x7x4, .f32⟩ : BufTy).Contents (Elt F) → (⟨S16384x7x7x1, .f32⟩ : BufTy).Contents (Elt F)),
    reshape main_v16 main_v17 rfl shapeCasts_S16384x7x7x1_S16384x7x7,
    unary main_v7 main_v18 ((extractStridedSlice S16384x7x7x1 ![0, 0, 0, 3] · slices_S16384x7x7x4_S16384x7x7x1_0_0_0_3) : (⟨S16384x7x7x4, .f32⟩ : BufTy).Contents (Elt F) → (⟨S16384x7x7x1, .f32⟩ : BufTy).Contents (Elt F)),
    reshape main_v18 main_v19 rfl shapeCasts_S16384x7x7x1_S16384x7x7,
    nullary main_cst_2 (constant S_ .f32 0x40000000#32),
    unary main_cst_2 main_v20 (broadcastInDim S16384x7x7 ![] bcast_S_S16384x7x7 : (⟨S_, .f32⟩ : BufTy).Contents (Elt F) → (⟨S16384x7x7, .f32⟩ : BufTy).Contents (Elt F)),
    binary main_v19 main_v20 main_v21 (Host.divf : (⟨S16384x7x7, .f32⟩ : BufTy).Contents (Elt F) → (⟨S16384x7x7, .f32⟩ : BufTy).Contents (Elt F) → (⟨S16384x7x7, .f32⟩ : BufTy).Contents (Elt F)),
    binary main_v17 main_v21 main_v22 (subf : (⟨S16384x7x7, .f32⟩ : BufTy).Contents (Elt F) → (⟨S16384x7x7, .f32⟩ : BufTy).Contents (Elt F) → (⟨S16384x7x7, .f32⟩ : BufTy).Contents (Elt F)),
    unary main_v7 main_v23 ((extractStridedSlice S16384x7x7x1 ![0, 0, 0, 0] · slices_S16384x7x7x4_S16384x7x7x1_0_0_0_0) : (⟨S16384x7x7x4, .f32⟩ : BufTy).Contents (Elt F) → (⟨S16384x7x7x1, .f32⟩ : BufTy).Contents (Elt F)),
    reshape main_v23 main_v24 rfl shapeCasts_S16384x7x7x1_S16384x7x7,
    unary main_v7 main_v25 ((extractStridedSlice S16384x7x7x1 ![0, 0, 0, 2] · slices_S16384x7x7x4_S16384x7x7x1_0_0_0_2) : (⟨S16384x7x7x4, .f32⟩ : BufTy).Contents (Elt F) → (⟨S16384x7x7x1, .f32⟩ : BufTy).Contents (Elt F)),
    reshape main_v25 main_v26 rfl shapeCasts_S16384x7x7x1_S16384x7x7,
    nullary main_cst_3 (constant S_ .f32 0x40000000#32),
    unary main_cst_3 main_v27 (broadcastInDim S16384x7x7 ![] bcast_S_S16384x7x7 : (⟨S_, .f32⟩ : BufTy).Contents (Elt F) → (⟨S16384x7x7, .f32⟩ : BufTy).Contents (Elt F)),
    binary main_v26 main_v27 main_v28 (Host.divf : (⟨S16384x7x7, .f32⟩ : BufTy).Contents (Elt F) → (⟨S16384x7x7, .f32⟩ : BufTy).Contents (Elt F) → (⟨S16384x7x7, .f32⟩ : BufTy).Contents (Elt F)),
    binary main_v24 main_v28 main_v29 (addf : (⟨S16384x7x7, .f32⟩ : BufTy).Contents (Elt F) → (⟨S16384x7x7, .f32⟩ : BufTy).Contents (Elt F) → (⟨S16384x7x7, .f32⟩ : BufTy).Contents (Elt F)),
    unary main_v7 main_v30 ((extractStridedSlice S16384x7x7x1 ![0, 0, 0, 1] · slices_S16384x7x7x4_S16384x7x7x1_0_0_0_1) : (⟨S16384x7x7x4, .f32⟩ : BufTy).Contents (Elt F) → (⟨S16384x7x7x1, .f32⟩ : BufTy).Contents (Elt F)),
    reshape main_v30 main_v31 rfl shapeCasts_S16384x7x7x1_S16384x7x7,
    unary main_v7 main_v32 ((extractStridedSlice S16384x7x7x1 ![0, 0, 0, 3] · slices_S16384x7x7x4_S16384x7x7x1_0_0_0_3) : (⟨S16384x7x7x4, .f32⟩ : BufTy).Contents (Elt F) → (⟨S16384x7x7x1, .f32⟩ : BufTy).Contents (Elt F)),
    reshape main_v32 main_v33 rfl shapeCasts_S16384x7x7x1_S16384x7x7,
    nullary main_cst_4 (constant S_ .f32 0x40000000#32),
    unary main_cst_4 main_v34 (broadcastInDim S16384x7x7 ![] bcast_S_S16384x7x7 : (⟨S_, .f32⟩ : BufTy).Contents (Elt F) → (⟨S16384x7x7, .f32⟩ : BufTy).Contents (Elt F)),
    binary main_v33 main_v34 main_v35 (Host.divf : (⟨S16384x7x7, .f32⟩ : BufTy).Contents (Elt F) → (⟨S16384x7x7, .f32⟩ : BufTy).Contents (Elt F) → (⟨S16384x7x7, .f32⟩ : BufTy).Contents (Elt F)),
    binary main_v31 main_v35 main_v36 (addf : (⟨S16384x7x7, .f32⟩ : BufTy).Contents (Elt F) → (⟨S16384x7x7, .f32⟩ : BufTy).Contents (Elt F) → (⟨S16384x7x7, .f32⟩ : BufTy).Contents (Elt F)),
    unary main_v8 main_v37 ((extractStridedSlice S16384x7x7x1 ![0, 0, 0, 0] · slices_S16384x7x7x4_S16384x7x7x1_0_0_0_0) : (⟨S16384x7x7x4, .f32⟩ : BufTy).Contents (Elt F) → (⟨S16384x7x7x1, .f32⟩ : BufTy).Contents (Elt F)),
    reshape main_v37 main_v38 rfl shapeCasts_S16384x7x7x1_S16384x7x7,
    unary main_v8 main_v39 ((extractStridedSlice S16384x7x7x1 ![0, 0, 0, 2] · slices_S16384x7x7x4_S16384x7x7x1_0_0_0_2) : (⟨S16384x7x7x4, .f32⟩ : BufTy).Contents (Elt F) → (⟨S16384x7x7x1, .f32⟩ : BufTy).Contents (Elt F)),
    reshape main_v39 main_v40 rfl shapeCasts_S16384x7x7x1_S16384x7x7,
    nullary main_cst_5 (constant S_ .f32 0x40000000#32),
    unary main_cst_5 main_v41 (broadcastInDim S16384x7x7 ![] bcast_S_S16384x7x7 : (⟨S_, .f32⟩ : BufTy).Contents (Elt F) → (⟨S16384x7x7, .f32⟩ : BufTy).Contents (Elt F)),
    binary main_v40 main_v41 main_v42 (Host.divf : (⟨S16384x7x7, .f32⟩ : BufTy).Contents (Elt F) → (⟨S16384x7x7, .f32⟩ : BufTy).Contents (Elt F) → (⟨S16384x7x7, .f32⟩ : BufTy).Contents (Elt F)),
    binary main_v38 main_v42 main_v43 (subf : (⟨S16384x7x7, .f32⟩ : BufTy).Contents (Elt F) → (⟨S16384x7x7, .f32⟩ : BufTy).Contents (Elt F) → (⟨S16384x7x7, .f32⟩ : BufTy).Contents (Elt F)),
    unary main_v8 main_v44 ((extractStridedSlice S16384x7x7x1 ![0, 0, 0, 1] · slices_S16384x7x7x4_S16384x7x7x1_0_0_0_1) : (⟨S16384x7x7x4, .f32⟩ : BufTy).Contents (Elt F) → (⟨S16384x7x7x1, .f32⟩ : BufTy).Contents (Elt F)),
    reshape main_v44 main_v45 rfl shapeCasts_S16384x7x7x1_S16384x7x7,
    unary main_v8 main_v46 ((extractStridedSlice S16384x7x7x1 ![0, 0, 0, 3] · slices_S16384x7x7x4_S16384x7x7x1_0_0_0_3) : (⟨S16384x7x7x4, .f32⟩ : BufTy).Contents (Elt F) → (⟨S16384x7x7x1, .f32⟩ : BufTy).Contents (Elt F)),
    reshape main_v46 main_v47 rfl shapeCasts_S16384x7x7x1_S16384x7x7,
    nullary main_cst_6 (constant S_ .f32 0x40000000#32),
    unary main_cst_6 main_v48 (broadcastInDim S16384x7x7 ![] bcast_S_S16384x7x7 : (⟨S_, .f32⟩ : BufTy).Contents (Elt F) → (⟨S16384x7x7, .f32⟩ : BufTy).Contents (Elt F)),
    binary main_v47 main_v48 main_v49 (Host.divf : (⟨S16384x7x7, .f32⟩ : BufTy).Contents (Elt F) → (⟨S16384x7x7, .f32⟩ : BufTy).Contents (Elt F) → (⟨S16384x7x7, .f32⟩ : BufTy).Contents (Elt F)),
    binary main_v45 main_v49 main_v50 (subf : (⟨S16384x7x7, .f32⟩ : BufTy).Contents (Elt F) → (⟨S16384x7x7, .f32⟩ : BufTy).Contents (Elt F) → (⟨S16384x7x7, .f32⟩ : BufTy).Contents (Elt F)),
    unary main_v8 main_v51 ((extractStridedSlice S16384x7x7x1 ![0, 0, 0, 0] · slices_S16384x7x7x4_S16384x7x7x1_0_0_0_0) : (⟨S16384x7x7x4, .f32⟩ : BufTy).Contents (Elt F) → (⟨S16384x7x7x1, .f32⟩ : BufTy).Contents (Elt F)) ]

set_option maxHeartbeats 4000000 in
/-- Operations 61 … 124 of the 316. -/
abbrev ops1 : List (HloOp τ sig (Elt F)) :=
  [ reshape main_v51 main_v52 rfl shapeCasts_S16384x7x7x1_S16384x7x7,
    unary main_v8 main_v53 ((extractStridedSlice S16384x7x7x1 ![0, 0, 0, 2] · slices_S16384x7x7x4_S16384x7x7x1_0_0_0_2) : (⟨S16384x7x7x4, .f32⟩ : BufTy).Contents (Elt F) → (⟨S16384x7x7x1, .f32⟩ : BufTy).Contents (Elt F)),
    reshape main_v53 main_v54 rfl shapeCasts_S16384x7x7x1_S16384x7x7,
    nullary main_cst_7 (constant S_ .f32 0x40000000#32),
    unary main_cst_7 main_v55 (broadcastInDim S16384x7x7 ![] bcast_S_S16384x7x7 : (⟨S_, .f32⟩ : BufTy).Contents (Elt F) → (⟨S16384x7x7, .f32⟩ : BufTy).Contents (Elt F)),
    binary main_v54 main_v55 main_v56 (Host.divf : (⟨S16384x7x7, .f32⟩ : BufTy).Contents (Elt F) → (⟨S16384x7x7, .f32⟩ : BufTy).Contents (Elt F) → (⟨S16384x7x7, .f32⟩ : BufTy).Contents (Elt F)),
    binary main_v52 main_v56 main_v57 (addf : (⟨S16384x7x7, .f32⟩ : BufTy).Contents (Elt F) → (⟨S16384x7x7, .f32⟩ : BufTy).Contents (Elt F) → (⟨S16384x7x7, .f32⟩ : BufTy).Contents (Elt F)),
    unary main_v8 main_v58 ((extractStridedSlice S16384x7x7x1 ![0, 0, 0, 1] · slices_S16384x7x7x4_S16384x7x7x1_0_0_0_1) : (⟨S16384x7x7x4, .f32⟩ : BufTy).Contents (Elt F) → (⟨S16384x7x7x1, .f32⟩ : BufTy).Contents (Elt F)),
    reshape main_v58 main_v59 rfl shapeCasts_S16384x7x7x1_S16384x7x7,
    unary main_v8 main_v60 ((extractStridedSlice S16384x7x7x1 ![0, 0, 0, 3] · slices_S16384x7x7x4_S16384x7x7x1_0_0_0_3) : (⟨S16384x7x7x4, .f32⟩ : BufTy).Contents (Elt F) → (⟨S16384x7x7x1, .f32⟩ : BufTy).Contents (Elt F)),
    reshape main_v60 main_v61 rfl shapeCasts_S16384x7x7x1_S16384x7x7,
    nullary main_cst_8 (constant S_ .f32 0x40000000#32),
    unary main_cst_8 main_v62 (broadcastInDim S16384x7x7 ![] bcast_S_S16384x7x7 : (⟨S_, .f32⟩ : BufTy).Contents (Elt F) → (⟨S16384x7x7, .f32⟩ : BufTy).Contents (Elt F)),
    binary main_v61 main_v62 main_v63 (Host.divf : (⟨S16384x7x7, .f32⟩ : BufTy).Contents (Elt F) → (⟨S16384x7x7, .f32⟩ : BufTy).Contents (Elt F) → (⟨S16384x7x7, .f32⟩ : BufTy).Contents (Elt F)),
    binary main_v59 main_v63 main_v64 (addf : (⟨S16384x7x7, .f32⟩ : BufTy).Contents (Elt F) → (⟨S16384x7x7, .f32⟩ : BufTy).Contents (Elt F) → (⟨S16384x7x7, .f32⟩ : BufTy).Contents (Elt F)),
    binary main_v29 main_v57 main_v65 (minimumf : (⟨S16384x7x7, .f32⟩ : BufTy).Contents (Elt F) → (⟨S16384x7x7, .f32⟩ : BufTy).Contents (Elt F) → (⟨S16384x7x7, .f32⟩ : BufTy).Contents (Elt F)),
    binary main_v15 main_v43 main_v66 (maximumf : (⟨S16384x7x7, .f32⟩ : BufTy).Contents (Elt F) → (⟨S16384x7x7, .f32⟩ : BufTy).Contents (Elt F) → (⟨S16384x7x7, .f32⟩ : BufTy).Contents (Elt F)),
    binary main_v65 main_v66 main_v67 (subf : (⟨S16384x7x7, .f32⟩ : BufTy).Contents (Elt F) → (⟨S16384x7x7, .f32⟩ : BufTy).Contents (Elt F) → (⟨S16384x7x7, .f32⟩ : BufTy).Contents (Elt F)),
    nullary main_cst_9 (constant S_ .f32 0x00000000#32),
    TRef.unary (TRef.of (T := ⟨S_, .f32⟩) main_cst_9) (TRef.of (T := ⟨S_, .f32⟩) main_call0_v0) id,
    TRef.unary (TRef.of (T := ⟨S_, .f32⟩) main_call0_v0) (TRef.of (T := ⟨S16384x7x7, .f32⟩) main_call0_v1) (broadcastInDim S16384x7x7 ![] bcast_S_S16384x7x7),
    TRef.binary (TRef.of (T := ⟨S16384x7x7, .f32⟩) main_call0_v1) (TRef.of (T := ⟨S16384x7x7, .f32⟩) main_v67) (TRef.of (T := ⟨S16384x7x7, .f32⟩) main_v68) maximumf,
    binary main_v36 main_v64 main_v69 (minimumf : (⟨S16384x7x7, .f32⟩ : BufTy).Contents (Elt F) → (⟨S16384x7x7, .f32⟩ : BufTy).Contents (Elt F) → (⟨S16384x7x7, .f32⟩ : BufTy).Contents (Elt F)),
    binary main_v22 main_v50 main_v70 (maximumf : (⟨S16384x7x7, .f32⟩ : BufTy).Contents (Elt F) → (⟨S16384x7x7, .f32⟩ : BufTy).Contents (Elt F) → (⟨S16384x7x7, .f32⟩ : BufTy).Contents (Elt F)),
    binary main_v69 main_v70 main_v71 (subf : (⟨S16384x7x7, .f32⟩ : BufTy).Contents (Elt F) → (⟨S16384x7x7, .f32⟩ : BufTy).Contents (Elt F) → (⟨S16384x7x7, .f32⟩ : BufTy).Contents (Elt F)),
    nullary main_cst_10 (constant S_ .f32 0x00000000#32),
    TRef.unary (TRef.of (T := ⟨S_, .f32⟩) main_cst_10) (TRef.of (T := ⟨S_, .f32⟩) main_call1_v0) id,
    TRef.unary (TRef.of (T := ⟨S_, .f32⟩) main_call1_v0) (TRef.of (T := ⟨S16384x7x7, .f32⟩) main_call1_v1) (broadcastInDim S16384x7x7 ![] bcast_S_S16384x7x7),
    TRef.binary (TRef.of (T := ⟨S16384x7x7, .f32⟩) main_call1_v1) (TRef.of (T := ⟨S16384x7x7, .f32⟩) main_v71) (TRef.of (T := ⟨S16384x7x7, .f32⟩) main_v72) maximumf,
    binary main_v68 main_v72 main_v73 (mulf : (⟨S16384x7x7, .f32⟩ : BufTy).Contents (Elt F) → (⟨S16384x7x7, .f32⟩ : BufTy).Contents (Elt F) → (⟨S16384x7x7, .f32⟩ : BufTy).Contents (Elt F)),
    unary main_v7 main_v74 ((extractStridedSlice S16384x7x7x1 ![0, 0, 0, 2] · slices_S16384x7x7x4_S16384x7x7x1_0_0_0_2) : (⟨S16384x7x7x4, .f32⟩ : BufTy).Contents (Elt F) → (⟨S16384x7x7x1, .f32⟩ : BufTy).Contents (Elt F)),
    reshape main_v74 main_v75 rfl shapeCasts_S16384x7x7x1_S16384x7x7,
    unary main_v7 main_v76 ((extractStridedSlice S16384x7x7x1 ![0, 0, 0, 3] · slices_S16384x7x7x4_S16384x7x7x1_0_0_0_3) : (⟨S16384x7x7x4, .f32⟩ : BufTy).Contents (Elt F) → (⟨S16384x7x7x1, .f32⟩ : BufTy).Contents (Elt F)),
    reshape main_v76 main_v77 rfl shapeCasts_S16384x7x7x1_S16384x7x7,
    binary main_v75 main_v77 main_v78 (mulf : (⟨S16384x7x7, .f32⟩ : BufTy).Contents (Elt F) → (⟨S16384x7x7, .f32⟩ : BufTy).Contents (Elt F) → (⟨S16384x7x7, .f32⟩ : BufTy).Contents (Elt F)),
    unary main_v8 main_v79 ((extractStridedSlice S16384x7x7x1 ![0, 0, 0, 2] · slices_S16384x7x7x4_S16384x7x7x1_0_0_0_2) : (⟨S16384x7x7x4, .f32⟩ : BufTy).Contents (Elt F) → (⟨S16384x7x7x1, .f32⟩ : BufTy).Contents (Elt F)),
    reshape main_v79 main_v80 rfl shapeCasts_S16384x7x7x1_S16384x7x7,
    unary main_v8 main_v81 ((extractStridedSlice S16384x7x7x1 ![0, 0, 0, 3] · slices_S16384x7x7x4_S16384x7x7x1_0_0_0_3) : (⟨S16384x7x7x4, .f32⟩ : BufTy).Contents (Elt F) → (⟨S16384x7x7x1, .f32⟩ : BufTy).Contents (Elt F)),
    reshape main_v81 main_v82 rfl shapeCasts_S16384x7x7x1_S16384x7x7,
    binary main_v80 main_v82 main_v83 (mulf : (⟨S16384x7x7, .f32⟩ : BufTy).Contents (Elt F) → (⟨S16384x7x7, .f32⟩ : BufTy).Contents (Elt F) → (⟨S16384x7x7, .f32⟩ : BufTy).Contents (Elt F)),
    binary main_v78 main_v83 main_v84 (addf : (⟨S16384x7x7, .f32⟩ : BufTy).Contents (Elt F) → (⟨S16384x7x7, .f32⟩ : BufTy).Contents (Elt F) → (⟨S16384x7x7, .f32⟩ : BufTy).Contents (Elt F)),
    binary main_v84 main_v73 main_v85 (subf : (⟨S16384x7x7, .f32⟩ : BufTy).Contents (Elt F) → (⟨S16384x7x7, .f32⟩ : BufTy).Contents (Elt F) → (⟨S16384x7x7, .f32⟩ : BufTy).Contents (Elt F)),
    nullary main_cst_11 (constant S_ .f32 0x2EDBE6FF#32),
    unary main_cst_11 main_v86 (broadcastInDim S16384x7x7 ![] bcast_S_S16384x7x7 : (⟨S_, .f32⟩ : BufTy).Contents (Elt F) → (⟨S16384x7x7, .f32⟩ : BufTy).Contents (Elt F)),
    binary main_v85 main_v86 main_v87 (addf : (⟨S16384x7x7, .f32⟩ : BufTy).Contents (Elt F) → (⟨S16384x7x7, .f32⟩ : BufTy).Contents (Elt F) → (⟨S16384x7x7, .f32⟩ : BufTy).Contents (Elt F)),
    binary main_v73 main_v87 main_v88 (Host.divf : (⟨S16384x7x7, .f32⟩ : BufTy).Contents (Elt F) → (⟨S16384x7x7, .f32⟩ : BufTy).Contents (Elt F) → (⟨S16384x7x7, .f32⟩ : BufTy).Contents (Elt F)),
    unary main_arg0 main_v89 ((extractStridedSlice S16384x7x7x4 ![0, 0, 0, 5] · slices_S16384x7x7x30_S16384x7x7x4_0_0_0_5) : (⟨S16384x7x7x30, .f32⟩ : BufTy).Contents (Elt F) → (⟨S16384x7x7x4, .f32⟩ : BufTy).Contents (Elt F)),
    unary main_arg1 main_v90 ((extractStridedSlice S16384x7x7x4 ![0, 0, 0, 0] · slices_S16384x7x7x30_S16384x7x7x4_0_0_0_0) : (⟨S16384x7x7x30, .f32⟩ : BufTy).Contents (Elt F) → (⟨S16384x7x7x4, .f32⟩ : BufTy).Contents (Elt F)),
    unary main_v89 main_v91 ((extractStridedSlice S16384x7x7x1 ![0, 0, 0, 0] · slices_S16384x7x7x4_S16384x7x7x1_0_0_0_0) : (⟨S16384x7x7x4, .f32⟩ : BufTy).Contents (Elt F) → (⟨S16384x7x7x1, .f32⟩ : BufTy).Contents (Elt F)),
    reshape main_v91 main_v92 rfl shapeCasts_S16384x7x7x1_S16384x7x7,
    unary main_v89 main_v93 ((extractStridedSlice S16384x7x7x1 ![0, 0, 0, 2] · slices_S16384x7x7x4_S16384x7x7x1_0_0_0_2) : (⟨S16384x7x7x4, .f32⟩ : BufTy).Contents (Elt F) → (⟨S16384x7x7x1, .f32⟩ : BufTy).Contents (Elt F)),
    reshape main_v93 main_v94 rfl shapeCasts_S16384x7x7x1_S16384x7x7,
    nullary main_cst_12 (constant S_ .f32 0x40000000#32),
    unary main_cst_12 main_v95 (broadcastInDim S16384x7x7 ![] bcast_S_S16384x7x7 : (⟨S_, .f32⟩ : BufTy).Contents (Elt F) → (⟨S16384x7x7, .f32⟩ : BufTy).Contents (Elt F)),
    binary main_v94 main_v95 main_v96 (Host.divf : (⟨S16384x7x7, .f32⟩ : BufTy).Contents (Elt F) → (⟨S16384x7x7, .f32⟩ : BufTy).Contents (Elt F) → (⟨S16384x7x7, .f32⟩ : BufTy).Contents (Elt F)),
    binary main_v92 main_v96 main_v97 (subf : (⟨S16384x7x7, .f32⟩ : BufTy).Contents (Elt F) → (⟨S16384x7x7, .f32⟩ : BufTy).Contents (Elt F) → (⟨S16384x7x7, .f32⟩ : BufTy).Contents (Elt F)),
    unary main_v89 main_v98 ((extractStridedSlice S16384x7x7x1 ![0, 0, 0, 1] · slices_S16384x7x7x4_S16384x7x7x1_0_0_0_1) : (⟨S16384x7x7x4, .f32⟩ : BufTy).Contents (Elt F) → (⟨S16384x7x7x1, .f32⟩ : BufTy).Contents (Elt F)),
    reshape main_v98 main_v99 rfl shapeCasts_S16384x7x7x1_S16384x7x7,
    unary main_v89 main_v100 ((extractStridedSlice S16384x7x7x1 ![0, 0, 0, 3] · slices_S16384x7x7x4_S16384x7x7x1_0_0_0_3) : (⟨S16384x7x7x4, .f32⟩ : BufTy).Contents (Elt F) → (⟨S16384x7x7x1, .f32⟩ : BufTy).Contents (Elt F)),
    reshape main_v100 main_v101 rfl shapeCasts_S16384x7x7x1_S16384x7x7,
    nullary main_cst_13 (constant S_ .f32 0x40000000#32),
    unary main_cst_13 main_v102 (broadcastInDim S16384x7x7 ![] bcast_S_S16384x7x7 : (⟨S_, .f32⟩ : BufTy).Contents (Elt F) → (⟨S16384x7x7, .f32⟩ : BufTy).Contents (Elt F)),
    binary main_v101 main_v102 main_v103 (Host.divf : (⟨S16384x7x7, .f32⟩ : BufTy).Contents (Elt F) → (⟨S16384x7x7, .f32⟩ : BufTy).Contents (Elt F) → (⟨S16384x7x7, .f32⟩ : BufTy).Contents (Elt F)),
    binary main_v99 main_v103 main_v104 (subf : (⟨S16384x7x7, .f32⟩ : BufTy).Contents (Elt F) → (⟨S16384x7x7, .f32⟩ : BufTy).Contents (Elt F) → (⟨S16384x7x7, .f32⟩ : BufTy).Contents (Elt F)) ]

set_option maxHeartbeats 4000000 in
/-- Operations 125 … 188 of the 316. -/
abbrev ops2 : List (HloOp τ sig (Elt F)) :=
  [ unary main_v89 main_v105 ((extractStridedSlice S16384x7x7x1 ![0, 0, 0, 0] · slices_S16384x7x7x4_S16384x7x7x1_0_0_0_0) : (⟨S16384x7x7x4, .f32⟩ : BufTy).Contents (Elt F) → (⟨S16384x7x7x1, .f32⟩ : BufTy).Contents (Elt F)),
    reshape main_v105 main_v106 rfl shapeCasts_S16384x7x7x1_S16384x7x7,
    unary main_v89 main_v107 ((extractStridedSlice S16384x7x7x1 ![0, 0, 0, 2] · slices_S16384x7x7x4_S16384x7x7x1_0_0_0_2) : (⟨S16384x7x7x4, .f32⟩ : BufTy).Contents (Elt F) → (⟨S16384x7x7x1, .f32⟩ : BufTy).Contents (Elt F)),
    reshape main_v107 main_v108 rfl shapeCasts_S16384x7x7x1_S16384x7x7,
    nullary main_cst_14 (constant S_ .f32 0x40000000#32),
    unary main_cst_14 main_v109 (broadcastInDim S16384x7x7 ![] bcast_S_S16384x7x7 : (⟨S_, .f32⟩ : BufTy).Contents (Elt F) → (⟨S16384x7x7, .f32⟩ : BufTy).Contents (Elt F)),
    binary main_v108 main_v109 main_v110 (Host.divf : (⟨S16384x7x7, .f32⟩ : BufTy).Contents (Elt F) → (⟨S16384x7x7, .f32⟩ : BufTy).Contents (Elt F) → (⟨S16384x7x7, .f32⟩ : BufTy).Contents (Elt F)),
    binary main_v106 main_v110 main_v111 (addf : (⟨S16384x7x7, .f32⟩ : BufTy).Contents (Elt F) → (⟨S16384x7x7, .f32⟩ : BufTy).Contents (Elt F) → (⟨S16384x7x7, .f32⟩ : BufTy).Contents (Elt F)),
    unary main_v89 main_v112 ((extractStridedSlice S16384x7x7x1 ![0, 0, 0, 1] · slices_S16384x7x7x4_S16384x7x7x1_0_0_0_1) : (⟨S16384x7x7x4, .f32⟩ : BufTy).Contents (Elt F) → (⟨S16384x7x7x1, .f32⟩ : BufTy).Contents (Elt F)),
    reshape main_v112 main_v113 rfl shapeCasts_S16384x7x7x1_S16384x7x7,
    unary main_v89 main_v114 ((extractStridedSlice S16384x7x7x1 ![0, 0, 0, 3] · slices_S16384x7x7x4_S16384x7x7x1_0_0_0_3) : (⟨S16384x7x7x4, .f32⟩ : BufTy).Contents (Elt F) → (⟨S16384x7x7x1, .f32⟩ : BufTy).Contents (Elt F)),
    reshape main_v114 main_v115 rfl shapeCasts_S16384x7x7x1_S16384x7x7,
    nullary main_cst_15 (constant S_ .f32 0x40000000#32),
    unary main_cst_15 main_v116 (broadcastInDim S16384x7x7 ![] bcast_S_S16384x7x7 : (⟨S_, .f32⟩ : BufTy).Contents (Elt F) → (⟨S16384x7x7, .f32⟩ : BufTy).Contents (Elt F)),
    binary main_v115 main_v116 main_v117 (Host.divf : (⟨S16384x7x7, .f32⟩ : BufTy).Contents (Elt F) → (⟨S16384x7x7, .f32⟩ : BufTy).Contents (Elt F) → (⟨S16384x7x7, .f32⟩ : BufTy).Contents (Elt F)),
    binary main_v113 main_v117 main_v118 (addf : (⟨S16384x7x7, .f32⟩ : BufTy).Contents (Elt F) → (⟨S16384x7x7, .f32⟩ : BufTy).Contents (Elt F) → (⟨S16384x7x7, .f32⟩ : BufTy).Contents (Elt F)),
    unary main_v90 main_v119 ((extractStridedSlice S16384x7x7x1 ![0, 0, 0, 0] · slices_S16384x7x7x4_S16384x7x7x1_0_0_0_0) : (⟨S16384x7x7x4, .f32⟩ : BufTy).Contents (Elt F) → (⟨S16384x7x7x1, .f32⟩ : BufTy).Contents (Elt F)),
    reshape main_v119 main_v120 rfl shapeCasts_S16384x7x7x1_S16384x7x7,
    unary main_v90 main_v121 ((extractStridedSlice S16384x7x7x1 ![0, 0, 0, 2] · slices_S16384x7x7x4_S16384x7x7x1_0_0_0_2) : (⟨S16384x7x7x4, .f32⟩ : BufTy).Contents (Elt F) → (⟨S16384x7x7x1, .f32⟩ : BufTy).Contents (Elt F)),
    reshape main_v121 main_v122 rfl shapeCasts_S16384x7x7x1_S16384x7x7,
    nullary main_cst_16 (constant S_ .f32 0x40000000#32),
    unary main_cst_16 main_v123 (broadcastInDim S16384x7x7 ![] bcast_S_S16384x7x7 : (⟨S_, .f32⟩ : BufTy).Contents (Elt F) → (⟨S16384x7x7, .f32⟩ : BufTy).Contents (Elt F)),
    binary main_v122 main_v123 main_v124 (Host.divf : (⟨S16384x7x7, .f32⟩ : BufTy).Contents (Elt F) → (⟨S16384x7x7, .f32⟩ : BufTy).Contents (Elt F) → (⟨S16384x7x7, .f32⟩ : BufTy).Contents (Elt F)),
    binary main_v120 main_v124 main_v125 (subf : (⟨S16384x7x7, .f32⟩ : BufTy).Contents (Elt F) → (⟨S16384x7x7, .f32⟩ : BufTy).Contents (Elt F) → (⟨S16384x7x7, .f32⟩ : BufTy).Contents (Elt F)),
    unary main_v90 main_v126 ((extractStridedSlice S16384x7x7x1 ![0, 0, 0, 1] · slices_S16384x7x7x4_S16384x7x7x1_0_0_0_1) : (⟨S16384x7x7x4, .f32⟩ : BufTy).Contents (Elt F) → (⟨S16384x7x7x1, .f32⟩ : BufTy).Contents (Elt F)),
    reshape main_v126 main_v127 rfl shapeCasts_S16384x7x7x1_S16384x7x7,
    unary main_v90 main_v128 ((extractStridedSlice S16384x7x7x1 ![0, 0, 0, 3] · slices_S16384x7x7x4_S16384x7x7x1_0_0_0_3) : (⟨S16384x7x7x4, .f32⟩ : BufTy).Contents (Elt F) → (⟨S16384x7x7x1, .f32⟩ : BufTy).Contents (Elt F)),
    reshape main_v128 main_v129 rfl shapeCasts_S16384x7x7x1_S16384x7x7,
    nullary main_cst_17 (constant S_ .f32 0x40000000#32),
    unary main_cst_17 main_v130 (broadcastInDim S16384x7x7 ![] bcast_S_S16384x7x7 : (⟨S_, .f32⟩ : BufTy).Contents (Elt F) → (⟨S16384x7x7, .f32⟩ : BufTy).Contents (Elt F)),
    binary main_v129 main_v130 main_v131 (Host.divf : (⟨S16384x7x7, .f32⟩ : BufTy).Contents (Elt F) → (⟨S16384x7x7, .f32⟩ : BufTy).Contents (Elt F) → (⟨S16384x7x7, .f32⟩ : BufTy).Contents (Elt F)),
    binary main_v127 main_v131 main_v132 (subf : (⟨S16384x7x7, .f32⟩ : BufTy).Contents (Elt F) → (⟨S16384x7x7, .f32⟩ : BufTy).Contents (Elt F) → (⟨S16384x7x7, .f32⟩ : BufTy).Contents (Elt F)),
    unary main_v90 main_v133 ((extractStridedSlice S16384x7x7x1 ![0, 0, 0, 0] · slices_S16384x7x7x4_S16384x7x7x1_0_0_0_0) : (⟨S16384x7x7x4, .f32⟩ : BufTy).Contents (Elt F) → (⟨S16384x7x7x1, .f32⟩ : BufTy).Contents (Elt F)),
    reshape main_v133 main_v134 rfl shapeCasts_S16384x7x7x1_S16384x7x7,
    unary main_v90 main_v135 ((extractStridedSlice S16384x7x7x1 ![0, 0, 0, 2] · slices_S16384x7x7x4_S16384x7x7x1_0_0_0_2) : (⟨S16384x7x7x4, .f32⟩ : BufTy).Contents (Elt F) → (⟨S16384x7x7x1, .f32⟩ : BufTy).Contents (Elt F)),
    reshape main_v135 main_v136 rfl shapeCasts_S16384x7x7x1_S16384x7x7,
    nullary main_cst_18 (constant S_ .f32 0x40000000#32),
    unary main_cst_18 main_v137 (broadcastInDim S16384x7x7 ![] bcast_S_S16384x7x7 : (⟨S_, .f32⟩ : BufTy).Contents (Elt F) → (⟨S16384x7x7, .f32⟩ : BufTy).Contents (Elt F)),
    binary main_v136 main_v137 main_v138 (Host.divf : (⟨S16384x7x7, .f32⟩ : BufTy).Contents (Elt F) → (⟨S16384x7x7, .f32⟩ : BufTy).Contents (Elt F) → (⟨S16384x7x7, .f32⟩ : BufTy).Contents (Elt F)),
    binary main_v134 main_v138 main_v139 (addf : (⟨S16384x7x7, .f32⟩ : BufTy).Contents (Elt F) → (⟨S16384x7x7, .f32⟩ : BufTy).Contents (Elt F) → (⟨S16384x7x7, .f32⟩ : BufTy).Contents (Elt F)),
    unary main_v90 main_v140 ((extractStridedSlice S16384x7x7x1 ![0, 0, 0, 1] · slices_S16384x7x7x4_S16384x7x7x1_0_0_0_1) : (⟨S16384x7x7x4, .f32⟩ : BufTy).Contents (Elt F) → (⟨S16384x7x7x1, .f32⟩ : BufTy).Contents (Elt F)),
    reshape main_v140 main_v141 rfl shapeCasts_S16384x7x7x1_S16384x7x7,
    unary main_v90 main_v142 ((extractStridedSlice S16384x7x7x1 ![0, 0, 0, 3] · slices_S16384x7x7x4_S16384x7x7x1_0_0_0_3) : (⟨S16384x7x7x4, .f32⟩ : BufTy).Contents (Elt F) → (⟨S16384x7x7x1, .f32⟩ : BufTy).Contents (Elt F)),
    reshape main_v142 main_v143 rfl shapeCasts_S16384x7x7x1_S16384x7x7,
    nullary main_cst_19 (constant S_ .f32 0x40000000#32),
    unary main_cst_19 main_v144 (broadcastInDim S16384x7x7 ![] bcast_S_S16384x7x7 : (⟨S_, .f32⟩ : BufTy).Contents (Elt F) → (⟨S16384x7x7, .f32⟩ : BufTy).Contents (Elt F)),
    binary main_v143 main_v144 main_v145 (Host.divf : (⟨S16384x7x7, .f32⟩ : BufTy).Contents (Elt F) → (⟨S16384x7x7, .f32⟩ : BufTy).Contents (Elt F) → (⟨S16384x7x7, .f32⟩ : BufTy).Contents (Elt F)),
    binary main_v141 main_v145 main_v146 (addf : (⟨S16384x7x7, .f32⟩ : BufTy).Contents (Elt F) → (⟨S16384x7x7, .f32⟩ : BufTy).Contents (Elt F) → (⟨S16384x7x7, .f32⟩ : BufTy).Contents (Elt F)),
    binary main_v111 main_v139 main_v147 (minimumf : (⟨S16384x7x7, .f32⟩ : BufTy).Contents (Elt F) → (⟨S16384x7x7, .f32⟩ : BufTy).Contents (Elt F) → (⟨S16384x7x7, .f32⟩ : BufTy).Contents (Elt F)),
    binary main_v97 main_v125 main_v148 (maximumf : (⟨S16384x7x7, .f32⟩ : BufTy).Contents (Elt F) → (⟨S16384x7x7, .f32⟩ : BufTy).Contents (Elt F) → (⟨S16384x7x7, .f32⟩ : BufTy).Contents (Elt F)),
    binary main_v147 main_v148 main_v149 (subf : (⟨S16384x7x7, .f32⟩ : BufTy).Contents (Elt F) → (⟨S16384x7x7, .f32⟩ : BufTy).Contents (Elt F) → (⟨S16384x7x7, .f32⟩ : BufTy).Contents (Elt F)),
    nullary main_cst_20 (constant S_ .f32 0x00000000#32),
    TRef.unary (TRef.of (T := ⟨S_, .f32⟩) main_cst_20) (TRef.of (T := ⟨S_, .f32⟩) main_call2_v0) id,
    TRef.unary (TRef.of (T := ⟨S_, .f32⟩) main_call2_v0) (TRef.of (T := ⟨S16384x7x7, .f32⟩) main_call2_v1) (broadcastInDim S16384x7x7 ![] bcast_S_S16384x7x7),
    TRef.binary (TRef.of (T := ⟨S16384x7x7, .f32⟩) main_call2_v1) (TRef.of (T := ⟨S16384x7x7, .f32⟩) main_v149) (TRef.of (T := ⟨S16384x7x7, .f32⟩) main_v150) maximumf,
    binary main_v118 main_v146 main_v151 (minimumf : (⟨S16384x7x7, .f32⟩ : BufTy).Contents (Elt F) → (⟨S16384x7x7, .f32⟩ : BufTy).Contents (Elt F) → (⟨S16384x7x7, .f32⟩ : BufTy).Contents (Elt F)),
    binary main_v104 main_v132 main_v152 (maximumf : (⟨S16384x7x7, .f32⟩ : BufTy).Contents (Elt F) → (⟨S16384x7x7, .f32⟩ : BufTy).Contents (Elt F) → (⟨S16384x7x7, .f32⟩ : BufTy).Contents (Elt F)),
    binary main_v151 main_v152 main_v153 (subf : (⟨S16384x7x7, .f32⟩ : BufTy).Contents (Elt F) → (⟨S16384x7x7, .f32⟩ : BufTy).Contents (Elt F) → (⟨S16384x7x7, .f32⟩ : BufTy).Contents (Elt F)),
    nullary main_cst_21 (constant S_ .f32 0x00000000#32),
    TRef.unary (TRef.of (T := ⟨S_, .f32⟩) main_cst_21) (TRef.of (T := ⟨S_, .f32⟩) main_call3_v0) id,
    TRef.unary (TRef.of (T := ⟨S_, .f32⟩) main_call3_v0) (TRef.of (T := ⟨S16384x7x7, .f32⟩) main_call3_v1) (broadcastInDim S16384x7x7 ![] bcast_S_S16384x7x7),
    TRef.binary (TRef.of (T := ⟨S16384x7x7, .f32⟩) main_call3_v1) (TRef.of (T := ⟨S16384x7x7, .f32⟩) main_v153) (TRef.of (T := ⟨S16384x7x7, .f32⟩) main_v154) maximumf,
    binary main_v150 main_v154 main_v155 (mulf : (⟨S16384x7x7, .f32⟩ : BufTy).Contents (Elt F) → (⟨S16384x7x7, .f32⟩ : BufTy).Contents (Elt F) → (⟨S16384x7x7, .f32⟩ : BufTy).Contents (Elt F)),
    unary main_v89 main_v156 ((extractStridedSlice S16384x7x7x1 ![0, 0, 0, 2] · slices_S16384x7x7x4_S16384x7x7x1_0_0_0_2) : (⟨S16384x7x7x4, .f32⟩ : BufTy).Contents (Elt F) → (⟨S16384x7x7x1, .f32⟩ : BufTy).Contents (Elt F)) ]

set_option maxHeartbeats 4000000 in
/-- Operations 189 … 248 of the 316. -/
abbrev ops3 : List (HloOp τ sig (Elt F)) :=
  [ reshape main_v156 main_v157 rfl shapeCasts_S16384x7x7x1_S16384x7x7,
    unary main_v89 main_v158 ((extractStridedSlice S16384x7x7x1 ![0, 0, 0, 3] · slices_S16384x7x7x4_S16384x7x7x1_0_0_0_3) : (⟨S16384x7x7x4, .f32⟩ : BufTy).Contents (Elt F) → (⟨S16384x7x7x1, .f32⟩ : BufTy).Contents (Elt F)),
    reshape main_v158 main_v159 rfl shapeCasts_S16384x7x7x1_S16384x7x7,
    binary main_v157 main_v159 main_v160 (mulf : (⟨S16384x7x7, .f32⟩ : BufTy).Contents (Elt F) → (⟨S16384x7x7, .f32⟩ : BufTy).Contents (Elt F) → (⟨S16384x7x7, .f32⟩ : BufTy).Contents (Elt F)),
    unary main_v90 main_v161 ((extractStridedSlice S16384x7x7x1 ![0, 0, 0, 2] · slices_S16384x7x7x4_S16384x7x7x1_0_0_0_2) : (⟨S16384x7x7x4, .f32⟩ : BufTy).Contents (Elt F) → (⟨S16384x7x7x1, .f32⟩ : BufTy).Contents (Elt F)),
    reshape main_v161 main_v162 rfl shapeCasts_S16384x7x7x1_S16384x7x7,
    unary main_v90 main_v163 ((extractStridedSlice S16384x7x7x1 ![0, 0, 0, 3] · slices_S16384x7x7x4_S16384x7x7x1_0_0_0_3) : (⟨S16384x7x7x4, .f32⟩ : BufTy).Contents (Elt F) → (⟨S16384x7x7x1, .f32⟩ : BufTy).Contents (Elt F)),
    reshape main_v163 main_v164 rfl shapeCasts_S16384x7x7x1_S16384x7x7,
    binary main_v162 main_v164 main_v165 (mulf : (⟨S16384x7x7, .f32⟩ : BufTy).Contents (Elt F) → (⟨S16384x7x7, .f32⟩ : BufTy).Contents (Elt F) → (⟨S16384x7x7, .f32⟩ : BufTy).Contents (Elt F)),
    binary main_v160 main_v165 main_v166 (addf : (⟨S16384x7x7, .f32⟩ : BufTy).Contents (Elt F) → (⟨S16384x7x7, .f32⟩ : BufTy).Contents (Elt F) → (⟨S16384x7x7, .f32⟩ : BufTy).Contents (Elt F)),
    binary main_v166 main_v155 main_v167 (subf : (⟨S16384x7x7, .f32⟩ : BufTy).Contents (Elt F) → (⟨S16384x7x7, .f32⟩ : BufTy).Contents (Elt F) → (⟨S16384x7x7, .f32⟩ : BufTy).Contents (Elt F)),
    nullary main_cst_22 (constant S_ .f32 0x2EDBE6FF#32),
    unary main_cst_22 main_v168 (broadcastInDim S16384x7x7 ![] bcast_S_S16384x7x7 : (⟨S_, .f32⟩ : BufTy).Contents (Elt F) → (⟨S16384x7x7, .f32⟩ : BufTy).Contents (Elt F)),
    binary main_v167 main_v168 main_v169 (addf : (⟨S16384x7x7, .f32⟩ : BufTy).Contents (Elt F) → (⟨S16384x7x7, .f32⟩ : BufTy).Contents (Elt F) → (⟨S16384x7x7, .f32⟩ : BufTy).Contents (Elt F)),
    binary main_v155 main_v169 main_v170 (Host.divf : (⟨S16384x7x7, .f32⟩ : BufTy).Contents (Elt F) → (⟨S16384x7x7, .f32⟩ : BufTy).Contents (Elt F) → (⟨S16384x7x7, .f32⟩ : BufTy).Contents (Elt F)),
    binary main_v88 main_v170 main_v171 (cmpf .ogt : (⟨S16384x7x7, .f32⟩ : BufTy).Contents (Elt F) → (⟨S16384x7x7, .f32⟩ : BufTy).Contents (Elt F) → (⟨S16384x7x7, .i1⟩ : BufTy).Contents (Elt F)),
    unary main_v171 main_v172 (uitofp .f32 : (⟨S16384x7x7, .i1⟩ : BufTy).Contents (Elt F) → (⟨S16384x7x7, .f32⟩ : BufTy).Contents (Elt F)),
    unary main_v172 main_v173 (broadcastInDim S16384x7x7x1 ![0, 1, 2] bcast_S16384x7x7_S16384x7x7x1_0_1_2 : (⟨S16384x7x7, .f32⟩ : BufTy).Contents (Elt F) → (⟨S16384x7x7x1, .f32⟩ : BufTy).Contents (Elt F)),
    unary main_arg0 main_v174 ((extractStridedSlice S16384x7x7x2 ![0, 0, 0, 0] · slices_S16384x7x7x30_S16384x7x7x2_0_0_0_0) : (⟨S16384x7x7x30, .f32⟩ : BufTy).Contents (Elt F) → (⟨S16384x7x7x2, .f32⟩ : BufTy).Contents (Elt F)),
    unary main_v173 main_v175 (broadcastInDim S16384x7x7x2 ![0, 1, 2, 3] bcast_S16384x7x7x1_S16384x7x7x2_0_1_2_3 : (⟨S16384x7x7x1, .f32⟩ : BufTy).Contents (Elt F) → (⟨S16384x7x7x2, .f32⟩ : BufTy).Contents (Elt F)),
    binary main_v175 main_v174 main_v176 (mulf : (⟨S16384x7x7x2, .f32⟩ : BufTy).Contents (Elt F) → (⟨S16384x7x7x2, .f32⟩ : BufTy).Contents (Elt F) → (⟨S16384x7x7x2, .f32⟩ : BufTy).Contents (Elt F)),
    nullary main_cst_23 (constant S_ .f32 0x3F800000#32),
    unary main_cst_23 main_v177 (broadcastInDim S16384x7x7x1 ![] bcast_S_S16384x7x7x1 : (⟨S_, .f32⟩ : BufTy).Contents (Elt F) → (⟨S16384x7x7x1, .f32⟩ : BufTy).Contents (Elt F)),
    binary main_v177 main_v173 main_v178 (subf : (⟨S16384x7x7x1, .f32⟩ : BufTy).Contents (Elt F) → (⟨S16384x7x7x1, .f32⟩ : BufTy).Contents (Elt F) → (⟨S16384x7x7x1, .f32⟩ : BufTy).Contents (Elt F)),
    unary main_arg0 main_v179 ((extractStridedSlice S16384x7x7x2 ![0, 0, 0, 5] · slices_S16384x7x7x30_S16384x7x7x2_0_0_0_5) : (⟨S16384x7x7x30, .f32⟩ : BufTy).Contents (Elt F) → (⟨S16384x7x7x2, .f32⟩ : BufTy).Contents (Elt F)),
    unary main_v178 main_v180 (broadcastInDim S16384x7x7x2 ![0, 1, 2, 3] bcast_S16384x7x7x1_S16384x7x7x2_0_1_2_3 : (⟨S16384x7x7x1, .f32⟩ : BufTy).Contents (Elt F) → (⟨S16384x7x7x2, .f32⟩ : BufTy).Contents (Elt F)),
    binary main_v180 main_v179 main_v181 (mulf : (⟨S16384x7x7x2, .f32⟩ : BufTy).Contents (Elt F) → (⟨S16384x7x7x2, .f32⟩ : BufTy).Contents (Elt F) → (⟨S16384x7x7x2, .f32⟩ : BufTy).Contents (Elt F)),
    binary main_v176 main_v181 main_v182 (addf : (⟨S16384x7x7x2, .f32⟩ : BufTy).Contents (Elt F) → (⟨S16384x7x7x2, .f32⟩ : BufTy).Contents (Elt F) → (⟨S16384x7x7x2, .f32⟩ : BufTy).Contents (Elt F)),
    unary main_arg1 main_v183 ((extractStridedSlice S16384x7x7x2 ![0, 0, 0, 0] · slices_S16384x7x7x30_S16384x7x7x2_0_0_0_0) : (⟨S16384x7x7x30, .f32⟩ : BufTy).Contents (Elt F) → (⟨S16384x7x7x2, .f32⟩ : BufTy).Contents (Elt F)),
    unary main_v173 main_v184 (broadcastInDim S16384x7x7x2 ![0, 1, 2, 3] bcast_S16384x7x7x1_S16384x7x7x2_0_1_2_3 : (⟨S16384x7x7x1, .f32⟩ : BufTy).Contents (Elt F) → (⟨S16384x7x7x2, .f32⟩ : BufTy).Contents (Elt F)),
    binary main_v184 main_v183 main_v185 (mulf : (⟨S16384x7x7x2, .f32⟩ : BufTy).Contents (Elt F) → (⟨S16384x7x7x2, .f32⟩ : BufTy).Contents (Elt F) → (⟨S16384x7x7x2, .f32⟩ : BufTy).Contents (Elt F)),
    nullary main_cst_24 (constant S_ .f32 0x3F800000#32),
    unary main_cst_24 main_v186 (broadcastInDim S16384x7x7x1 ![] bcast_S_S16384x7x7x1 : (⟨S_, .f32⟩ : BufTy).Contents (Elt F) → (⟨S16384x7x7x1, .f32⟩ : BufTy).Contents (Elt F)),
    binary main_v186 main_v173 main_v187 (subf : (⟨S16384x7x7x1, .f32⟩ : BufTy).Contents (Elt F) → (⟨S16384x7x7x1, .f32⟩ : BufTy).Contents (Elt F) → (⟨S16384x7x7x1, .f32⟩ : BufTy).Contents (Elt F)),
    unary main_arg1 main_v188 ((extractStridedSlice S16384x7x7x2 ![0, 0, 0, 5] · slices_S16384x7x7x30_S16384x7x7x2_0_0_0_5) : (⟨S16384x7x7x30, .f32⟩ : BufTy).Contents (Elt F) → (⟨S16384x7x7x2, .f32⟩ : BufTy).Contents (Elt F)),
    unary main_v187 main_v189 (broadcastInDim S16384x7x7x2 ![0, 1, 2, 3] bcast_S16384x7x7x1_S16384x7x7x2_0_1_2_3 : (⟨S16384x7x7x1, .f32⟩ : BufTy).Contents (Elt F) → (⟨S16384x7x7x2, .f32⟩ : BufTy).Contents (Elt F)),
    binary main_v189 main_v188 main_v190 (mulf : (⟨S16384x7x7x2, .f32⟩ : BufTy).Contents (Elt F) → (⟨S16384x7x7x2, .f32⟩ : BufTy).Contents (Elt F) → (⟨S16384x7x7x2, .f32⟩ : BufTy).Contents (Elt F)),
    binary main_v185 main_v190 main_v191 (addf : (⟨S16384x7x7x2, .f32⟩ : BufTy).Contents (Elt F) → (⟨S16384x7x7x2, .f32⟩ : BufTy).Contents (Elt F) → (⟨S16384x7x7x2, .f32⟩ : BufTy).Contents (Elt F)),
    unary main_arg0 main_v192 ((extractStridedSlice S16384x7x7x2 ![0, 0, 0, 2] · slices_S16384x7x7x30_S16384x7x7x2_0_0_0_2) : (⟨S16384x7x7x30, .f32⟩ : BufTy).Contents (Elt F) → (⟨S16384x7x7x2, .f32⟩ : BufTy).Contents (Elt F)),
    unary main_v173 main_v193 (broadcastInDim S16384x7x7x2 ![0, 1, 2, 3] bcast_S16384x7x7x1_S16384x7x7x2_0_1_2_3 : (⟨S16384x7x7x1, .f32⟩ : BufTy).Contents (Elt F) → (⟨S16384x7x7x2, .f32⟩ : BufTy).Contents (Elt F)),
    binary main_v193 main_v192 main_v194 (mulf : (⟨S16384x7x7x2, .f32⟩ : BufTy).Contents (Elt F) → (⟨S16384x7x7x2, .f32⟩ : BufTy).Contents (Elt F) → (⟨S16384x7x7x2, .f32⟩ : BufTy).Contents (Elt F)),
    nullary main_cst_25 (constant S_ .f32 0x3F800000#32),
    unary main_cst_25 main_v195 (broadcastInDim S16384x7x7x1 ![] bcast_S_S16384x7x7x1 : (⟨S_, .f32⟩ : BufTy).Contents (Elt F) → (⟨S16384x7x7x1, .f32⟩ : BufTy).Contents (Elt F)),
    binary main_v195 main_v173 main_v196 (subf : (⟨S16384x7x7x1, .f32⟩ : BufTy).Contents (Elt F) → (⟨S16384x7x7x1, .f32⟩ : BufTy).Contents (Elt F) → (⟨S16384x7x7x1, .f32⟩ : BufTy).Contents (Elt F)),
    unary main_arg0 main_v197 ((extractStridedSlice S16384x7x7x2 ![0, 0, 0, 7] · slices_S16384x7x7x30_S16384x7x7x2_0_0_0_7) : (⟨S16384x7x7x30, .f32⟩ : BufTy).Contents (Elt F) → (⟨S16384x7x7x2, .f32⟩ : BufTy).Contents (Elt F)),
    unary main_v196 main_v198 (broadcastInDim S16384x7x7x2 ![0, 1, 2, 3] bcast_S16384x7x7x1_S16384x7x7x2_0_1_2_3 : (⟨S16384x7x7x1, .f32⟩ : BufTy).Contents (Elt F) → (⟨S16384x7x7x2, .f32⟩ : BufTy).Contents (Elt F)),
    binary main_v198 main_v197 main_v199 (mulf : (⟨S16384x7x7x2, .f32⟩ : BufTy).Contents (Elt F) → (⟨S16384x7x7x2, .f32⟩ : BufTy).Contents (Elt F) → (⟨S16384x7x7x2, .f32⟩ : BufTy).Contents (Elt F)),
    binary main_v194 main_v199 main_v200 (addf : (⟨S16384x7x7x2, .f32⟩ : BufTy).Contents (Elt F) → (⟨S16384x7x7x2, .f32⟩ : BufTy).Contents (Elt F) → (⟨S16384x7x7x2, .f32⟩ : BufTy).Contents (Elt F)),
    unary main_arg1 main_v201 ((extractStridedSlice S16384x7x7x2 ![0, 0, 0, 2] · slices_S16384x7x7x30_S16384x7x7x2_0_0_0_2) : (⟨S16384x7x7x30, .f32⟩ : BufTy).Contents (Elt F) → (⟨S16384x7x7x2, .f32⟩ : BufTy).Contents (Elt F)),
    unary main_v173 main_v202 (broadcastInDim S16384x7x7x2 ![0, 1, 2, 3] bcast_S16384x7x7x1_S16384x7x7x2_0_1_2_3 : (⟨S16384x7x7x1, .f32⟩ : BufTy).Contents (Elt F) → (⟨S16384x7x7x2, .f32⟩ : BufTy).Contents (Elt F)),
    binary main_v202 main_v201 main_v203 (mulf : (⟨S16384x7x7x2, .f32⟩ : BufTy).Contents (Elt F) → (⟨S16384x7x7x2, .f32⟩ : BufTy).Contents (Elt F) → (⟨S16384x7x7x2, .f32⟩ : BufTy).Contents (Elt F)),
    nullary main_cst_26 (constant S_ .f32 0x3F800000#32),
    unary main_cst_26 main_v204 (broadcastInDim S16384x7x7x1 ![] bcast_S_S16384x7x7x1 : (⟨S_, .f32⟩ : BufTy).Contents (Elt F) → (⟨S16384x7x7x1, .f32⟩ : BufTy).Contents (Elt F)),
    binary main_v204 main_v173 main_v205 (subf : (⟨S16384x7x7x1, .f32⟩ : BufTy).Contents (Elt F) → (⟨S16384x7x7x1, .f32⟩ : BufTy).Contents (Elt F) → (⟨S16384x7x7x1, .f32⟩ : BufTy).Contents (Elt F)),
    unary main_arg1 main_v206 ((extractStridedSlice S16384x7x7x2 ![0, 0, 0, 7] · slices_S16384x7x7x30_S16384x7x7x2_0_0_0_7) : (⟨S16384x7x7x30, .f32⟩ : BufTy).Contents (Elt F) → (⟨S16384x7x7x2, .f32⟩ : BufTy).Contents (Elt F)),
    unary main_v205 main_v207 (broadcastInDim S16384x7x7x2 ![0, 1, 2, 3] bcast_S16384x7x7x1_S16384x7x7x2_0_1_2_3 : (⟨S16384x7x7x1, .f32⟩ : BufTy).Contents (Elt F) → (⟨S16384x7x7x2, .f32⟩ : BufTy).Contents (Elt F)),
    binary main_v207 main_v206 main_v208 (mulf : (⟨S16384x7x7x2, .f32⟩ : BufTy).Contents (Elt F) → (⟨S16384x7x7x2, .f32⟩ : BufTy).Contents (Elt F) → (⟨S16384x7x7x2, .f32⟩ : BufTy).Contents (Elt F)),
    binary main_v203 main_v208 main_v209 (addf : (⟨S16384x7x7x2, .f32⟩ : BufTy).Contents (Elt F) → (⟨S16384x7x7x2, .f32⟩ : BufTy).Contents (Elt F) → (⟨S16384x7x7x2, .f32⟩ : BufTy).Contents (Elt F)),
    unary main_arg0 main_v210 ((extractStridedSlice S16384x7x7x1 ![0, 0, 0, 4] · slices_S16384x7x7x30_S16384x7x7x1_0_0_0_4) : (⟨S16384x7x7x30, .f32⟩ : BufTy).Contents (Elt F) → (⟨S16384x7x7x1, .f32⟩ : BufTy).Contents (Elt F)),
    reshape main_v210 main_v211 rfl shapeCasts_S16384x7x7x1_S16384x7x7 ]

set_option maxHeartbeats 4000000 in
/-- Operations 249 … 308 of the 316. -/
abbrev ops4 : List (HloOp τ sig (Elt F)) :=
  [ unary main_arg0 main_v212 ((extractStridedSlice S16384x7x7x1 ![0, 0, 0, 9] · slices_S16384x7x7x30_S16384x7x7x1_0_0_0_9) : (⟨S16384x7x7x30, .f32⟩ : BufTy).Contents (Elt F) → (⟨S16384x7x7x1, .f32⟩ : BufTy).Contents (Elt F)),
    reshape main_v212 main_v213 rfl shapeCasts_S16384x7x7x1_S16384x7x7,
    TRef.ternary (TRef.of (T := ⟨S16384x7x7, .i1⟩) main_v171) (TRef.of (T := ⟨S16384x7x7, .f32⟩) main_v211) (TRef.of (T := ⟨S16384x7x7, .f32⟩) main_v213) (TRef.of (T := ⟨S16384x7x7, .f32⟩) main_v214) select,
    unary main_arg0 main_v215 ((extractStridedSlice S16384x7x7x1 ![0, 0, 0, 9] · slices_S16384x7x7x30_S16384x7x7x1_0_0_0_9) : (⟨S16384x7x7x30, .f32⟩ : BufTy).Contents (Elt F) → (⟨S16384x7x7x1, .f32⟩ : BufTy).Contents (Elt F)),
    reshape main_v215 main_v216 rfl shapeCasts_S16384x7x7x1_S16384x7x7,
    unary main_arg0 main_v217 ((extractStridedSlice S16384x7x7x1 ![0, 0, 0, 4] · slices_S16384x7x7x30_S16384x7x7x1_0_0_0_4) : (⟨S16384x7x7x30, .f32⟩ : BufTy).Contents (Elt F) → (⟨S16384x7x7x1, .f32⟩ : BufTy).Contents (Elt F)),
    reshape main_v217 main_v218 rfl shapeCasts_S16384x7x7x1_S16384x7x7,
    TRef.ternary (TRef.of (T := ⟨S16384x7x7, .i1⟩) main_v171) (TRef.of (T := ⟨S16384x7x7, .f32⟩) main_v216) (TRef.of (T := ⟨S16384x7x7, .f32⟩) main_v218) (TRef.of (T := ⟨S16384x7x7, .f32⟩) main_v219) select,
    TRef.ternary (TRef.of (T := ⟨S16384x7x7, .i1⟩) main_v171) (TRef.of (T := ⟨S16384x7x7, .f32⟩) main_v88) (TRef.of (T := ⟨S16384x7x7, .f32⟩) main_v170) (TRef.of (T := ⟨S16384x7x7, .f32⟩) main_v220) select,
    TRef.ternary (TRef.of (T := ⟨S16384x7x7, .i1⟩) main_v171) (TRef.of (T := ⟨S16384x7x7, .f32⟩) main_v170) (TRef.of (T := ⟨S16384x7x7, .f32⟩) main_v88) (TRef.of (T := ⟨S16384x7x7, .f32⟩) main_v221) select,
    binary main_v182 main_v191 main_v222 (subf : (⟨S16384x7x7x2, .f32⟩ : BufTy).Contents (Elt F) → (⟨S16384x7x7x2, .f32⟩ : BufTy).Contents (Elt F) → (⟨S16384x7x7x2, .f32⟩ : BufTy).Contents (Elt F)),
    binary main_v222 main_v222 main_v223 (mulf : (⟨S16384x7x7x2, .f32⟩ : BufTy).Contents (Elt F) → (⟨S16384x7x7x2, .f32⟩ : BufTy).Contents (Elt F) → (⟨S16384x7x7x2, .f32⟩ : BufTy).Contents (Elt F)),
    nullary main_cst_27 (constant S_ .f32 0x00000000#32),
    binary main_v223 main_cst_27 main_v224 ((fun x v => Host.reduceAdd x v reducesTo_S16384x7x7x2_S16384x7x7_d3 h_S_) : (⟨S16384x7x7x2, .f32⟩ : BufTy).Contents (Elt F) → (⟨S_, .f32⟩ : BufTy).Contents (Elt F) → (⟨S16384x7x7, .f32⟩ : BufTy).Contents (Elt F)),
    binary main_v4 main_v224 main_v225 (mulf : (⟨S16384x7x7, .f32⟩ : BufTy).Contents (Elt F) → (⟨S16384x7x7, .f32⟩ : BufTy).Contents (Elt F) → (⟨S16384x7x7, .f32⟩ : BufTy).Contents (Elt F)),
    nullary main_cst_28 (constant S_ .f32 0x00000000#32),
    binary main_v225 main_cst_28 main_v226 ((fun x v => Host.reduceAdd x v reducesTo_S16384x7x7_S_d0_1_2 h_S_) : (⟨S16384x7x7, .f32⟩ : BufTy).Contents (Elt F) → (⟨S_, .f32⟩ : BufTy).Contents (Elt F) → (⟨S_, .f32⟩ : BufTy).Contents (Elt F)),
    nullary main_cst_29 (constant S_ .f32 0x40A00000#32),
    binary main_cst_29 main_v226 main_v227 (mulf : (⟨S_, .f32⟩ : BufTy).Contents (Elt F) → (⟨S_, .f32⟩ : BufTy).Contents (Elt F) → (⟨S_, .f32⟩ : BufTy).Contents (Elt F)),
    unary main_v200 main_v228 (Host.sqrt : (⟨S16384x7x7x2, .f32⟩ : BufTy).Contents (Elt F) → (⟨S16384x7x7x2, .f32⟩ : BufTy).Contents (Elt F)),
    unary main_v209 main_v229 (Host.sqrt : (⟨S16384x7x7x2, .f32⟩ : BufTy).Contents (Elt F) → (⟨S16384x7x7x2, .f32⟩ : BufTy).Contents (Elt F)),
    binary main_v228 main_v229 main_v230 (subf : (⟨S16384x7x7x2, .f32⟩ : BufTy).Contents (Elt F) → (⟨S16384x7x7x2, .f32⟩ : BufTy).Contents (Elt F) → (⟨S16384x7x7x2, .f32⟩ : BufTy).Contents (Elt F)),
    binary main_v230 main_v230 main_v231 (mulf : (⟨S16384x7x7x2, .f32⟩ : BufTy).Contents (Elt F) → (⟨S16384x7x7x2, .f32⟩ : BufTy).Contents (Elt F) → (⟨S16384x7x7x2, .f32⟩ : BufTy).Contents (Elt F)),
    nullary main_cst_30 (constant S_ .f32 0x00000000#32),
    binary main_v231 main_cst_30 main_v232 ((fun x v => Host.reduceAdd x v reducesTo_S16384x7x7x2_S16384x7x7_d3 h_S_) : (⟨S16384x7x7x2, .f32⟩ : BufTy).Contents (Elt F) → (⟨S_, .f32⟩ : BufTy).Contents (Elt F) → (⟨S16384x7x7, .f32⟩ : BufTy).Contents (Elt F)),
    binary main_v4 main_v232 main_v233 (mulf : (⟨S16384x7x7, .f32⟩ : BufTy).Contents (Elt F) → (⟨S16384x7x7, .f32⟩ : BufTy).Contents (Elt F) → (⟨S16384x7x7, .f32⟩ : BufTy).Contents (Elt F)),
    nullary main_cst_31 (constant S_ .f32 0x00000000#32),
    binary main_v233 main_cst_31 main_v234 ((fun x v => Host.reduceAdd x v reducesTo_S16384x7x7_S_d0_1_2 h_S_) : (⟨S16384x7x7, .f32⟩ : BufTy).Contents (Elt F) → (⟨S_, .f32⟩ : BufTy).Contents (Elt F) → (⟨S_, .f32⟩ : BufTy).Contents (Elt F)),
    binary main_v214 main_v220 main_v235 (subf : (⟨S16384x7x7, .f32⟩ : BufTy).Contents (Elt F) → (⟨S16384x7x7, .f32⟩ : BufTy).Contents (Elt F) → (⟨S16384x7x7, .f32⟩ : BufTy).Contents (Elt F)),
    binary main_v235 main_v235 main_v236 (mulf : (⟨S16384x7x7, .f32⟩ : BufTy).Contents (Elt F) → (⟨S16384x7x7, .f32⟩ : BufTy).Contents (Elt F) → (⟨S16384x7x7, .f32⟩ : BufTy).Contents (Elt F)),
    binary main_v4 main_v236 main_v237 (mulf : (⟨S16384x7x7, .f32⟩ : BufTy).Contents (Elt F) → (⟨S16384x7x7, .f32⟩ : BufTy).Contents (Elt F) → (⟨S16384x7x7, .f32⟩ : BufTy).Contents (Elt F)),
    nullary main_cst_32 (constant S_ .f32 0x00000000#32),
    binary main_v237 main_cst_32 main_v238 ((fun x v => Host.reduceAdd x v reducesTo_S16384x7x7_S_d0_1_2 h_S_) : (⟨S16384x7x7, .f32⟩ : BufTy).Contents (Elt F) → (⟨S_, .f32⟩ : BufTy).Contents (Elt F) → (⟨S_, .f32⟩ : BufTy).Contents (Elt F)),
    binary main_v219 main_v221 main_v239 (subf : (⟨S16384x7x7, .f32⟩ : BufTy).Contents (Elt F) → (⟨S16384x7x7, .f32⟩ : BufTy).Contents (Elt F) → (⟨S16384x7x7, .f32⟩ : BufTy).Contents (Elt F)),
    binary main_v239 main_v239 main_v240 (mulf : (⟨S16384x7x7, .f32⟩ : BufTy).Contents (Elt F) → (⟨S16384x7x7, .f32⟩ : BufTy).Contents (Elt F) → (⟨S16384x7x7, .f32⟩ : BufTy).Contents (Elt F)),
    binary main_v4 main_v240 main_v241 (mulf : (⟨S16384x7x7, .f32⟩ : BufTy).Contents (Elt F) → (⟨S16384x7x7, .f32⟩ : BufTy).Contents (Elt F) → (⟨S16384x7x7, .f32⟩ : BufTy).Contents (Elt F)),
    nullary main_cst_33 (constant S_ .f32 0x00000000#32),
    binary main_v241 main_cst_33 main_v242 ((fun x v => Host.reduceAdd x v reducesTo_S16384x7x7_S_d0_1_2 h_S_) : (⟨S16384x7x7, .f32⟩ : BufTy).Contents (Elt F) → (⟨S_, .f32⟩ : BufTy).Contents (Elt F) → (⟨S_, .f32⟩ : BufTy).Contents (Elt F)),
    nullary main_cst_34 (constant S_ .f32 0x3F000000#32),
    binary main_cst_34 main_v242 main_v243 (mulf : (⟨S_, .f32⟩ : BufTy).Contents (Elt F) → (⟨S_, .f32⟩ : BufTy).Contents (Elt F) → (⟨S_, .f32⟩ : BufTy).Contents (Elt F)),
    unary main_arg0 main_v244 ((extractStridedSlice S16384x7x7x1 ![0, 0, 0, 4] · slices_S16384x7x7x30_S16384x7x7x1_0_0_0_4) : (⟨S16384x7x7x30, .f32⟩ : BufTy).Contents (Elt F) → (⟨S16384x7x7x1, .f32⟩ : BufTy).Contents (Elt F)),
    reshape main_v244 main_v245 rfl shapeCasts_S16384x7x7x1_S16384x7x7,
    binary main_v245 main_v245 main_v246 (mulf : (⟨S16384x7x7, .f32⟩ : BufTy).Contents (Elt F) → (⟨S16384x7x7, .f32⟩ : BufTy).Contents (Elt F) → (⟨S16384x7x7, .f32⟩ : BufTy).Contents (Elt F)),
    unary main_arg0 main_v247 ((extractStridedSlice S16384x7x7x1 ![0, 0, 0, 9] · slices_S16384x7x7x30_S16384x7x7x1_0_0_0_9) : (⟨S16384x7x7x30, .f32⟩ : BufTy).Contents (Elt F) → (⟨S16384x7x7x1, .f32⟩ : BufTy).Contents (Elt F)),
    reshape main_v247 main_v248 rfl shapeCasts_S16384x7x7x1_S16384x7x7,
    binary main_v248 main_v248 main_v249 (mulf : (⟨S16384x7x7, .f32⟩ : BufTy).Contents (Elt F) → (⟨S16384x7x7, .f32⟩ : BufTy).Contents (Elt F) → (⟨S16384x7x7, .f32⟩ : BufTy).Contents (Elt F)),
    binary main_v246 main_v249 main_v250 (addf : (⟨S16384x7x7, .f32⟩ : BufTy).Contents (Elt F) → (⟨S16384x7x7, .f32⟩ : BufTy).Contents (Elt F) → (⟨S16384x7x7, .f32⟩ : BufTy).Contents (Elt F)),
    binary main_v6 main_v250 main_v251 (mulf : (⟨S16384x7x7, .f32⟩ : BufTy).Contents (Elt F) → (⟨S16384x7x7, .f32⟩ : BufTy).Contents (Elt F) → (⟨S16384x7x7, .f32⟩ : BufTy).Contents (Elt F)),
    nullary main_cst_35 (constant S_ .f32 0x00000000#32),
    binary main_v251 main_cst_35 main_v252 ((fun x v => Host.reduceAdd x v reducesTo_S16384x7x7_S_d0_1_2 h_S_) : (⟨S16384x7x7, .f32⟩ : BufTy).Contents (Elt F) → (⟨S_, .f32⟩ : BufTy).Contents (Elt F) → (⟨S_, .f32⟩ : BufTy).Contents (Elt F)),
    nullary main_cst_36 (constant S_ .f32 0x3F000000#32),
    binary main_cst_36 main_v252 main_v253 (mulf : (⟨S_, .f32⟩ : BufTy).Contents (Elt F) → (⟨S_, .f32⟩ : BufTy).Contents (Elt F) → (⟨S_, .f32⟩ : BufTy).Contents (Elt F)),
    unary main_arg0 main_v254 ((extractStridedSlice S16384x7x7x20 ![0, 0, 0, 10] · slices_S16384x7x7x30_S16384x7x7x20_0_0_0_10) : (⟨S16384x7x7x30, .f32⟩ : BufTy).Contents (Elt F) → (⟨S16384x7x7x20, .f32⟩ : BufTy).Contents (Elt F)),
    unary main_arg1 main_v255 ((extractStridedSlice S16384x7x7x20 ![0, 0, 0, 10] · slices_S16384x7x7x30_S16384x7x7x20_0_0_0_10) : (⟨S16384x7x7x30, .f32⟩ : BufTy).Contents (Elt F) → (⟨S16384x7x7x20, .f32⟩ : BufTy).Contents (Elt F)),
    binary main_v254 main_v255 main_v256 (subf : (⟨S16384x7x7x20, .f32⟩ : BufTy).Contents (Elt F) → (⟨S16384x7x7x20, .f32⟩ : BufTy).Contents (Elt F) → (⟨S16384x7x7x20, .f32⟩ : BufTy).Contents (Elt F)),
    binary main_v256 main_v256 main_v257 (mulf : (⟨S16384x7x7x20, .f32⟩ : BufTy).Contents (Elt F) → (⟨S16384x7x7x20, .f32⟩ : BufTy).Contents (Elt F) → (⟨S16384x7x7x20, .f32⟩ : BufTy).Contents (Elt F)),
    nullary main_cst_37 (constant S_ .f32 0x00000000#32),
    binary main_v257 main_cst_37 main_v258 ((fun x v => Host.reduceAdd x v reducesTo_S16384x7x7x20_S16384x7x7_d3 h_S_) : (⟨S16384x7x7x20, .f32⟩ : BufTy).Contents (Elt F) → (⟨S_, .f32⟩ : BufTy).Contents (Elt F) → (⟨S16384x7x7, .f32⟩ : BufTy).Contents (Elt F)),
    binary main_v4 main_v258 main_v259 (mulf : (⟨S16384x7x7, .f32⟩ : BufTy).Contents (Elt F) → (⟨S16384x7x7, .f32⟩ : BufTy).Contents (Elt F) → (⟨S16384x7x7, .f32⟩ : BufTy).Contents (Elt F)),
    nullary main_cst_38 (constant S_ .f32 0x00000000#32) ]

set_option maxHeartbeats 4000000 in
/-- Operations 309 … 316 of the 316. -/
abbrev ops5 : List (HloOp τ sig (Elt F)) :=
  [ binary main_v259 main_cst_38 main_v260 ((fun x v => Host.reduceAdd x v reducesTo_S16384x7x7_S_d0_1_2 h_S_) : (⟨S16384x7x7, .f32⟩ : BufTy).Contents (Elt F) → (⟨S_, .f32⟩ : BufTy).Contents (Elt F) → (⟨S_, .f32⟩ : BufTy).Contents (Elt F)),
    binary main_v227 main_v234 main_v261 (addf : (⟨S_, .f32⟩ : BufTy).Contents (Elt F) → (⟨S_, .f32⟩ : BufTy).Contents (Elt F) → (⟨S_, .f32⟩ : BufTy).Contents (Elt F)),
    binary main_v261 main_v238 main_v262 (addf : (⟨S_, .f32⟩ : BufTy).Contents (Elt F) → (⟨S_, .f32⟩ : BufTy).Contents (Elt F) → (⟨S_, .f32⟩ : BufTy).Contents (Elt F)),
    binary main_v262 main_v243 main_v263 (addf : (⟨S_, .f32⟩ : BufTy).Contents (Elt F) → (⟨S_, .f32⟩ : BufTy).Contents (Elt F) → (⟨S_, .f32⟩ : BufTy).Contents (Elt F)),
    binary main_v263 main_v253 main_v264 (addf : (⟨S_, .f32⟩ : BufTy).Contents (Elt F) → (⟨S_, .f32⟩ : BufTy).Contents (Elt F) → (⟨S_, .f32⟩ : BufTy).Contents (Elt F)),
    binary main_v264 main_v260 main_v265 (addf : (⟨S_, .f32⟩ : BufTy).Contents (Elt F) → (⟨S_, .f32⟩ : BufTy).Contents (Elt F) → (⟨S_, .f32⟩ : BufTy).Contents (Elt F)),
    nullary main_cst_39 (constant S_ .f32 0x46800000#32),
    binary main_v265 main_cst_39 main_v266 (Host.divf : (⟨S_, .f32⟩ : BufTy).Contents (Elt F) → (⟨S_, .f32⟩ : BufTy).Contents (Elt F) → (⟨S_, .f32⟩ : BufTy).Contents (Elt F)) ]

/-- The whole line: the windows in order. -/
abbrev ops : List (HloOp τ sig (Elt F)) :=
  ops0 ++ (ops1 ++ (ops2 ++ (ops3 ++ (ops4 ++ (ops5)))))

/-! ## The program is that line -/

set_option maxRecDepth 8192 in
set_option maxHeartbeats 4000000 in
theorem part0_eq (c : Dev nD) : main_part0 (F := F) c = seq (ops0) := rfl
set_option maxRecDepth 8192 in
set_option maxHeartbeats 4000000 in
theorem part1_eq (c : Dev nD) : main_part1 (F := F) c = seq (ops1) := rfl
set_option maxRecDepth 8192 in
set_option maxHeartbeats 4000000 in
theorem part2_eq (c : Dev nD) : main_part2 (F := F) c = seq (ops2) := rfl
set_option maxRecDepth 8192 in
set_option maxHeartbeats 4000000 in
theorem part3_eq (c : Dev nD) : main_part3 (F := F) c = seq (ops3) := rfl
set_option maxRecDepth 8192 in
set_option maxHeartbeats 4000000 in
theorem part4_eq (c : Dev nD) : main_part4 (F := F) c = seq (ops4) := rfl
set_option maxRecDepth 8192 in
set_option maxHeartbeats 4000000 in
theorem part5_eq (c : Dev nD) : main_part5 (F := F) c = seq (ops5) := rfl

/-- The program is the whole line: each printed part is its windows' line, and lines run one
    after the other are their concatenation run as one. -/
theorem main_eq (c : Dev nD) : main (F := F) c = seq ops := by
  unfold main
  rw [part0_eq c, part1_eq c, part2_eq c, part3_eq c, part4_eq c, part5_eq c]
  simp only [ops, seq_append, bind_assoc]

theorem scopedRefs_eq : (Finset.univ.filter fun b : Ref sig .tc => b.isScoped) = ∅ := by decide
theorem scopedSems_eq : (Finset.univ.filter fun sm : SemLoc sig => sm.isScoped .tc) = ∅ := by decide

/-! ## Every operation touches the TensorCore's buffers only, and allocates nothing -/

/-- A property of every entry of two lists holds of every entry of their concatenation. -/
theorem forall_append {α : Type} {p : α → Prop} {l₁ l₂ : List α} (h₁ : l₁.Forall p) (h₂ : l₂.Forall p) :
    (l₁ ++ l₂).Forall p :=
  List.forall_iff_forall_mem.mpr fun a ha =>
    (List.mem_append.mp ha).elim (List.forall_iff_forall_mem.mp h₁ a) (List.forall_iff_forall_mem.mp h₂ a)

set_option maxRecDepth 8192 in
theorem ops0_sub : (ops0 : List (HloOp τ sig (Elt F))).Forall fun op => op.bufs ⊆ tcRefs τ sig :=
  ⟨unary_bufs_sub .., reshape_bufs_sub .., nullary_bufs_sub .., unary_bufs_sub .., binary_bufs_sub .., unary_bufs_sub .., nullary_bufs_sub .., unary_bufs_sub .., binary_bufs_sub .., unary_bufs_sub .., unary_bufs_sub .., unary_bufs_sub .., reshape_bufs_sub .., unary_bufs_sub .., reshape_bufs_sub .., nullary_bufs_sub .., unary_bufs_sub .., binary_bufs_sub .., binary_bufs_sub .., unary_bufs_sub .., reshape_bufs_sub .., unary_bufs_sub .., reshape_bufs_sub .., nullary_bufs_sub .., unary_bufs_sub .., binary_bufs_sub .., binary_bufs_sub .., unary_bufs_sub .., reshape_bufs_sub .., unary_bufs_sub .., reshape_bufs_sub .., nullary_bufs_sub .., unary_bufs_sub .., binary_bufs_sub .., binary_bufs_sub .., unary_bufs_sub .., reshape_bufs_sub .., unary_bufs_sub .., reshape_bufs_sub .., nullary_bufs_sub .., unary_bufs_sub .., binary_bufs_sub .., binary_bufs_sub .., unary_bufs_sub .., reshape_bufs_sub .., unary_bufs_sub .., reshape_bufs_sub .., nullary_bufs_sub .., unary_bufs_sub .., binary_bufs_sub .., binary_bufs_sub .., unary_bufs_sub .., reshape_bufs_sub .., unary_bufs_sub .., reshape_bufs_sub .., nullary_bufs_sub .., unary_bufs_sub .., binary_bufs_sub .., binary_bufs_sub .., unary_bufs_sub ..⟩
set_option maxRecDepth 8192 in
theorem ops1_sub : (ops1 : List (HloOp τ sig (Elt F))).Forall fun op => op.bufs ⊆ tcRefs τ sig :=
  ⟨reshape_bufs_sub .., unary_bufs_sub .., reshape_bufs_sub .., nullary_bufs_sub .., unary_bufs_sub .., binary_bufs_sub .., binary_bufs_sub .., unary_bufs_sub .., reshape_bufs_sub .., unary_bufs_sub .., reshape_bufs_sub .., nullary_bufs_sub .., unary_bufs_sub .., binary_bufs_sub .., binary_bufs_sub .., binary_bufs_sub .., binary_bufs_sub .., binary_bufs_sub .., nullary_bufs_sub .., unary_bufs_sub .., unary_bufs_sub .., binary_bufs_sub .., binary_bufs_sub .., binary_bufs_sub .., binary_bufs_sub .., nullary_bufs_sub .., unary_bufs_sub .., unary_bufs_sub .., binary_bufs_sub .., binary_bufs_sub .., unary_bufs_sub .., reshape_bufs_sub .., unary_bufs_sub .., reshape_bufs_sub .., binary_bufs_sub .., unary_bufs_sub .., reshape_bufs_sub .., unary_bufs_sub .., reshape_bufs_sub .., binary_bufs_sub .., binary_bufs_sub .., binary_bufs_sub .., nullary_bufs_sub .., unary_bufs_sub .., binary_bufs_sub .., binary_bufs_sub .., unary_bufs_sub .., unary_bufs_sub .., unary_bufs_sub .., reshape_bufs_sub .., unary_bufs_sub .., reshape_bufs_sub .., nullary_bufs_sub .., unary_bufs_sub .., binary_bufs_sub .., binary_bufs_sub .., unary_bufs_sub .., reshape_bufs_sub .., unary_bufs_sub .., reshape_bufs_sub .., nullary_bufs_sub .., unary_bufs_sub .., binary_bufs_sub .., binary_bufs_sub ..⟩
set_option maxRecDepth 8192 in
theorem ops2_sub : (ops2 : List (HloOp τ sig (Elt F))).Forall fun op => op.bufs ⊆ tcRefs τ sig :=
  ⟨unary_bufs_sub .., reshape_bufs_sub .., unary_bufs_sub .., reshape_bufs_sub .., nullary_bufs_sub .., unary_bufs_sub .., binary_bufs_sub .., binary_bufs_sub .., unary_bufs_sub .., reshape_bufs_sub .., unary_bufs_sub .., reshape_bufs_sub .., nullary_bufs_sub .., unary_bufs_sub .., binary_bufs_sub .., binary_bufs_sub .., unary_bufs_sub .., reshape_bufs_sub .., unary_bufs_sub .., reshape_bufs_sub .., nullary_bufs_sub .., unary_bufs_sub .., binary_bufs_sub .., binary_bufs_sub .., unary_bufs_sub .., reshape_bufs_sub .., unary_bufs_sub .., reshape_bufs_sub .., nullary_bufs_sub .., unary_bufs_sub .., binary_bufs_sub .., binary_bufs_sub .., unary_bufs_sub .., reshape_bufs_sub .., unary_bufs_sub .., reshape_bufs_sub .., nullary_bufs_sub .., unary_bufs_sub .., binary_bufs_sub .., binary_bufs_sub .., unary_bufs_sub .., reshape_bufs_sub .., unary_bufs_sub .., reshape_bufs_sub .., nullary_bufs_sub .., unary_bufs_sub .., binary_bufs_sub .., binary_bufs_sub .., binary_bufs_sub .., binary_bufs_sub .., binary_bufs_sub .., nullary_bufs_sub .., unary_bufs_sub .., unary_bufs_sub .., binary_bufs_sub .., binary_bufs_sub .., binary_bufs_sub .., binary_bufs_sub .., nullary_bufs_sub .., unary_bufs_sub .., unary_bufs_sub .., binary_bufs_sub .., binary_bufs_sub .., unary_bufs_sub ..⟩
set_option maxRecDepth 8192 in
theorem ops3_sub : (ops3 : List (HloOp τ sig (Elt F))).Forall fun op => op.bufs ⊆ tcRefs τ sig :=
  ⟨reshape_bufs_sub .., unary_bufs_sub .., reshape_bufs_sub .., binary_bufs_sub .., unary_bufs_sub .., reshape_bufs_sub .., unary_bufs_sub .., reshape_bufs_sub .., binary_bufs_sub .., binary_bufs_sub .., binary_bufs_sub .., nullary_bufs_sub .., unary_bufs_sub .., binary_bufs_sub .., binary_bufs_sub .., binary_bufs_sub .., unary_bufs_sub .., unary_bufs_sub .., unary_bufs_sub .., unary_bufs_sub .., binary_bufs_sub .., nullary_bufs_sub .., unary_bufs_sub .., binary_bufs_sub .., unary_bufs_sub .., unary_bufs_sub .., binary_bufs_sub .., binary_bufs_sub .., unary_bufs_sub .., unary_bufs_sub .., binary_bufs_sub .., nullary_bufs_sub .., unary_bufs_sub .., binary_bufs_sub .., unary_bufs_sub .., unary_bufs_sub .., binary_bufs_sub .., binary_bufs_sub .., unary_bufs_sub .., unary_bufs_sub .., binary_bufs_sub .., nullary_bufs_sub .., unary_bufs_sub .., binary_bufs_sub .., unary_bufs_sub .., unary_bufs_sub .., binary_bufs_sub .., binary_bufs_sub .., unary_bufs_sub .., unary_bufs_sub .., binary_bufs_sub .., nullary_bufs_sub .., unary_bufs_sub .., binary_bufs_sub .., unary_bufs_sub .., unary_bufs_sub .., binary_bufs_sub .., binary_bufs_sub .., unary_bufs_sub .., reshape_bufs_sub ..⟩
set_option maxRecDepth 8192 in
theorem ops4_sub : (ops4 : List (HloOp τ sig (Elt F))).Forall fun op => op.bufs ⊆ tcRefs τ sig :=
  ⟨unary_bufs_sub .., reshape_bufs_sub .., ternary_bufs_sub .., unary_bufs_sub .., reshape_bufs_sub .., unary_bufs_sub .., reshape_bufs_sub .., ternary_bufs_sub .., ternary_bufs_sub .., ternary_bufs_sub .., binary_bufs_sub .., binary_bufs_sub .., nullary_bufs_sub .., binary_bufs_sub .., binary_bufs_sub .., nullary_bufs_sub .., binary_bufs_sub .., nullary_bufs_sub .., binary_bufs_sub .., unary_bufs_sub .., unary_bufs_sub .., binary_bufs_sub .., binary_bufs_sub .., nullary_bufs_sub .., binary_bufs_sub .., binary_bufs_sub .., nullary_bufs_sub .., binary_bufs_sub .., binary_bufs_sub .., binary_bufs_sub .., binary_bufs_sub .., nullary_bufs_sub .., binary_bufs_sub .., binary_bufs_sub .., binary_bufs_sub .., binary_bufs_sub .., nullary_bufs_sub .., binary_bufs_sub .., nullary_bufs_sub .., binary_bufs_sub .., unary_bufs_sub .., reshape_bufs_sub .., binary_bufs_sub .., unary_bufs_sub .., reshape_bufs_sub .., binary_bufs_sub .., binary_bufs_sub .., binary_bufs_sub .., nullary_bufs_sub .., binary_bufs_sub .., nullary_bufs_sub .., binary_bufs_sub .., unary_bufs_sub .., unary_bufs_sub .., binary_bufs_sub .., binary_bufs_sub .., nullary_bufs_sub .., binary_bufs_sub .., binary_bufs_sub .., nullary_bufs_sub ..⟩
set_option maxRecDepth 8192 in
theorem ops5_sub : (ops5 : List (HloOp τ sig (Elt F))).Forall fun op => op.bufs ⊆ tcRefs τ sig :=
  ⟨binary_bufs_sub .., binary_bufs_sub .., binary_bufs_sub .., binary_bufs_sub .., binary_bufs_sub .., binary_bufs_sub .., nullary_bufs_sub .., binary_bufs_sub ..⟩
theorem ops_sub : (ops : List (HloOp τ sig (Elt F))).Forall fun op => op.bufs ⊆ tcRefs τ sig :=
  forall_append ops0_sub (forall_append ops1_sub (forall_append ops2_sub (forall_append ops3_sub (forall_append ops4_sub (ops5_sub)))))

set_option maxRecDepth 8192 in
theorem ops0_fresh : (ops0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops1_fresh : (ops1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops2_fresh : (ops2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops3_fresh : (ops3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops4_fresh : (ops4 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops5_fresh : (ops5 : List (HloOp τ sig (Elt F))).Forall fun op => op.fresh = ∅ :=
  ⟨rfl, rfl, rfl, rfl, rfl, rfl, rfl, rfl⟩
theorem ops_fresh : ∀ op ∈ (ops : List (HloOp τ sig (Elt F))), op.fresh = ∅ :=
  List.forall_iff_forall_mem.mp (forall_append ops0_fresh (forall_append ops1_fresh (forall_append ops2_fresh (forall_append ops3_fresh (forall_append ops4_fresh (ops5_fresh))))))

/-! ## The values, window by window

`Held k V x0 x1`: the buffers still needed after the first `k` windows hold, in the contents `V`,
their named stages of the argument arrays `x0`, `x1` (the argument buffers: the arrays themselves). -/

/-- The fold over two lines one after the other is the fold over the second from the fold over the first. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-- At the start: the argument buffers hold the argument arrays. -/
def Held0 (V : Valuation τ sig (Elt F)) (x0 x1 : (⟨S16384x7x7x30, .f32⟩ : BufTy).Contents (Elt F)) : Prop :=
  V (Proc.devRef .tc main_arg0) = x0
  ∧ V (Proc.devRef .tc main_arg1) = x1

/-- After window 1 (operations 1 … 60): what is still read later. -/
def Held1 (V : Valuation τ sig (Elt F)) (x0 x1 : (⟨S16384x7x7x30, .f32⟩ : BufTy).Contents (Elt F)) : Prop :=
  V (Proc.devRef .tc main_arg0) = x0
  ∧ V (Proc.devRef .tc main_arg1) = x1
  ∧ V (Proc.devRef .tc main_v4) = Cert.RefStages.val_main_v4 (F := F) x1
  ∧ V (Proc.devRef .tc main_v6) = Cert.RefStages.val_main_v6 (F := F) x1
  ∧ V (Proc.devRef .tc main_v7) = Cert.RefStages.val_main_v7 (F := F) x0
  ∧ V (Proc.devRef .tc main_v8) = Cert.RefStages.val_main_v8 (F := F) x1
  ∧ V (Proc.devRef .tc main_v15) = Cert.RefStages.val_main_v15 (F := F) x0
  ∧ V (Proc.devRef .tc main_v22) = Cert.RefStages.val_main_v22 (F := F) x0
  ∧ V (Proc.devRef .tc main_v29) = Cert.RefStages.val_main_v29 (F := F) x0
  ∧ V (Proc.devRef .tc main_v36) = Cert.RefStages.val_main_v36 (F := F) x0
  ∧ V (Proc.devRef .tc main_v43) = Cert.RefStages.val_main_v43 (F := F) x1
  ∧ V (Proc.devRef .tc main_v50) = Cert.RefStages.val_main_v50 (F := F) x1
  ∧ V (Proc.devRef .tc main_v51) = Cert.RefStages.val_main_v51 (F := F) x1

/-- After window 2 (operations 1 … 124): what is still read later. -/
def Held2 (V : Valuation τ sig (Elt F)) (x0 x1 : (⟨S16384x7x7x30, .f32⟩ : BufTy).Contents (Elt F)) : Prop :=
  V (Proc.devRef .tc main_arg0) = x0
  ∧ V (Proc.devRef .tc main_arg1) = x1
  ∧ V (Proc.devRef .tc main_v4) = Cert.RefStages.val_main_v4 (F := F) x1
  ∧ V (Proc.devRef .tc main_v6) = Cert.RefStages.val_main_v6 (F := F) x1
  ∧ V (Proc.devRef .tc main_v88) = Cert.RefStages.val_main_v88 (F := F) x0 x1
  ∧ V (Proc.devRef .tc main_v89) = Cert.RefStages.val_main_v89 (F := F) x0
  ∧ V (Proc.devRef .tc main_v90) = Cert.RefStages.val_main_v90 (F := F) x1
  ∧ V (Proc.devRef .tc main_v97) = Cert.RefStages.val_main_v97 (F := F) x0
  ∧ V (Proc.devRef .tc main_v104) = Cert.RefStages.val_main_v104 (F := F) x0

/-- After window 3 (operations 1 … 188): what is still read later. -/
def Held3 (V : Valuation τ sig (Elt F)) (x0 x1 : (⟨S16384x7x7x30, .f32⟩ : BufTy).Contents (Elt F)) : Prop :=
  V (Proc.devRef .tc main_arg0) = x0
  ∧ V (Proc.devRef .tc main_arg1) = x1
  ∧ V (Proc.devRef .tc main_v4) = Cert.RefStages.val_main_v4 (F := F) x1
  ∧ V (Proc.devRef .tc main_v6) = Cert.RefStages.val_main_v6 (F := F) x1
  ∧ V (Proc.devRef .tc main_v88) = Cert.RefStages.val_main_v88 (F := F) x0 x1
  ∧ V (Proc.devRef .tc main_v89) = Cert.RefStages.val_main_v89 (F := F) x0
  ∧ V (Proc.devRef .tc main_v90) = Cert.RefStages.val_main_v90 (F := F) x1
  ∧ V (Proc.devRef .tc main_v155) = Cert.RefStages.val_main_v155 (F := F) x0 x1
  ∧ V (Proc.devRef .tc main_v156) = Cert.RefStages.val_main_v156 (F := F) x0

/-- After window 4 (operations 1 … 248): what is still read later. -/
def Held4 (V : Valuation τ sig (Elt F)) (x0 x1 : (⟨S16384x7x7x30, .f32⟩ : BufTy).Contents (Elt F)) : Prop :=
  V (Proc.devRef .tc main_arg0) = x0
  ∧ V (Proc.devRef .tc main_arg1) = x1
  ∧ V (Proc.devRef .tc main_v4) = Cert.RefStages.val_main_v4 (F := F) x1
  ∧ V (Proc.devRef .tc main_v6) = Cert.RefStages.val_main_v6 (F := F) x1
  ∧ V (Proc.devRef .tc main_v88) = Cert.RefStages.val_main_v88 (F := F) x0 x1
  ∧ V (Proc.devRef .tc main_v170) = Cert.RefStages.val_main_v170 (F := F) x0 x1
  ∧ V (Proc.devRef .tc main_v171) = Cert.RefStages.val_main_v171 (F := F) x0 x1
  ∧ V (Proc.devRef .tc main_v182) = Cert.RefStages.val_main_v182 (F := F) x0 x1
  ∧ V (Proc.devRef .tc main_v191) = Cert.RefStages.val_main_v191 (F := F) x0 x1
  ∧ V (Proc.devRef .tc main_v200) = Cert.RefStages.val_main_v200 (F := F) x0 x1
  ∧ V (Proc.devRef .tc main_v209) = Cert.RefStages.val_main_v209 (F := F) x0 x1
  ∧ V (Proc.devRef .tc main_v211) = Cert.RefStages.val_main_v211 (F := F) x0

/-- After window 5 (operations 1 … 308): what is still read later. -/
def Held5 (V : Valuation τ sig (Elt F)) (x0 x1 : (⟨S16384x7x7x30, .f32⟩ : BufTy).Contents (Elt F)) : Prop :=
  V (Proc.devRef .tc main_arg0) = x0
  ∧ V (Proc.devRef .tc main_arg1) = x1
  ∧ V (Proc.devRef .tc main_v227) = Cert.RefStages.val_main_v227 (F := F) x0 x1
  ∧ V (Proc.devRef .tc main_v234) = Cert.RefStages.val_main_v234 (F := F) x0 x1
  ∧ V (Proc.devRef .tc main_v238) = Cert.RefStages.val_main_v238 (F := F) x0 x1
  ∧ V (Proc.devRef .tc main_v243) = Cert.RefStages.val_main_v243 (F := F) x0 x1
  ∧ V (Proc.devRef .tc main_v253) = Cert.RefStages.val_main_v253 (F := F) x0 x1
  ∧ V (Proc.devRef .tc main_v259) = Cert.RefStages.val_main_v259 (F := F) x0 x1
  ∧ V (Proc.devRef .tc main_cst_38) = Cert.RefStages.val_main_cst_38 (F := F)

/-- After window 6 (operations 1 … 316): what is still read later. -/
def Held6 (V : Valuation τ sig (Elt F)) (x0 x1 : (⟨S16384x7x7x30, .f32⟩ : BufTy).Contents (Elt F)) : Prop :=
  V (Proc.devRef .tc main_arg0) = x0
  ∧ V (Proc.devRef .tc main_arg1) = x1
  ∧ V (Proc.devRef .tc main_v266) = Cert.RefStages.val_main_v266 (F := F) x0 x1

set_option maxRecDepth 8192 in
set_option maxHeartbeats 40000000 in
/-- Window 1: each buffer still needed afterwards is either written here, by an operation whose stage is by definition that operation on the stages it reads, or passed on untouched. -/
theorem window0 (V : Valuation τ sig (Elt F)) (x0 x1 : (⟨S16384x7x7x30, .f32⟩ : BufTy).Contents (Elt F))
    (h : Held0 V x0 x1) : Held1 (after ops0 V) x0 x1 := by
  obtain ⟨h_arg0, h_arg1⟩ := h
  refine ⟨?_, ?_, ?_, ?_, ?_, ?_, ?_, ?_, ?_, ?_, ?_, ?_, ?_⟩
  all_goals (after_results_simp <;> (try simp only [h_arg0, h_arg1]) <;> rfl)

set_option maxRecDepth 8192 in
set_option maxHeartbeats 40000000 in
/-- Window 2: each buffer still needed afterwards is either written here, by an operation whose stage is by definition that operation on the stages it reads, or passed on untouched. -/
theorem window1 (V : Valuation τ sig (Elt F)) (x0 x1 : (⟨S16384x7x7x30, .f32⟩ : BufTy).Contents (Elt F))
    (h : Held1 V x0 x1) : Held2 (after ops1 V) x0 x1 := by
  obtain ⟨h_arg0, h_arg1, h_v4, h_v6, h_v7, h_v8, h_v15, h_v22, h_v29, h_v36, h_v43, h_v50, h_v51⟩ := h
  refine ⟨?_, ?_, ?_, ?_, ?_, ?_, ?_, ?_, ?_⟩
  all_goals (after_results_simp <;> (try simp only [h_arg0, h_arg1, h_v4, h_v6, h_v7, h_v8, h_v15, h_v22, h_v29, h_v36, h_v43, h_v50, h_v51]) <;> rfl)

set_option maxRecDepth 8192 in
set_option maxHeartbeats 40000000 in
/-- Window 3: each buffer still needed afterwards is either written here, by an operation whose stage is by definition that operation on the stages it reads, or passed on untouched. -/
theorem window2 (V : Valuation τ sig (Elt F)) (x0 x1 : (⟨S16384x7x7x30, .f32⟩ : BufTy).Contents (Elt F))
    (h : Held2 V x0 x1) : Held3 (after ops2 V) x0 x1 := by
  obtain ⟨h_arg0, h_arg1, h_v4, h_v6, h_v88, h_v89, h_v90, h_v97, h_v104⟩ := h
  refine ⟨?_, ?_, ?_, ?_, ?_, ?_, ?_, ?_, ?_⟩
  all_goals (after_results_simp <;> (try simp only [h_arg0, h_arg1, h_v4, h_v6, h_v88, h_v89, h_v90, h_v97, h_v104]) <;> rfl)

set_option maxRecDepth 8192 in
set_option maxHeartbeats 40000000 in
/-- Window 4: each buffer still needed afterwards is either written here, by an operation whose stage is by definition that operation on the stages it reads, or passed on untouched. -/
theorem window3 (V : Valuation τ sig (Elt F)) (x0 x1 : (⟨S16384x7x7x30, .f32⟩ : BufTy).Contents (Elt F))
    (h : Held3 V x0 x1) : Held4 (after ops3 V) x0 x1 := by
  obtain ⟨h_arg0, h_arg1, h_v4, h_v6, h_v88, h_v89, h_v90, h_v155, h_v156⟩ := h
  refine ⟨?_, ?_, ?_, ?_, ?_, ?_, ?_, ?_, ?_, ?_, ?_, ?_⟩
  all_goals (after_results_simp <;> (try simp only [h_arg0, h_arg1, h_v4, h_v6, h_v88, h_v89, h_v90, h_v155, h_v156]) <;> rfl)

set_option maxRecDepth 8192 in
set_option maxHeartbeats 40000000 in
/-- Window 5: each buffer still needed afterwards is either written here, by an operation whose stage is by definition that operation on the stages it reads, or passed on untouched. -/
theorem window4 (V : Valuation τ sig (Elt F)) (x0 x1 : (⟨S16384x7x7x30, .f32⟩ : BufTy).Contents (Elt F))
    (h : Held4 V x0 x1) : Held5 (after ops4 V) x0 x1 := by
  obtain ⟨h_arg0, h_arg1, h_v4, h_v6, h_v88, h_v170, h_v171, h_v182, h_v191, h_v200, h_v209, h_v211⟩ := h
  refine ⟨?_, ?_, ?_, ?_, ?_, ?_, ?_, ?_, ?_⟩
  all_goals (after_results_simp <;> (try simp only [h_arg0, h_arg1, h_v4, h_v6, h_v88, h_v170, h_v171, h_v182, h_v191, h_v200, h_v209, h_v211]) <;> rfl)

set_option maxRecDepth 8192 in
set_option maxHeartbeats 40000000 in
/-- Window 6: each buffer still needed afterwards is either written here, by an operation whose stage is by definition that operation on the stages it reads, or passed on untouched. -/
theorem window5 (V : Valuation τ sig (Elt F)) (x0 x1 : (⟨S16384x7x7x30, .f32⟩ : BufTy).Contents (Elt F))
    (h : Held5 V x0 x1) : Held6 (after ops5 V) x0 x1 := by
  obtain ⟨h_arg0, h_arg1, h_v227, h_v234, h_v238, h_v243, h_v253, h_v259, h_cst_38⟩ := h
  refine ⟨?_, ?_, ?_⟩
  all_goals (after_results_simp <;> (try simp only [h_arg0, h_arg1, h_v227, h_v234, h_v238, h_v243, h_v253, h_v259, h_cst_38]) <;> rfl)

/-- The windows composed: from contents where the argument buffers hold `x0`, `x1`, the whole line leaves
    the result buffer at the last stage and the argument buffers as they were. -/
theorem after_ops (V : Valuation τ sig (Elt F)) (x0 x1 : (⟨S16384x7x7x30, .f32⟩ : BufTy).Contents (Elt F))
    (h : Held0 V x0 x1) : Held6 (after ops V) x0 x1 := by
  rw [after_append, after_append, after_append, after_append, after_append]
  exact window5 _ x0 x1 (window4 _ x0 x1 (window3 _ x0 x1 (window2 _ x0 x1 (window1 _ x0 x1 (window0 _ x0 x1 (h))))))

set_option maxRecDepth 8192 in
set_option maxHeartbeats 4000000 in
/-- On every device, for any float values, from any memory with zero counters: every weakly fair
    execution of the program terminates with the result buffer at the last stage of the two argument
    arrays' launch contents, and with the argument arrays unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v266)
        = Cert.RefStages.val_main_v266 (F := F) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => by
      obtain ⟨h0, h1, hr⟩ := after_ops (launchContents m c) (m ((c.tc : Thread nD τ).loc main_arg0))
        (m ((c.tc : Thread nD τ).loc main_arg1)) ⟨rfl, rfl⟩
      exact ⟨(h c main_v266).trans hr, (h c main_arg0).trans h0, (h c main_arg1).trans h1⟩)
    (run_seq scopedRefs_eq scopedSems_eq defs main (fun _ => ops) main_eq (fun _ => ops_sub) m ρ (fun _ => ops_fresh))

end Cert.RefRun

end
-- ==== Proof.LibCells.lean ====
/-
  Arrays of grid cells read at an index.

  An array of shape [N, A, C, W] holds, for each grid cell (n, a, c), a row of W numbers. The lemmas here read the
  layout operations a program applies to such arrays at one index, named by its coordinates: a window of
  the last axis (columns b … b + w - 1) read at column k is the array at column b + k; the cast that drops
  a last axis of size one reads column 0; a per-cell value broadcast along a new last axis, or a one-column
  array broadcast to more columns, reads the cell's value; a scalar broadcast reads the scalar. A sum over
  the last axis is the sum over the columns of the cell's row; a sum over every axis is the sum over all cells.
  The elementwise operations that the library does not already read at an index (the conversion of a bit to
  a number, the host's square root) are read here too.
-/
import Idealize.ShloMosaic.Lib.ValueIdx
import Idealize.ShloMosaic.Lib.IdealHost
import Idealize.ShloMosaic.Lib.Pipeline.Value
import Idealize.ShloMosaic.PureOps.Ideal.Laws

noncomputable section

open scoped BigOperators

namespace LibCells

open Idealize.ShloMosaic Idealize.ShloMosaic.ValueIdx

section Layout
variable {α : Type} {N A C : Nat}

/-- A window of the last axis fits: its offset plus its width is at most the operand's width. -/
theorem window_le {W w b : Nat}
    (h : (⟨4, ![N, A, C, W]⟩ : Shape).Slices ![0, 0, 0, b] ⟨4, ![N, A, C, w]⟩) : b + w ≤ W :=
  h.2 (3 : Fin 4)

/-- Columns b … b + w - 1 of the last axis, read at cell (n, a, c) and column k: the operand at column b + k. -/
theorem window_apply {W w b : Nat} (x : (⟨4, ![N, A, C, W]⟩ : Shape).Idx → α)
    (h : (⟨4, ![N, A, C, W]⟩ : Shape).Slices ![0, 0, 0, b] ⟨4, ![N, A, C, w]⟩)
    (n : Fin N) (a : Fin A) (c : Fin C) (k : Fin w) :
    extractStridedSlice ⟨4, ![N, A, C, w]⟩ ![0, 0, 0, b] x h (ix4 n a c k)
      = x (ix4 n a c ⟨b + k.val, Nat.lt_of_lt_of_le (Nat.add_lt_add_left k.isLt b) (window_le h)⟩) := by
  refine extractStridedSlice_apply _ x h _ _ (fun e => match e with
    | ⟨0, _⟩ => by show n.val = 0 + n.val; omega
    | ⟨1, _⟩ => by show a.val = 0 + a.val; omega
    | ⟨2, _⟩ => by show c.val = 0 + c.val; omega
    | ⟨3, _⟩ => rfl)

/-- Dropping a last axis of size one: the value at cell (n, a, c) is the operand's one column there. -/
theorem dropLast_apply (y : (⟨4, ![N, A, C, 1]⟩ : Shape).Idx → α)
    (h : (⟨4, ![N, A, C, 1]⟩ : Shape).ShapeCasts ⟨3, ![N, A, C]⟩) (n : Fin N) (a : Fin A) (c : Fin C) :
    shapeCast ⟨3, ![N, A, C]⟩ y h (ix3 n a c) = y (ix4 n a c 0) := by
  refine shapeCast_apply y h _ _ ?_
  rw [Shape.rowMajor_val_four, Shape.rowMajor_val_three]
  show (((n.val * A + a.val) * C + c.val) * 1 + 0) = (n.val * A + a.val) * C + c.val
  omega

end Layout

section Broadcast
variable {α : Type} {N A C : Nat}

/-- A one-column array broadcast to w columns reads, at every column of a cell, the cell's one column. -/
theorem spread_apply {w : Nat} (y : (⟨4, ![N, A, C, 1]⟩ : Shape).Idx → α)
    (h : (⟨4, ![N, A, C, 1]⟩ : Shape).BroadcastsInDim ⟨4, ![N, A, C, w]⟩
      (![0, 1, 2, 3] : Fin 4 → Fin (⟨4, ![N, A, C, w]⟩ : Shape).rank))
    (n : Fin N) (a : Fin A) (c : Fin C) (k : Fin w) :
    broadcastInDim ⟨4, ![N, A, C, w]⟩ ![0, 1, 2, 3] h y (ix4 n a c k) = y (ix4 n a c 0) := by
  refine broadcastInDim_apply _ h y _ _ (fun e => match e with
    | ⟨0, _⟩ => by
        show n.val = if N = 1 then 0 else n.val
        have := n.isLt; split <;> omega
    | ⟨1, _⟩ => by
        show a.val = if A = 1 then 0 else a.val
        have := a.isLt; split <;> omega
    | ⟨2, _⟩ => by
        show c.val = if C = 1 then 0 else c.val
        have := c.isLt; split <;> omega
    | ⟨3, _⟩ => by show 0 = if (1 : Nat) = 1 then 0 else k.val; rw [if_pos rfl])

/-- A per-cell value given a new last axis of size one reads the cell's value. -/
theorem addLast_apply (y : (⟨3, ![N, A, C]⟩ : Shape).Idx → α)
    (h : (⟨3, ![N, A, C]⟩ : Shape).BroadcastsInDim ⟨4, ![N, A, C, 1]⟩
      (![0, 1, 2] : Fin 3 → Fin (⟨4, ![N, A, C, 1]⟩ : Shape).rank))
    (n : Fin N) (a : Fin A) (c : Fin C) (k : Fin 1) :
    broadcastInDim ⟨4, ![N, A, C, 1]⟩ ![0, 1, 2] h y (ix4 n a c k) = y (ix3 n a c) := by
  refine broadcastInDim_apply _ h y _ _ (fun e => match e with
    | ⟨0, _⟩ => by
        show n.val = if N = 1 then 0 else n.val
        have := n.isLt; split <;> omega
    | ⟨1, _⟩ => by
        show a.val = if A = 1 then 0 else a.val
        have := a.isLt; split <;> omega
    | ⟨2, _⟩ => by
        show c.val = if C = 1 then 0 else c.val
        have := c.isLt; split <;> omega)

end Broadcast

section Pointwise
variable {F : FTy → Type} [FloatOps F] {s : Shape} {φ : FTy}

/-- A conversion of unsigned words to floats at an index converts the element. -/
theorem uitofp_apply {w : Nat} (x : IVec s w) (i : s.Idx) : (uitofp φ x : FVec F s φ) i = FloatOps.uitofp φ (x i) := rfl

/-- The host's square root at an index, over the extended reals. -/
theorem hostSqrt_apply (a : FVec Ideal s φ) (i : s.Idx) : Host.sqrt a i = Ideal.sqrt (a i) := rfl

/-- A one-bit word converted to a float is the number 0 or 1 it encodes. -/
theorem uitofp_bit (b : BitVec 1) : FloatOps.uitofp (F := Ideal) .f32 b = ((b.toNat : ℝ) : EReal) := rfl

end Pointwise

section Sums
variable {N A C : Nat}

/-- The host's sum over the last axis, at cell (n, a, c): the initial value plus the sum of the cell's row. -/
theorem sumLast_apply {w : Nat} {u : Shape} (x : FVec Ideal ⟨4, ![N, A, C, w]⟩ .f32) (init : u.Idx → Ideal .f32)
    (h : (⟨4, ![N, A, C, w]⟩ : Shape).ReducesTo [3] ⟨3, ![N, A, C]⟩) (hu : 0 < u.numel)
    (n : Fin N) (a : Fin A) (c : Fin C) :
    Host.reduceAdd x init h hu (ix3 n a c) = init (Shape.Idx.first hu) + ∑ k : Fin w, x (ix4 n a c k) := by
  have hr : (⟨4, ![N, A, C, w]⟩ : Shape).Reduces [3] ⟨3, ![N, A, C]⟩ := ⟨h.1, show 0 < 3 by decide, h.2⟩
  rw [hostReduceAdd_apply, Ideal.hostReduceAdd_single h hr]
  refine congrArg (_ + ·) (Finset.sum_congr rfl fun k _ => ?_)
  exact congrArg x (funext fun e => Fin.ext (by
    match e with | ⟨0, _⟩ => rfl | ⟨1, _⟩ => rfl | ⟨2, _⟩ => rfl | ⟨3, _⟩ => rfl))

/-- The host's sum over every axis: the initial value plus the sum over all cells. -/
theorem sumAll_apply {s u : Shape} {axes : List (Fin s.rank)} (x : FVec Ideal s .f32) (init : u.Idx → Ideal .f32)
    (h : s.ReducesTo axes ⟨0, ![]⟩) (hu : 0 < u.numel) (i : (⟨0, ![]⟩ : Shape).Idx) :
    Host.reduceAdd x init h hu i = init (Shape.Idx.first hu) + ∑ j : s.Idx, x j := by
  rw [hostReduceAdd_apply]
  exact Ideal.hostReduceAdd_total h (fun b => b.elim0) x _ i

end Sums

end LibCells

end
-- ==== Proof.RefCells.lean ====
/-
  The reference program's value, cell by cell.

  The reference reads two arrays of shape [16384, 7, 7, 30], predictions x0 and targets x1: for
  each of the 16384 · 7 · 7 grid cells a row of 30 numbers. Every stage of the program up to the
  six totals is a function of one cell's two rows: the windows of the last axis pick entries of
  the row, the casts and broadcasts only rename the cell, and the sums over the last axis add
  over the entries of the row. This file reads each such stage at a cell (n, a, c) and identifies
  it with the matching quantity of the detection loss of that cell (objectness weights, overlap
  ratios, the responsible-box bit, the blended centre and size entries, the selected confidences
  and overlap ratios, the six terms). The program's result is then the six totals over the cells,
  with the factors 5 and 1/2 on the totals, added left to right and divided by 16384.
-/
import proofs.«118524_j27917287424001_2_alg».proof.Proof.RefStages
import proofs.«118524_j27917287424001_2_alg».proof.Proof.CellLoss
import proofs.«118524_j27917287424001_2_alg».proof.Proof.LibCells
import Idealize.ShloMosaic.Lib.ValueIdx
import Idealize.ShloMosaic.Lib.IdealHost
import Idealize.ShloMosaic.Lib.Pipeline.Value
import Idealize.ShloMosaic.PureOps.Ideal.Laws

noncomputable section

open scoped BigOperators

namespace Cert.RefCells

open Cert.ReferenceIdeal Cert.ReferenceIdeal.Gen Cert.RefStages Cert.CellLoss Idealize.ShloMosaic Idealize.ShloMosaic.ValueIdx LibCells

/-- The 30 numbers of grid cell j of an array of shape [16384, 7, 7, 30]. -/
def cell (x : S16384x7x7x30.Idx → EReal) (j : S16384x7x7.Idx) : Fin 30 → EReal :=
  fun k => x (ix4 (j 0) (j 1) (j 2) k)

/-- The same row named by the cell's three coordinates. -/
def cellAt (x : S16384x7x7x30.Idx → EReal) (n : Fin 16384) (a c : Fin 7) : Fin 30 → EReal :=
  fun k => x (ix4 n a c k)

theorem cell_ix3 (x : S16384x7x7x30.Idx → EReal) (n : Fin 16384) (a c : Fin 7) :
    cell x (ix3 n a c) = cellAt x n a c := rfl

variable (x0 x1 : (⟨S16384x7x7x30, .f32⟩ : BufTy).Contents (Elt Ideal)) (n : Fin 16384) (a c : Fin 7)

/-- Stage 4: the objectness weight of the cell, read from the target's entry 4. -/
theorem v4_at : val_main_v4 (F := Ideal) x1 (ix3 n a c) = obj (cellAt x1 n a c) := by
  simp only [val_main_v4, val_main_v3, val_main_v1, val_main_v0, val_main_v2, val_main_cst, window_apply, dropLast_apply, broadcastInDim_scalar_apply, constant_apply, mulf_apply, addf_apply, subf_apply, hostDivf_apply, maximumf_apply, minimumf_apply, cmpf_apply, select_apply, uitofp_apply, hostSqrt_apply, id_eq]
  rfl

/-- Stage 6: one minus the objectness weight. -/
theorem v6_at : val_main_v6 (F := Ideal) x1 (ix3 n a c) = noobj (cellAt x1 n a c) := by
  simp only [val_main_v6, val_main_v5, val_main_cst_0, window_apply, dropLast_apply, broadcastInDim_scalar_apply, constant_apply, mulf_apply, addf_apply, subf_apply, hostDivf_apply, maximumf_apply, minimumf_apply, cmpf_apply, select_apply, uitofp_apply, hostSqrt_apply, id_eq, v4_at]
  rfl

/-- Stages 68 and 72: the lengths of the overlap of the first predicted box (entries 0 to 3) with the target box,
    along x and along y. -/
theorem v68_at : val_main_v68 (F := Ideal) x0 x1 (ix3 n a c)
    = overlap (lo (cellAt x0 n a c 0) (cellAt x0 n a c 2)) (hi (cellAt x0 n a c 0) (cellAt x0 n a c 2))
        (lo (cellAt x1 n a c 0) (cellAt x1 n a c 2)) (hi (cellAt x1 n a c 0) (cellAt x1 n a c 2)) := by
  simp only [val_main_v68, val_main_call0_v1, val_main_call0_v0, val_main_cst_9, val_main_v67, val_main_v65, val_main_v29, val_main_v24, val_main_v23, val_main_v7, val_main_v28, val_main_v26, val_main_v25, val_main_v27, val_main_cst_3, val_main_v57, val_main_v52, val_main_v51, val_main_v8, val_main_v56, val_main_v54, val_main_v53, val_main_v55, val_main_cst_7, val_main_v66, val_main_v15, val_main_v10, val_main_v9, val_main_v14, val_main_v12, val_main_v11, val_main_v13, val_main_cst_1, val_main_v43, val_main_v38, val_main_v37, val_main_v42, val_main_v40, val_main_v39, val_main_v41, val_main_cst_5, window_apply, dropLast_apply, broadcastInDim_scalar_apply, constant_apply, mulf_apply, addf_apply, subf_apply, hostDivf_apply, maximumf_apply, minimumf_apply, cmpf_apply, select_apply, uitofp_apply, hostSqrt_apply, id_eq]
  rfl
theorem v72_at : val_main_v72 (F := Ideal) x0 x1 (ix3 n a c)
    = overlap (lo (cellAt x0 n a c 1) (cellAt x0 n a c 3)) (hi (cellAt x0 n a c 1) (cellAt x0 n a c 3))
        (lo (cellAt x1 n a c 1) (cellAt x1 n a c 3)) (hi (cellAt x1 n a c 1) (cellAt x1 n a c 3)) := by
  simp only [val_main_v72, val_main_call1_v1, val_main_call1_v0, val_main_cst_10, val_main_v71, val_main_v69, val_main_v36, val_main_v31, val_main_v30, val_main_v7, val_main_v35, val_main_v33, val_main_v32, val_main_v34, val_main_cst_4, val_main_v64, val_main_v59, val_main_v58, val_main_v8, val_main_v63, val_main_v61, val_main_v60, val_main_v62, val_main_cst_8, val_main_v70, val_main_v22, val_main_v17, val_main_v16, val_main_v21, val_main_v19, val_main_v18, val_main_v20, val_main_cst_2, val_main_v50, val_main_v45, val_main_v44, val_main_v49, val_main_v47, val_main_v46, val_main_v48, val_main_cst_6, window_apply, dropLast_apply, broadcastInDim_scalar_apply, constant_apply, mulf_apply, addf_apply, subf_apply, hostDivf_apply, maximumf_apply, minimumf_apply, cmpf_apply, select_apply, uitofp_apply, hostSqrt_apply, id_eq]
  rfl

/-- Stage 88: the overlap ratio of the first predicted box with the target box. -/
theorem v88_at : val_main_v88 (F := Ideal) x0 x1 (ix3 n a c) = iou1 (cellAt x0 n a c) (cellAt x1 n a c) := by
  simp only [val_main_v88, val_main_v73, val_main_v87, val_main_v85, val_main_v84, val_main_v78, val_main_v75, val_main_v74, val_main_v7, val_main_v77, val_main_v76, val_main_v83, val_main_v80, val_main_v79, val_main_v8, val_main_v82, val_main_v81, val_main_v86, val_main_cst_11, window_apply, dropLast_apply, broadcastInDim_scalar_apply, constant_apply, mulf_apply, addf_apply, subf_apply, hostDivf_apply, maximumf_apply, minimumf_apply, cmpf_apply, select_apply, uitofp_apply, hostSqrt_apply, id_eq, v68_at, v72_at]
  rfl

/-- Stages 150 and 154: the overlap lengths of the second predicted box (entries 5 to 8) with the target box. -/
theorem v150_at : val_main_v150 (F := Ideal) x0 x1 (ix3 n a c)
    = overlap (lo (cellAt x0 n a c 5) (cellAt x0 n a c 7)) (hi (cellAt x0 n a c 5) (cellAt x0 n a c 7))
        (lo (cellAt x1 n a c 0) (cellAt x1 n a c 2)) (hi (cellAt x1 n a c 0) (cellAt x1 n a c 2)) := by
  simp only [val_main_v150, val_main_call2_v1, val_main_call2_v0, val_main_cst_20, val_main_v149, val_main_v147, val_main_v111, val_main_v106, val_main_v105, val_main_v89, val_main_v110, val_main_v108, val_main_v107, val_main_v109, val_main_cst_14, val_main_v139, val_main_v134, val_main_v133, val_main_v90, val_main_v138, val_main_v136, val_main_v135, val_main_v137, val_main_cst_18, val_main_v148, val_main_v97, val_main_v92, val_main_v91, val_main_v96, val_main_v94, val_main_v93, val_main_v95, val_main_cst_12, val_main_v125, val_main_v120, val_main_v119, val_main_v124, val_main_v122, val_main_v121, val_main_v123, val_main_cst_16, window_apply, dropLast_apply, broadcastInDim_scalar_apply, constant_apply, mulf_apply, addf_apply, subf_apply, hostDivf_apply, maximumf_apply, minimumf_apply, cmpf_apply, select_apply, uitofp_apply, hostSqrt_apply, id_eq]
  rfl
theorem v154_at : val_main_v154 (F := Ideal) x0 x1 (ix3 n a c)
    = overlap (lo (cellAt x0 n a c 6) (cellAt x0 n a c 8)) (hi (cellAt x0 n a c 6) (cellAt x0 n a c 8))
        (lo (cellAt x1 n a c 1) (cellAt x1 n a c 3)) (hi (cellAt x1 n a c 1) (cellAt x1 n a c 3)) := by
  simp only [val_main_v154, val_main_call3_v1, val_main_call3_v0, val_main_cst_21, val_main_v153, val_main_v151, val_main_v118, val_main_v113, val_main_v112, val_main_v89, val_main_v117, val_main_v115, val_main_v114, val_main_v116, val_main_cst_15, val_main_v146, val_main_v141, val_main_v140, val_main_v90, val_main_v145, val_main_v143, val_main_v142, val_main_v144, val_main_cst_19, val_main_v152, val_main_v104, val_main_v99, val_main_v98, val_main_v103, val_main_v101, val_main_v100, val_main_v102, val_main_cst_13, val_main_v132, val_main_v127, val_main_v126, val_main_v131, val_main_v129, val_main_v128, val_main_v130, val_main_cst_17, window_apply, dropLast_apply, broadcastInDim_scalar_apply, constant_apply, mulf_apply, addf_apply, subf_apply, hostDivf_apply, maximumf_apply, minimumf_apply, cmpf_apply, select_apply, uitofp_apply, hostSqrt_apply, id_eq]
  rfl

/-- Stage 170: the overlap ratio of the second predicted box with the target box. -/
theorem v170_at : val_main_v170 (F := Ideal) x0 x1 (ix3 n a c) = iou2 (cellAt x0 n a c) (cellAt x1 n a c) := by
  simp only [val_main_v170, val_main_v155, val_main_v169, val_main_v167, val_main_v166, val_main_v160, val_main_v157, val_main_v156, val_main_v89, val_main_v159, val_main_v158, val_main_v165, val_main_v162, val_main_v161, val_main_v90, val_main_v164, val_main_v163, val_main_v168, val_main_cst_22, window_apply, dropLast_apply, broadcastInDim_scalar_apply, constant_apply, mulf_apply, addf_apply, subf_apply, hostDivf_apply, maximumf_apply, minimumf_apply, cmpf_apply, select_apply, uitofp_apply, hostSqrt_apply, id_eq, v150_at, v154_at]
  rfl

/-- Stage 171: the bit saying the first predicted box is the responsible one. -/
theorem v171_at : val_main_v171 (F := Ideal) x0 x1 (ix3 n a c) = best (cellAt x0 n a c) (cellAt x1 n a c) := by
  simp only [val_main_v171, cmpf_apply, v88_at, v170_at]
  rfl

/-- Stage 173: that bit as a number, on a new last axis of size one. -/
theorem v173_at (k : Fin 1) : val_main_v173 (F := Ideal) x0 x1 (ix4 n a c k) = bit (best (cellAt x0 n a c) (cellAt x1 n a c)) := by
  refine (addLast_apply (val_main_v172 (F := Ideal) x0 x1) _ n a c k).trans ?_
  simp only [val_main_v172, uitofp_apply, v171_at]
  rfl

/-- The stages that spread a one-column array over two columns read that column. -/
theorem v175_at (k : Fin 2) : val_main_v175 (F := Ideal) x0 x1 (ix4 n a c k) = val_main_v173 (F := Ideal) x0 x1 (ix4 n a c 0) :=
  spread_apply (val_main_v173 (F := Ideal) x0 x1) _ n a c k
theorem v180_at (k : Fin 2) : val_main_v180 (F := Ideal) x0 x1 (ix4 n a c k) = val_main_v178 (F := Ideal) x0 x1 (ix4 n a c 0) :=
  spread_apply (val_main_v178 (F := Ideal) x0 x1) _ n a c k
theorem v184_at (k : Fin 2) : val_main_v184 (F := Ideal) x0 x1 (ix4 n a c k) = val_main_v173 (F := Ideal) x0 x1 (ix4 n a c 0) :=
  spread_apply (val_main_v173 (F := Ideal) x0 x1) _ n a c k
theorem v189_at (k : Fin 2) : val_main_v189 (F := Ideal) x0 x1 (ix4 n a c k) = val_main_v187 (F := Ideal) x0 x1 (ix4 n a c 0) :=
  spread_apply (val_main_v187 (F := Ideal) x0 x1) _ n a c k
theorem v193_at (k : Fin 2) : val_main_v193 (F := Ideal) x0 x1 (ix4 n a c k) = val_main_v173 (F := Ideal) x0 x1 (ix4 n a c 0) :=
  spread_apply (val_main_v173 (F := Ideal) x0 x1) _ n a c k
theorem v198_at (k : Fin 2) : val_main_v198 (F := Ideal) x0 x1 (ix4 n a c k) = val_main_v196 (F := Ideal) x0 x1 (ix4 n a c 0) :=
  spread_apply (val_main_v196 (F := Ideal) x0 x1) _ n a c k
theorem v202_at (k : Fin 2) : val_main_v202 (F := Ideal) x0 x1 (ix4 n a c k) = val_main_v173 (F := Ideal) x0 x1 (ix4 n a c 0) :=
  spread_apply (val_main_v173 (F := Ideal) x0 x1) _ n a c k
theorem v207_at (k : Fin 2) : val_main_v207 (F := Ideal) x0 x1 (ix4 n a c k) = val_main_v205 (F := Ideal) x0 x1 (ix4 n a c 0) :=
  spread_apply (val_main_v205 (F := Ideal) x0 x1) _ n a c k

/-- Stage 182: the responsible box's predicted centre entries, blended by the 0/1 weight. -/
theorem v182_at (k : Fin 2) : val_main_v182 (F := Ideal) x0 x1 (ix4 n a c k)
    = pick (cellAt x0 n a c) (cellAt x1 n a c) (cellAt x0 n a c) 0 5 (by omega) (by omega) k := by
  simp only [val_main_v182, val_main_v176, val_main_v174, val_main_v181, val_main_v178, val_main_v177, val_main_cst_23, val_main_v179, v175_at, v180_at, v184_at, v189_at, v193_at, v198_at, v202_at, v207_at, window_apply, dropLast_apply, broadcastInDim_scalar_apply, constant_apply, mulf_apply, addf_apply, subf_apply, hostDivf_apply, maximumf_apply, minimumf_apply, cmpf_apply, select_apply, uitofp_apply, hostSqrt_apply, id_eq, v173_at]
  rfl

/-- Stage 191: the target's centre entries, blended the same way. -/
theorem v191_at (k : Fin 2) : val_main_v191 (F := Ideal) x0 x1 (ix4 n a c k)
    = pick (cellAt x0 n a c) (cellAt x1 n a c) (cellAt x1 n a c) 0 5 (by omega) (by omega) k := by
  simp only [val_main_v191, val_main_v185, val_main_v183, val_main_v190, val_main_v187, val_main_v186, val_main_cst_24, val_main_v188, v175_at, v180_at, v184_at, v189_at, v193_at, v198_at, v202_at, v207_at, window_apply, dropLast_apply, broadcastInDim_scalar_apply, constant_apply, mulf_apply, addf_apply, subf_apply, hostDivf_apply, maximumf_apply, minimumf_apply, cmpf_apply, select_apply, uitofp_apply, hostSqrt_apply, id_eq, v173_at]
  rfl

/-- Stage 200: the responsible box's predicted size entries. -/
theorem v200_at (k : Fin 2) : val_main_v200 (F := Ideal) x0 x1 (ix4 n a c k)
    = pick (cellAt x0 n a c) (cellAt x1 n a c) (cellAt x0 n a c) 2 7 (by omega) (by omega) k := by
  simp only [val_main_v200, val_main_v194, val_main_v192, val_main_v199, val_main_v196, val_main_v195, val_main_cst_25, val_main_v197, v175_at, v180_at, v184_at, v189_at, v193_at, v198_at, v202_at, v207_at, window_apply, dropLast_apply, broadcastInDim_scalar_apply, constant_apply, mulf_apply, addf_apply, subf_apply, hostDivf_apply, maximumf_apply, minimumf_apply, cmpf_apply, select_apply, uitofp_apply, hostSqrt_apply, id_eq, v173_at]
  rfl

/-- Stage 209: the target's size entries. -/
theorem v209_at (k : Fin 2) : val_main_v209 (F := Ideal) x0 x1 (ix4 n a c k)
    = pick (cellAt x0 n a c) (cellAt x1 n a c) (cellAt x1 n a c) 2 7 (by omega) (by omega) k := by
  simp only [val_main_v209, val_main_v203, val_main_v201, val_main_v208, val_main_v205, val_main_v204, val_main_cst_26, val_main_v206, v175_at, v180_at, v184_at, v189_at, v193_at, v198_at, v202_at, v207_at, window_apply, dropLast_apply, broadcastInDim_scalar_apply, constant_apply, mulf_apply, addf_apply, subf_apply, hostDivf_apply, maximumf_apply, minimumf_apply, cmpf_apply, select_apply, uitofp_apply, hostSqrt_apply, id_eq, v173_at]
  rfl

/-- Stage 214: the responsible box's confidence (entry 4 or entry 9). -/
theorem v214_at : val_main_v214 (F := Ideal) x0 x1 (ix3 n a c) = confResp (cellAt x0 n a c) (cellAt x1 n a c) := by
  simp only [val_main_v214, val_main_v211, val_main_v210, val_main_v213, val_main_v212, window_apply, dropLast_apply, broadcastInDim_scalar_apply, constant_apply, mulf_apply, addf_apply, subf_apply, hostDivf_apply, maximumf_apply, minimumf_apply, cmpf_apply, select_apply, uitofp_apply, hostSqrt_apply, id_eq, v171_at, v88_at, v170_at]
  rfl
/-- Stage 219: the other box's confidence. -/
theorem v219_at : val_main_v219 (F := Ideal) x0 x1 (ix3 n a c) = confOther (cellAt x0 n a c) (cellAt x1 n a c) := by
  simp only [val_main_v219, val_main_v216, val_main_v215, val_main_v218, val_main_v217, window_apply, dropLast_apply, broadcastInDim_scalar_apply, constant_apply, mulf_apply, addf_apply, subf_apply, hostDivf_apply, maximumf_apply, minimumf_apply, cmpf_apply, select_apply, uitofp_apply, hostSqrt_apply, id_eq, v171_at, v88_at, v170_at]
  rfl
/-- Stage 220: the responsible box's overlap ratio. -/
theorem v220_at : val_main_v220 (F := Ideal) x0 x1 (ix3 n a c) = iouResp (cellAt x0 n a c) (cellAt x1 n a c) := by
  simp only [val_main_v220, window_apply, dropLast_apply, broadcastInDim_scalar_apply, constant_apply, mulf_apply, addf_apply, subf_apply, hostDivf_apply, maximumf_apply, minimumf_apply, cmpf_apply, select_apply, uitofp_apply, hostSqrt_apply, id_eq, v171_at, v88_at, v170_at]
  rfl
/-- Stage 221: the other box's overlap ratio. -/
theorem v221_at : val_main_v221 (F := Ideal) x0 x1 (ix3 n a c) = iouOther (cellAt x0 n a c) (cellAt x1 n a c) := by
  simp only [val_main_v221, window_apply, dropLast_apply, broadcastInDim_scalar_apply, constant_apply, mulf_apply, addf_apply, subf_apply, hostDivf_apply, maximumf_apply, minimumf_apply, cmpf_apply, select_apply, uitofp_apply, hostSqrt_apply, id_eq, v171_at, v88_at, v170_at]
  rfl

/-- Stage 225: the centre term: the objectness weight times the sum over the two centre entries of the squared error. -/
theorem v225_at : val_main_v225 (F := Ideal) x0 x1 (ix3 n a c) = tXY (cellAt x0 n a c) (cellAt x1 n a c) := by
  simp only [val_main_v225, val_main_v224, val_main_v223, val_main_v222, val_main_cst_27, window_apply, dropLast_apply, broadcastInDim_scalar_apply, constant_apply, mulf_apply, addf_apply, subf_apply, hostDivf_apply, maximumf_apply, minimumf_apply, cmpf_apply, select_apply, uitofp_apply, hostSqrt_apply, id_eq, sumLast_apply, Ideal.ofBits_zero_f32, zero_add, v4_at, v182_at, v191_at]
  rfl

/-- Stage 233: the size term, on square roots. -/
theorem v233_at : val_main_v233 (F := Ideal) x0 x1 (ix3 n a c) = tWH (cellAt x0 n a c) (cellAt x1 n a c) := by
  simp only [val_main_v233, val_main_v232, val_main_v231, val_main_v230, val_main_v228, val_main_v229, val_main_cst_30, window_apply, dropLast_apply, broadcastInDim_scalar_apply, constant_apply, mulf_apply, addf_apply, subf_apply, hostDivf_apply, maximumf_apply, minimumf_apply, cmpf_apply, select_apply, uitofp_apply, hostSqrt_apply, id_eq, sumLast_apply, Ideal.ofBits_zero_f32, zero_add, v4_at, v200_at, v209_at]
  rfl

/-- Stage 237: the responsible box's confidence against its overlap ratio. -/
theorem v237_at : val_main_v237 (F := Ideal) x0 x1 (ix3 n a c) = tObj (cellAt x0 n a c) (cellAt x1 n a c) := by
  simp only [val_main_v237, val_main_v236, val_main_v235, window_apply, dropLast_apply, broadcastInDim_scalar_apply, constant_apply, mulf_apply, addf_apply, subf_apply, hostDivf_apply, maximumf_apply, minimumf_apply, cmpf_apply, select_apply, uitofp_apply, hostSqrt_apply, id_eq, sumLast_apply, Ideal.ofBits_zero_f32, zero_add, v4_at, v214_at, v220_at]
  rfl

/-- Stage 241: the other box's confidence against its overlap ratio. -/
theorem v241_at : val_main_v241 (F := Ideal) x0 x1 (ix3 n a c) = tIn (cellAt x0 n a c) (cellAt x1 n a c) := by
  simp only [val_main_v241, val_main_v240, val_main_v239, window_apply, dropLast_apply, broadcastInDim_scalar_apply, constant_apply, mulf_apply, addf_apply, subf_apply, hostDivf_apply, maximumf_apply, minimumf_apply, cmpf_apply, select_apply, uitofp_apply, hostSqrt_apply, id_eq, sumLast_apply, Ideal.ofBits_zero_f32, zero_add, v4_at, v219_at, v221_at]
  rfl

/-- Stage 251: the two confidences of a cell, weighted by one minus the objectness weight. -/
theorem v251_at : val_main_v251 (F := Ideal) x0 x1 (ix3 n a c) = tOut (cellAt x0 n a c) (cellAt x1 n a c) := by
  simp only [val_main_v251, val_main_v250, val_main_v246, val_main_v245, val_main_v244, val_main_v249, val_main_v248, val_main_v247, window_apply, dropLast_apply, broadcastInDim_scalar_apply, constant_apply, mulf_apply, addf_apply, subf_apply, hostDivf_apply, maximumf_apply, minimumf_apply, cmpf_apply, select_apply, uitofp_apply, hostSqrt_apply, id_eq, sumLast_apply, Ideal.ofBits_zero_f32, zero_add, v6_at]
  rfl

/-- Stage 259: the class term: the sum over the 20 class entries of the squared error. -/
theorem v259_at : val_main_v259 (F := Ideal) x0 x1 (ix3 n a c) = tCls (cellAt x0 n a c) (cellAt x1 n a c) := by
  simp only [val_main_v259, val_main_v258, val_main_v257, val_main_v256, val_main_v254, val_main_v255, val_main_cst_37, window_apply, dropLast_apply, broadcastInDim_scalar_apply, constant_apply, mulf_apply, addf_apply, subf_apply, hostDivf_apply, maximumf_apply, minimumf_apply, cmpf_apply, select_apply, uitofp_apply, hostSqrt_apply, id_eq, sumLast_apply, Ideal.ofBits_zero_f32, zero_add, v4_at]
  rfl

/-- The six terms at any cell index. -/
theorem v225_eq (j : S16384x7x7.Idx) : val_main_v225 (F := Ideal) x0 x1 j = tXY (cell x0 j) (cell x1 j) := by
  obtain ⟨n, a, c, rfl⟩ : ∃ (n : Fin 16384) (a c : Fin 7), j = ix3 n a c := ⟨j 0, j 1, j 2, eq_ix3 j⟩
  exact v225_at x0 x1 n a c
theorem v233_eq (j : S16384x7x7.Idx) : val_main_v233 (F := Ideal) x0 x1 j = tWH (cell x0 j) (cell x1 j) := by
  obtain ⟨n, a, c, rfl⟩ : ∃ (n : Fin 16384) (a c : Fin 7), j = ix3 n a c := ⟨j 0, j 1, j 2, eq_ix3 j⟩
  exact v233_at x0 x1 n a c
theorem v237_eq (j : S16384x7x7.Idx) : val_main_v237 (F := Ideal) x0 x1 j = tObj (cell x0 j) (cell x1 j) := by
  obtain ⟨n, a, c, rfl⟩ : ∃ (n : Fin 16384) (a c : Fin 7), j = ix3 n a c := ⟨j 0, j 1, j 2, eq_ix3 j⟩
  exact v237_at x0 x1 n a c
theorem v241_eq (j : S16384x7x7.Idx) : val_main_v241 (F := Ideal) x0 x1 j = tIn (cell x0 j) (cell x1 j) := by
  obtain ⟨n, a, c, rfl⟩ : ∃ (n : Fin 16384) (a c : Fin 7), j = ix3 n a c := ⟨j 0, j 1, j 2, eq_ix3 j⟩
  exact v241_at x0 x1 n a c
theorem v251_eq (j : S16384x7x7.Idx) : val_main_v251 (F := Ideal) x0 x1 j = tOut (cell x0 j) (cell x1 j) := by
  obtain ⟨n, a, c, rfl⟩ : ∃ (n : Fin 16384) (a c : Fin 7), j = ix3 n a c := ⟨j 0, j 1, j 2, eq_ix3 j⟩
  exact v251_at x0 x1 n a c
theorem v259_eq (j : S16384x7x7.Idx) : val_main_v259 (F := Ideal) x0 x1 j = tCls (cell x0 j) (cell x1 j) := by
  obtain ⟨n, a, c, rfl⟩ : ∃ (n : Fin 16384) (a c : Fin 7), j = ix3 n a c := ⟨j 0, j 1, j 2, eq_ix3 j⟩
  exact v259_at x0 x1 n a c

/-- The program's result: the six terms totalled over the cells, the factors 5 and 1/2 applied to the totals, the
    totals added left to right and the sum divided by 16384. -/
theorem ref_value (i : S_.Idx) : val_main_v266 (F := Ideal) x0 x1 i
    = Ideal.div (c5 * (∑ j, tXY (cell x0 j) (cell x1 j)) + (∑ j, tWH (cell x0 j) (cell x1 j))
        + (∑ j, tObj (cell x0 j) (cell x1 j)) + cHalf * (∑ j, tIn (cell x0 j) (cell x1 j))
        + cHalf * (∑ j, tOut (cell x0 j) (cell x1 j)) + (∑ j, tCls (cell x0 j) (cell x1 j)))
      (Ideal.ofBits .f32 0x46800000#32) := by
  simp only [val_main_v266, val_main_v265, val_main_v264, val_main_v263, val_main_v262, val_main_v261, val_main_v227, val_main_cst_29, val_main_v226, val_main_cst_28, val_main_v234, val_main_cst_31, val_main_v238, val_main_cst_32, val_main_v243, val_main_cst_34, val_main_v242, val_main_cst_33, val_main_v253, val_main_cst_36, val_main_v252, val_main_cst_35, val_main_v260, val_main_cst_38, val_main_cst_39, hostDivf_apply, addf_apply, mulf_apply, constant_apply, sumAll_apply,
    Ideal.ofBits_zero_f32, zero_add, v225_eq, v233_eq, v237_eq, v241_eq, v251_eq, v259_eq]

end Cert.RefCells

end
-- ==== Proof.lean ====
/-
  A detection loss (two boxes per grid cell, 20 classes) computed two ways over f32[16384, 7, 7, 30]
  predictions and targets, and the proof that over the extended reals both ways give the same number.

  The kernel flattens the arrays to 802816 rows of 30 entries, visits them in 392 blocks of 2048 rows,
  forms each row's loss (the factors 5 and 1/2 applied inside the row), sums a block's rows, carries a
  running total over the grid, and divides by 16384 on the host. The reference forms, cell by cell,
  the six terms of the loss, sums each term over all cells, applies 5 and 1/2 to two of the sums, adds
  the six sums and divides by 16384. A row of the flattened arrays is a cell, each cell once; the rest is
  the law that a nonnegative finite factor and the order of summation do not matter over the extended
  reals — no finiteness of the inputs is used, so the precondition is never opened.

  The three frames: the kernel's two from the generated frame certificates; the reference's from its run
  with the result forgotten. The idealization rewrote nothing, so it is preserved trivially.
-/
import proofs.«118524_j27917287424001_2_alg».proof.Defs
import proofs.«118524_j27917287424001_2_alg».proof.Proof.Gen.Kernel
import proofs.«118524_j27917287424001_2_alg».proof.Proof.Gen.Kernel.Skeleton
import proofs.«118524_j27917287424001_2_alg».proof.Proof.Gen.Kernel.Launch
import proofs.«118524_j27917287424001_2_alg».proof.Proof.Gen.Kernel.Points
import proofs.«118524_j27917287424001_2_alg».proof.Proof.Gen.Kernel.Frame
import proofs.«118524_j27917287424001_2_alg».proof.Proof.Gen.KernelIdeal
import proofs.«118524_j27917287424001_2_alg».proof.Proof.Gen.KernelIdeal.Skeleton
import proofs.«118524_j27917287424001_2_alg».proof.Proof.Gen.KernelIdeal.Launch
import proofs.«118524_j27917287424001_2_alg».proof.Proof.Gen.KernelIdeal.Points
import proofs.«118524_j27917287424001_2_alg».proof.Proof.Gen.KernelIdeal.Frame
import proofs.«118524_j27917287424001_2_alg».proof.Proof.Gen.ReferenceIdeal
import proofs.«118524_j27917287424001_2_alg».proof.Proof.Gen.Pre_finite_inputs
import proofs.«118524_j27917287424001_2_alg».proof.Proof.KernelTotal
import proofs.«118524_j27917287424001_2_alg».proof.Proof.RefRun
import proofs.«118524_j27917287424001_2_alg».proof.Proof.RefCells
import Idealize.ShloMosaic.Adequacy
import Idealize.ShloMosaic.Init

noncomputable section

namespace Cert.Proof

open Idealize.ShloMosaic Idealize.ShloMosaic.TcCoe Idealize.SL.Sem

/-- The reference's scalar, as the chain of its stages computes it from the kernel's argument arrays,
    is the kernel's scalar: both are the sum over all cells of the cell's loss divided by 16384, the
    reference's with the factors 5 and 1/2 outside the sums (the law of Proof/CellLoss.lean). -/
theorem value_eq (m : (ℓ : Loc Cert.KernelIdeal.nD Cert.KernelIdeal.τ Cert.KernelIdeal.sig) → Buf (Elt Ideal) ℓ)
    (c : Dev Cert.KernelIdeal.nD) :
    Cert.RefStages.val_main_v266 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
      = Cert.KernelIdeal.Total.value m c := by
  funext i
  rw [Cert.RefCells.ref_value]
  unfold Cert.KernelIdeal.Total.value
  rw [Cert.KernelIdeal.Total.running_cells, Cert.CellLoss.sum_rowTotal,
    show Cert.CellLoss.c0 = 0 from Ideal.ofBits_zero_f32, zero_add]
  rfl

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.RefRun.run (F := Ideal) m ρ)

theorem preserves : Cert.preserves_Kernel_KernelIdeal := trivial

/-- At the extended reals the kernel's result buffer ends at the total over the grid divided by 16384
    and the reference's at the last of its stages, of arguments that agree: one number (`value_eq`). -/
theorem algebraic : Cert.algebraic_KernelIdeal_ReferenceIdeal := by
  intro m ρ m' ρ' _ hagree
  refine ⟨fun c => Cert.KernelIdeal.Total.value m c, Cert.KernelIdeal.Total.run m ρ, ?_⟩
  refine (θ_run Cert.ReferenceIdeal.defs _ _).mono (fun _ h c => ⟨(h c).1.trans ?_, (h c).2⟩)
    (Cert.RefRun.run (F := Ideal) m' ρ')
  rw [(hagree c).1, (hagree c).2]
  exact value_eq m c

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
